-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S646x32768 : S_.BroadcastsInDim S646x32768 (![] : Fin 0 → Fin S646x32768.rank)
  reducesTo_S646x32768_S_d0_1 : S646x32768.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x41344 : S_.BroadcastsInDim S2x41344 (![] : Fin 0 → Fin S2x41344.rank)
  reducesTo_S2x41344_S_d0_1 : S2x41344.ReducesTo [0, 1] S_

variable [Facts]

def fn_part2 {F : FTy → Type} [FloatOps F] (main_arg1 : IVec S2x41344 32) (main_v33 : IVec S_ 1) : IVec S_ 1 :=
  let main_c_12 : IVec S_ 32 := constantI S_ 32 0#32
  let main_v34 : IVec S2x41344 32 := broadcastInDim S2x41344 ![] bcast_S_S2x41344 main_c_12
  let main_v35 : IVec S2x41344 1 := cmpi .sge main_arg1 main_v34
  let main_c_13 : IVec S_ 32 := constantI S_ 32 646#32
  let main_v36 : IVec S2x41344 32 := broadcastInDim S2x41344 ![] bcast_S_S2x41344 main_c_13
  let main_v37 : IVec S2x41344 1 := cmpi .slt main_arg1 main_v36
  let main_v38 : IVec S2x41344 1 := andi main_v35 main_v37
  let main_c_14 : IVec S_ 1 := constantI S_ 1 1#1
  let main_v39 : IVec S_ 1 := (fun x v => Host.reduce IntOp.andi x v reducesTo_S2x41344_S_d0_1 h_S_) main_v38 main_c_14
  let main_v40 : IVec S_ 1 := andi main_v33 main_v39
  main_v40

def fn_part1 {F : FTy → Type} [FloatOps F] (main_arg1 : IVec S2x41344 32) (main_arg5 : FVec F S128 .f32) (main_arg6 : FVec F S32768x64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S32768x64 .f32 := Host.absf main_arg6
  let main_cst_8 : FVec F S_ .f32 := constant S_ .f32 0x7F800000#32
  let main_v25 : FVec F S32768x64 .f32 := broadcastInDim S32768x64 ![] bcast_S_S32768x64 main_cst_8
  let main_v26 : IVec S32768x64 1 := cmpf .olt main_v24 main_v25
  let main_c_9 : IVec S_ 1 := constantI S_ 1 1#1
  let main_v27 : IVec S_ 1 := (fun x v => Host.reduce IntOp.andi x v reducesTo_S32768x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S646x32768 .f32) (main_arg1 : IVec S2x41344 32) (main_arg2 : FVec F S32768x64 .f32) (main_arg3 : FVec F S64 .f32) (main_arg4 : FVec F S64x128 .f32) (main_arg5 : FVec F S128 .f32) (main_arg6 : FVec F S32768x64 .f32) (main_arg7 : FVec F S64 .f32) : IVec S_ 1 :=
  let main_v0 : FVec F S646x32768 .f32 := Host.absf main_arg0
  let main_cst : FVec F S_ .f32 := constant S_ .f32 0x7F800000#32
  let main_v1 : FVec F S646x32768 .f32 := broadcastInDim S646x32768 ![] bcast_S_S646x32768 main_cst
  let main_v2 : IVec S646x32768 1 := cmpf .olt main_v0 main_v1
  let main_c : IVec S_ 1 := constantI S_ 1 1#1
  let main_v3 : IVec S_ 1 := (fun x v => Host.reduce IntOp.andi x v reducesTo_S646x32768_S_d0_1 h_S_) main_v2 main_c
  let main_v4 : FVec F S32768x64 .f32 := Host.absf main_arg2
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_v13 main_v16
-- ==== Kernel.lean ====
abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S32768x128 : Shape := ⟨2, ![32768, 128]⟩
abbrev S2x646x128 : Shape := ⟨3, ![2, 646, 128]⟩
abbrev S646x4096 : Shape := ⟨2, ![646, 4096]⟩
abbrev S4096x128 : Shape := ⟨2, ![4096, 128]⟩
abbrev S1x646x128 : Shape := ⟨3, ![1, 646, 128]⟩
abbrev S646x128 : Shape := ⟨2, ![646, 128]⟩
abbrev S646x64 : Shape := ⟨2, ![646, 64]⟩
abbrev S1x64 : Shape := ⟨2, ![1, 64]⟩
abbrev S646 : Shape := ⟨1, ![646]⟩
abbrev S1x41344 : Shape := ⟨2, ![1, 41344]⟩
abbrev S41344 : Shape := ⟨1, ![41344]⟩
abbrev S41990 : Shape := ⟨1, ![41990]⟩
abbrev S_ : Shape := ⟨0, ![]⟩
abbrev S41990x1 : Shape := ⟨2, ![41990, 1]⟩
abbrev S646x646 : Shape := ⟨2, ![646, 646]⟩
abbrev S41990x2 : Shape := ⟨2, ![41990, 2]⟩
abbrev S1x128 : Shape := ⟨2, ![1, 128]⟩

abbrev nBuf : Space → Nat
  | .hbm => 117
  | .vmem => 7
  | .smem => 0
  | _ => 0

abbrev bufTy : (tb : Table) → Fin (tcTables nBuf tb) → BufTy
  | .hbm, ⟨0, _⟩ => ⟨S646x32768, .f32⟩
  | .hbm, ⟨1, _⟩ => ⟨S2x41344, .i32⟩
  | .hbm, ⟨2, _⟩ => ⟨S32768x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S32768x64, .f32⟩
  | .hbm, ⟨7, _⟩ => ⟨S64, .f32⟩
  | .hbm, ⟨8, _⟩ => ⟨S32768x128, .f32⟩
  | .hbm, ⟨9, _⟩ => ⟨S2x646x128, .f32⟩
  | .hbm, ⟨10, _⟩ => ⟨S1x646x128, .f32⟩
  | .hbm, ⟨11, _⟩ => ⟨S646x128, .f32⟩
  | .hbm, ⟨12, _⟩ => ⟨S1x646x128, .f32⟩
  | .hbm, ⟨13, _⟩ => ⟨S646x128, .f32⟩
  | .hbm, ⟨14, _⟩ => ⟨S646x128, .f32⟩
  | .hbm, ⟨15, _⟩ => ⟨S646x64, .f32⟩
  | .hbm, ⟨16, _⟩ => ⟨S646x64, .f32⟩
  | .hbm, ⟨17, _⟩ => ⟨S1x64, .f32⟩
  | .hbm, ⟨18, _⟩ => ⟨S646x64, .f32⟩
  | .hbm, ⟨19, _⟩ => ⟨S646x64, .f32⟩
  | .hbm, ⟨20, _⟩ => ⟨S646, .i32⟩
  | .hbm, ⟨21, _⟩ => ⟨S1x41344, .i32⟩
  | .hbm, ⟨22, _⟩ => ⟨S41344, .i32⟩
  | .hbm, ⟨23, _⟩ => ⟨S41990, .i32⟩
  | .hbm, ⟨24, _⟩ => ⟨S1x41344, .i32⟩
  | .hbm, ⟨25, _⟩ => ⟨S41344, .i32⟩
  | .hbm, ⟨26, _⟩ => ⟨S41990, .i32⟩
  | .hbm, ⟨27, _⟩ => ⟨S_, .f32⟩
  | .hbm, ⟨28, _⟩ => ⟨S41990, .f32⟩
  | .hbm, ⟨29, _⟩ => ⟨S_, .f32⟩
  | .hbm, ⟨30, _⟩ => ⟨S646, .f32⟩
  | .hbm, ⟨31, _⟩ => ⟨S41990x1, .i32⟩
  | .hbm, ⟨32, _⟩ => ⟨S646, .f32⟩
  | .hbm, ⟨33, _⟩ => ⟨S_, .f32⟩
  | .hbm, ⟨34, _⟩ => ⟨S646, .f32⟩
  | .hbm, ⟨35, _⟩ => ⟨S646, .i1⟩
  | .hbm, ⟨36, _⟩ => ⟨S646, .f32⟩
  | .hbm, ⟨37, _⟩ => ⟨S_, .f32⟩
  | .hbm, ⟨38, _⟩ => ⟨S_, .f32⟩
  | .hbm, ⟨39, _⟩ => ⟨S646, .f32⟩
  | .hbm, ⟨40, _⟩ => ⟨S646, .f32⟩
  | .hbm, ⟨41, _⟩ => ⟨S_, .i32⟩
  | .hbm, ⟨42, _⟩ => ⟨S41990, .i32⟩
  | .hbm, ⟨43, _⟩ => ⟨S41990, .i1⟩
  | .hbm, ⟨44, _⟩ => ⟨S_, .i32⟩
  | .hbm, ⟨45, _⟩ => ⟨S41990, .i32⟩
  | .hbm, ⟨46, _⟩ => ⟨S41990, .i32⟩
  | .hbm, ⟨47, _⟩ => ⟨S41990, .i32⟩
  | .hbm, ⟨48, _⟩ => ⟨S41990x1, .i32⟩
  | .hbm, ⟨49, _⟩ => ⟨S41990, .f32⟩
  | .hbm, ⟨50, _⟩ => ⟨S_, .i32⟩
  | .hbm, ⟨51, _⟩ => ⟨S41990, .i32⟩
  | .hbm, ⟨52, _⟩ => ⟨S41990, .i1⟩
  | .hbm, ⟨53, _⟩ => ⟨S_, .i32⟩
  | .hbm, ⟨54, _⟩ => ⟨S41990, .i32⟩
  | .hbm, ⟨55, _⟩ => ⟨S41990, .i32⟩
  | .hbm, ⟨56, _⟩ => ⟨S41990, .i32⟩
  | .hbm, ⟨57, _⟩ => ⟨S41990x1, .i32⟩
  | .hbm, ⟨58, _⟩ => ⟨S41990, .f32⟩
  | .hbm, ⟨59, _⟩ => ⟨S41990, .f32⟩
  | .hbm, ⟨60, _⟩ => ⟨S_, .f32⟩
  | .hbm, ⟨61, _⟩ => ⟨S646x646, .f32⟩
  | .hbm, ⟨62, _⟩ => ⟨S_, .i32⟩
  | .hbm, ⟨63, _⟩ => ⟨S41990, .i32⟩
  | .hbm, ⟨64, _⟩ => ⟨S41990, .i1⟩
  | .hbm, ⟨65, _⟩ => ⟨S_, .i32⟩
  | .hbm, ⟨66, _⟩ => ⟨S41990, .i32⟩
  | .hbm, ⟨67, _⟩ => ⟨S41990, .i32⟩
  | .hbm, ⟨68, _⟩ => ⟨S41990, .i32⟩
  | .hbm, ⟨69, _⟩ => ⟨S_, .i32⟩
  | .hbm, ⟨70, _⟩ => ⟨S41990, .i32⟩
  | .hbm, ⟨71, _⟩ => ⟨S41990, .i1⟩
  | .hbm, ⟨72, _⟩ => ⟨S_, .i32⟩
  | .hbm, ⟨73, _⟩ => ⟨S41990, .i32⟩
  | .hbm, ⟨74, _⟩ => ⟨S41990, .i32⟩
  | .hbm, ⟨75, _⟩ => ⟨S41990, .i32⟩
  | .hbm, ⟨76, _⟩ => ⟨S41990x1, .i32⟩
  | .hbm, ⟨77, _⟩ => ⟨S41990x1, .i32⟩
  | .hbm, ⟨78, _⟩ => ⟨S41990x2, .i32⟩
  | .hbm, ⟨79, _⟩ => ⟨S646x646, .f32⟩
  | .hbm, ⟨80, _⟩ => ⟨S646x64, .f32⟩
  | .hbm, ⟨81, _⟩ => ⟨S1x64, .f32⟩
  | .hbm, ⟨82, _⟩ => ⟨S646x64, .f32⟩
  | .hbm, ⟨83, _⟩ => ⟨S646x64, .f32⟩
  | .hbm, ⟨84, _⟩ => ⟨S646x64, .f32⟩
  | .hbm, ⟨85, _⟩ => ⟨S646x64, .f32⟩
  | .hbm, ⟨86, _⟩ => ⟨S646x64, .f32⟩
  | .hbm, ⟨87, _⟩ => ⟨S_, .f32⟩
  | .hbm, ⟨88, _⟩ => ⟨S646x64, .f32⟩
  | .hbm, ⟨89, _⟩ => ⟨S646x64, .f32⟩
  | .hbm, ⟨90, _⟩ => ⟨S_, .f32⟩
  | .hbm, ⟨91, _⟩ => ⟨S646x64, .f32⟩
  | .hbm, ⟨92, _⟩ => ⟨S646x64, .f32⟩
  | .hbm, ⟨93, _⟩ => ⟨S646x64, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S646x64, .f32⟩
  | .hbm, ⟨99, _⟩ => ⟨S646x64, .f32⟩
  | .hbm, ⟨100, _⟩ => ⟨S646x64, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S646x64, .f32⟩
  | .hbm, ⟨106, _⟩ => ⟨S646x64, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S646x64, .f32⟩
  | .hbm, ⟨111, _⟩ => ⟨S646x64, .f32⟩
  | .hbm, ⟨112, _⟩ => ⟨S646x128, .f32⟩
  | .hbm, ⟨113, _⟩ => ⟨S646x128, .f32⟩
  | .hbm, ⟨114, _⟩ => ⟨S1x128, .f32⟩
  | .hbm, ⟨115, _⟩ => ⟨S646x128, .f32⟩
  | .hbm, ⟨116, _⟩ => ⟨S646x128, .f32⟩
  | .local _ .vmem, ⟨0, _⟩ => ⟨S646x4096, .f32⟩
  | .local _ .vmem, ⟨1, _⟩ => ⟨S646x4096, .f32⟩
  | .local _ .vmem, ⟨2, _⟩ => ⟨S4096x128, .f32⟩
  | .local _ .vmem, ⟨3, _⟩ => ⟨S4096x128, .f32⟩
  | .local _ .vmem, ⟨4, _⟩ => ⟨S1x646x128, .f32⟩
  | .local _ .vmem, ⟨5, _⟩ => ⟨S1x646x128, .f32⟩
  | .local _ .vmem, ⟨6, _⟩ => ⟨S646x128, .f32⟩
  | _, _ => ⟨S646x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S646x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x646x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  concatenates_S32768x64_S32768x64_S32768x128_d1 : Shape.Concatenates [S32768x64, S32768x64] S32768x128 1
  inb_S646x128_S646x128_0_0 : ∀ a, (![0, 0] : Fin 2 → Nat) a + S646x128.size a ≤ S646x128.size a
  h_S646x128 : 0 < S646x128.numel
  shapeCasts_S646x128_S646x128 : S646x128.ShapeCasts S646x128
  inb_S646x4096_S646x4096_0_0 : ∀ a, (![0, 0] : Fin 2 → Nat) a + S646x4096.size a ≤ S646x4096.size a
  h_S646x4096 : 0 < S646x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x646x128_S1x646x128_0_0_0 : ∀ a, (![0, 0, 0] : Fin 3 → Nat) a + S1x646x128.size a ≤ S1x646x128.size a
  h_S1x646x128 : 0 < S1x646x128.numel
  shapeCasts_S1x646x128_S646x128 : S1x646x128.ShapeCasts S646x128
  shapeCasts_S646x128_S1x646x128 : S646x128.ShapeCasts S1x646x128
  slices_S2x646x128_S1x646x128_0_0_0 : S2x646x128.Slices ![0, 0, 0] S1x646x128
  slices_S2x646x128_S1x646x128_1_0_0 : S2x646x128.Slices ![1, 0, 0] S1x646x128
  slices_S646x128_S646x64_0_0 : S646x128.Slices ![0, 0] S646x64
  slices_S646x128_S646x64_0_64 : S646x128.Slices ![0, 64] S646x64
  bcast_S64_S1x64_1 : S64.BroadcastsInDim S1x64 (![1] : Fin 1 → Fin S1x64.rank)
  bcast_S1x64_S646x64_0_1 : S1x64.BroadcastsInDim S646x64 (![0, 1] : Fin 2 → Fin S646x64.rank)
  slices_S2x41344_S1x41344_0_0 : S2x41344.Slices ![0, 0] S1x41344
  shapeCasts_S1x41344_S41344 : S1x41344.ShapeCasts S41344
  concatenates_S41344_S646_S41990_d0 : Shape.Concatenates [S41344, S646] S41990 0
  slices_S2x41344_S1x41344_1_0 : S2x41344.Slices ![1, 0] S1x41344
  bcast_S_S41990 : S_.BroadcastsInDim S41990 (![] : Fin 0 → Fin S41990.rank)
  bcast_S_S646 : S_.BroadcastsInDim S646 (![] : Fin 0 → Fin S646.rank)
  bcast_S41990_S41990x1_0 : S41990.BroadcastsInDim S41990x1 (![0] : Fin 1 → Fin S41990x1.rank)
  bcast_S_S646x646 : S_.BroadcastsInDim S646x646 (![] : Fin 0 → Fin S646x646.rank)
  concatenates_S41990x1_S41990x1_S41990x2_d1 : Shape.Concatenates [S41990x1, S41990x1] S41990x2 1
  bcast_S_S646x64 : S_.BroadcastsInDim S646x64 (![] : Fin 0 → Fin S646x64.rank)
  reducesTo_S646x64_S_d0_1 : S646x64.ReducesTo [0, 1] S_
  h_S_ : 0 < S_.numel
  bcast_S128_S1x128_1 : S128.BroadcastsInDim S1x128 (![1] : Fin 1 → Fin S1x128.rank)
  bcast_S1x128_S646x128_0_1 : S1x128.BroadcastsInDim S646x128 (![0, 1] : Fin 2 → Fin S646x128.rank)
  dot_S646x4096_S4096x128_S646x128_1_0_0_1_n_n_wf : DotDims.WF S646x4096 S4096x128 S646x128 [1] [0] [0] [1] [] []
  scatter_S646_S41990x1_S41990_n_0_0_1_wf : ScatterDims.WF S646 S41990x1 S41990 [] [0] [0] 1
  gather_S646_S41990x1_S41990_n_0_n_n_0_1_1_wf : GatherDims.WF S646 S41990x1 S41990 [] [0] [] [0] [] 1 ![1]
  scatter_S646x646_S41990x2_S41990_n_01_01_1_wf : ScatterDims.WF S646x646 S41990x2 S41990 [] [0, 1] [0, 1] 1
  dot_S646x646_S646x64_S646x64_1_0_0_1_n_n_wf : DotDims.WF S646x646 S646x64 S646x64 [1] [0] [0] [1] [] []
  dot_S646x64_S64x128_S646x128_1_0_0_1_n_n_wf : DotDims.WF S646x64 S64x128 S646x128 [1] [0] [0] [1] [] []
  dot_S646x646_S646x128_S646x128_1_0_0_1_n_n_wf : DotDims.WF S646x646 S646x128 S646x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S646x4096.size a ≤ S646x32768.size a
  hwx0_0 : ∀ i : grid0.Coords, EltTy.bits .f32 = 32 ∨ (Rect.block (s := S646x32768) S646x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S32768x128.size a
  hwx0_1 : ∀ i : grid0.Coords, EltTy.bits .f32 = 32 ∨ (Rect.block (s := S32768x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x646x128.size a ≤ S2x646x128.size a
  hwx0_2 : ∀ i : grid0.Coords, EltTy.bits .f32 = 32 ∨ (Rect.block (s := S2x646x128) S1x646x128.size (cc0_transform_2 i) (hinb0_2 i)).WholeWords (EltTy.packing .f32)

variable [Facts₀]

def dot_S646x4096_S4096x128_S646x128_1_0_0_1_n_n : DotDims S646x4096 S4096x128 S646x128 where
  lhsContracting := [1]
  rhsContracting := [0]
  lhsNonContracting := [0]
  rhsNonContracting := [1]
  lhsBatch := []
  rhsBatch := []
  wf := dot_S646x4096_S4096x128_S646x128_1_0_0_1_n_n_wf
def scatter_S646_S41990x1_S41990_n_0_0_1 : ScatterDims S646 S41990x1 S41990 where
  updateWindowDims := []
  insertedWindowDims := [0]
  scatterDimsToOperandDims := [0]
  indexVectorDim := 1
  wf := scatter_S646_S41990x1_S41990_n_0_0_1_wf
def gather_S646_S41990x1_S41990_n_0_n_n_0_1_1 : GatherDims S646 S41990x1 S41990 where
  offsetDims := []
  collapsedSliceDims := [0]
  operandBatchingDims := []
  startIndicesBatchingDims := []
  startIndexMap := [0]
  indexVectorDim := 1
  sliceSizes := ![1]
  wf := gather_S646_S41990x1_S41990_n_0_n_n_0_1_1_wf
def scatter_S646x646_S41990x2_S41990_n_01_01_1 : ScatterDims S646x646 S41990x2 S41990 where
  updateWindowDims := []
  insertedWindowDims := [0, 1]
  scatterDimsToOperandDims := [0, 1]
  indexVectorDim := 1
  wf := scatter_S646x646_S41990x2_S41990_n_01_01_1_wf
def dot_S646x646_S646x64_S646x64_1_0_0_1_n_n : DotDims S646x646 S646x64 S646x64 where
  lhsContracting := [1]
  rhsContracting := [0]
  lhsNonContracting := [0]
  rhsNonContracting := [1]
  lhsBatch := []
  rhsBatch := []
  wf := dot_S646x646_S646x64_S646x64_1_0_0_1_n_n_wf
def dot_S646x64_S64x128_S646x128_1_0_0_1_n_n : DotDims S646x64 S64x128 S646x128 where
  lhsContracting := [1]
  rhsContracting := [0]
  lhsNonContracting := [0]
  rhsNonContracting := [1]
  lhsBatch := []
  rhsBatch := []
  wf := dot_S646x64_S64x128_S646x128_1_0_0_1_n_n_wf
def dot_S646x646_S646x128_S646x128_1_0_0_1_n_n : DotDims S646x646 S646x128 S646x128 where
  lhsContracting := [1]
  rhsContracting := [0]
  lhsNonContracting := [0]
  rhsNonContracting := [1]
  lhsBatch := []
  rhsBatch := []
  wf := dot_S646x646_S646x128_S646x128_1_0_0_1_n_n_wf

abbrev win0_0 : Pipeline.Window sig grid0 :=
  Pipeline.Window.ofSpec (Memref.whole main_arg0) S646x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x646x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S646x64 : Shape := ⟨2, ![646, 64]⟩
abbrev S1x64 : Shape := ⟨2, ![1, 64]⟩
abbrev S646 : Shape := ⟨1, ![646]⟩
abbrev S1x41344 : Shape := ⟨2, ![1, 41344]⟩
abbrev S41344 : Shape := ⟨1, ![41344]⟩
abbrev S41990 : Shape := ⟨1, ![41990]⟩
abbrev S_ : Shape := ⟨0, ![]⟩
abbrev S41990x1 : Shape := ⟨2, ![41990, 1]⟩
abbrev S41990x64 : Shape := ⟨2, ![41990, 64]⟩
abbrev S646x128 : Shape := ⟨2, ![646, 128]⟩
abbrev S41990x128 : Shape := ⟨2, ![41990, 128]⟩
abbrev S1x128 : Shape := ⟨2, ![1, 128]⟩

abbrev nBuf : Space → Nat
  | .hbm => 160
  | .vmem => 0
  | .smem => 0
  | _ => 0

abbrev hbmTy0_0 (i : Nat) : BufTy := match i % 128 with
  | 0 => ⟨S646x32768, .f32⟩
  | 1 => ⟨S2x41344, .i32⟩
  | 2 => ⟨S32768x64, .f32⟩
  | 3 => ⟨S64, .f32⟩
  | 4 => ⟨S64x128, .f32⟩
  | 5 => ⟨S128, .f32⟩
  | 6 => ⟨S32768x64, .f32⟩
  | 7 => ⟨S64, .f32⟩
  | 8 => ⟨S646x64, .f32⟩
  | 9 => ⟨S1x64, .f32⟩
  | 10 => ⟨S646x64, .f32⟩
  | 11 => ⟨S646x64, .f32⟩
  | 12 => ⟨S646x64, .f32⟩
  | 13 => ⟨S646, .i32⟩
  | 14 => ⟨S1x41344, .i32⟩
  | 15 => ⟨S41344, .i32⟩
  | 16 => ⟨S41990, .i32⟩
  | 17 => ⟨S1x41344, .i32⟩
  | 18 => ⟨S41344, .i32⟩
  | 19 => ⟨S41990, .i32⟩
  | 20 => ⟨S_, .f32⟩
  | 21 => ⟨S41990, .f32⟩
  | 22 => ⟨S_, .f32⟩
  | 23 => ⟨S646, .f32⟩
  | 24 => ⟨S41990x1, .i32⟩
  | 25 => ⟨S646, .f32⟩
  | 26 => ⟨S_, .f32⟩
  | 27 => ⟨S646, .f32⟩
  | 28 => ⟨S646, .i1⟩
  | 29 => ⟨S646, .f32⟩
  | 30 => ⟨S_, .f32⟩
  | 31 => ⟨S_, .f32⟩
  | 32 => ⟨S646, .f32⟩
  | 33 => ⟨S646, .f32⟩
  | 34 => ⟨S_, .i32⟩
  | 35 => ⟨S41990, .i32⟩
  | 36 => ⟨S41990, .i1⟩
  | 37 => ⟨S_, .i32⟩
  | 38 => ⟨S41990, .i32⟩
  | 39 => ⟨S41990, .i32⟩
  | 40 => ⟨S41990, .i32⟩
  | 41 => ⟨S41990x1, .i32⟩
  | 42 => ⟨S41990, .f32⟩
  | 43 => ⟨S_, .i32⟩
  | 44 => ⟨S41990, .i32⟩
  | 45 => ⟨S41990, .i1⟩
  | 46 => ⟨S_, .i32⟩
  | 47 => ⟨S41990, .i32⟩
  | 48 => ⟨S41990, .i32⟩
  | 49 => ⟨S41990, .i32⟩
  | 50 => ⟨S41990x1, .i32⟩
  | 51 => ⟨S41990, .f32⟩
  | 52 => ⟨S41990, .f32⟩
  | 53 => ⟨S_, .i32⟩
  | 54 => ⟨S41990, .i32⟩
  | 55 => ⟨S41990, .i1⟩
  | 56 => ⟨S_, .i32⟩
  | 57 => ⟨S41990, .i32⟩
  | 58 => ⟨S41990, .i32⟩
  | 59 => ⟨S41990, .i32⟩
  | 60 => ⟨S41990x1, .i32⟩
  | 61 => ⟨S41990x64, .f32⟩
  | 62 => ⟨S41990x1, .f32⟩
  | 63 => ⟨S41990x64, .f32⟩
  | 64 => ⟨S41990x64, .f32⟩
  | 65 => ⟨S_, .f32⟩
  | 66 => ⟨S646x64, .f32⟩
  | 67 => ⟨S41990x1, .i32⟩
  | 68 => ⟨S646x64, .f32⟩
  | 69 => ⟨S1x64, .f32⟩
  | 70 => ⟨S646x64, .f32⟩
  | 71 => ⟨S646x64, .f32⟩
  | 72 => ⟨S646x64, .f32⟩
  | 73 => ⟨S646x64, .f32⟩
  | 74 => ⟨S646x64, .f32⟩
  | 75 => ⟨S_, .f32⟩
  | 76 => ⟨S646x64, .f32⟩
  | 77 => ⟨S646x64, .f32⟩
  | 78 => ⟨S_, .f32⟩
  | 79 => ⟨S646x64, .f32⟩
  | 80 => ⟨S646x64, .f32⟩
  | 81 => ⟨S646x64, .f32⟩
  | 82 => ⟨S_, .f32⟩
  | 83 => ⟨S_, .f32⟩
  | 84 => ⟨S_, .f32⟩
  | 85 => ⟨S_, .f32⟩
  | 86 => ⟨S646x64, .f32⟩
  | 87 => ⟨S646x64, .f32⟩
  | 88 => ⟨S646x64, .f32⟩
  | 89 => ⟨S_, .f32⟩
  | 90 => ⟨S_, .f32⟩
  | 91 => ⟨S_, .f32⟩
  | 92 => ⟨S_, .f32⟩
  | 93 => ⟨S646x64, .f32⟩
  | 94 => ⟨S646x64, .f32⟩
  | 95 => ⟨S_, .f32⟩
  | 96 => ⟨S_, .f32⟩
  | 97 => ⟨S_, .f32⟩
  | 98 => ⟨S646x64, .f32⟩
  | 99 => ⟨S646x64, .f32⟩
  | 100 => ⟨S646x128, .f32⟩
  | 101 => ⟨S646, .i32⟩
  | 102 => ⟨S1x41344, .i32⟩
  | 103 => ⟨S41344, .i32⟩
  | 104 => ⟨S41990, .i32⟩
  | 105 => ⟨S1x41344, .i32⟩
  | 106 => ⟨S41344, .i32⟩
  | 107 => ⟨S41990, .i32⟩
  | 108 => ⟨S_, .f32⟩
  | 109 => ⟨S41990, .f32⟩
  | 110 => ⟨S_, .f32⟩
  | 111 => ⟨S646, .f32⟩
  | 112 => ⟨S41990x1, .i32⟩
  | 113 => ⟨S646, .f32⟩
  | 114 => ⟨S_, .f32⟩
  | 115 => ⟨S646, .f32⟩
  | 116 => ⟨S646, .i1⟩
  | 117 => ⟨S646, .f32⟩
  | 118 => ⟨S_, .f32⟩
  | 119 => ⟨S_, .f32⟩
  | 120 => ⟨S646, .f32⟩
  | 121 => ⟨S646, .f32⟩
  | 122 => ⟨S_, .i32⟩
  | 123 => ⟨S41990, .i32⟩
  | 124 => ⟨S41990, .i1⟩
  | 125 => ⟨S_, .i32⟩
  | 126 => ⟨S41990, .i32⟩
  | 127 => ⟨S41990, .i32⟩
  | _ => ⟨S646x32768, .f32⟩

abbrev hbmTy0_1 (i : Nat) : BufTy := match i % 128 with
  | 0 => ⟨S41990, .i32⟩
  | 1 => ⟨S41990x1, .i32⟩
  | 2 => ⟨S41990, .f32⟩
  | 3 => ⟨S_, .i32⟩
  | 4 => ⟨S41990, .i32⟩
  | 5 => ⟨S41990, .i1⟩
  | 6 => ⟨S_, .i32⟩
  | 7 => ⟨S41990, .i32⟩
  | 8 => ⟨S41990, .i32⟩
  | 9 => ⟨S41990, .i32⟩
  | 10 => ⟨S41990x1, .i32⟩
  | 11 => ⟨S41990, .f32⟩
  | 12 => ⟨S41990, .f32⟩
  | 13 => ⟨S_, .i32⟩
  | 14 => ⟨S41990, .i32⟩
  | 15 => ⟨S41990, .i1⟩
  | 16 => ⟨S_, .i32⟩
  | 17 => ⟨S41990, .i32⟩
  | 18 => ⟨S41990, .i32⟩
  | 19 => ⟨S41990, .i32⟩
  | 20 => ⟨S41990x1, .i32⟩
  | 21 => ⟨S41990x128, .f32⟩
  | 22 => ⟨S41990x1, .f32⟩
  | 23 => ⟨S41990x128, .f32⟩
  | 24 => ⟨S41990x128, .f32⟩
  | 25 => ⟨S_, .f32⟩
  | 26 => ⟨S646x128, .f32⟩
  | 27 => ⟨S41990x1, .i32⟩
  | 28 => ⟨S646x128, .f32⟩
  | 29 => ⟨S1x128, .f32⟩
  | 30 => ⟨S646x128, .f32⟩
  | 31 => ⟨S646x128, .f32⟩
  | _ => ⟨S646x32768, .f32⟩

abbrev hbmTy (i : Nat) : BufTy := match i / 128 with
  | 0 => hbmTy0_0 i
  | 1 => hbmTy0_1 i
  | _ => ⟨S646x32768, .f32⟩

abbrev bufTy : (tb : Table) → Fin (tcTables nBuf tb) → BufTy
  | .hbm, ⟨i, _⟩ => hbmTy i
  | _, _ => ⟨S646x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_18 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_19 : Ref sig .tc := ⟨.hbm, 118, rfl⟩
abbrev main_call1_v0 : Ref sig .tc := ⟨.hbm, 119, rfl⟩
abbrev main_call1_v1 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_c_21 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_22 : Ref sig .tc := ⟨.hbm, 131, rfl⟩
abbrev main_v95 : Ref sig .tc := ⟨.hbm, 132, rfl⟩
abbrev main_v96 : Ref sig .tc := ⟨.hbm, 133, rfl⟩
abbrev main_c_23 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_c_24 : Ref sig .tc := ⟨.hbm, 141, rfl⟩
abbrev main_v103 : Ref sig .tc := ⟨.hbm, 142, rfl⟩
abbrev main_v104 : Ref sig .tc := ⟨.hbm, 143, rfl⟩
abbrev main_c_25 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S646x64_0_1 : S1x64.BroadcastsInDim S646x64 (![0, 1] : Fin 2 → Fin S646x64.rank)
  slices_S2x41344_S1x41344_0_0 : S2x41344.Slices ![0, 0] S1x41344
  shapeCasts_S1x41344_S41344 : S1x41344.ShapeCasts S41344
  concatenates_S41344_S646_S41990_d0 : Shape.Concatenates [S41344, S646] S41990 0
  slices_S2x41344_S1x41344_1_0 : S2x41344.Slices ![1, 0] S1x41344
  bcast_S_S41990 : S_.BroadcastsInDim S41990 (![] : Fin 0 → Fin S41990.rank)
  bcast_S_S646 : S_.BroadcastsInDim S646 (![] : Fin 0 → Fin S646.rank)
  bcast_S41990_S41990x1_0 : S41990.BroadcastsInDim S41990x1 (![0] : Fin 1 → Fin S41990x1.rank)
  bcast_S41990x1_S41990x64_0_1 : S41990x1.BroadcastsInDim S41990x64 (![0, 1] : Fin 2 → Fin S41990x64.rank)
  bcast_S_S646x64 : S_.BroadcastsInDim S646x64 (![] : Fin 0 → Fin S646x64.rank)
  reducesTo_S646x64_S_d0_1 : S646x64.ReducesTo [0, 1] S_
  h_S_ : 0 < S_.numel
  bcast_S41990x1_S41990x128_0_1 : S41990x1.BroadcastsInDim S41990x128 (![0, 1] : Fin 2 → Fin S41990x128.rank)
  bcast_S_S646x128 : S_.BroadcastsInDim S646x128 (![] : Fin 0 → Fin S646x128.rank)
  bcast_S128_S1x128_1 : S128.BroadcastsInDim S1x128 (![1] : Fin 1 → Fin S1x128.rank)
  bcast_S1x128_S646x128_0_1 : S1x128.BroadcastsInDim S646x128 (![0, 1] : Fin 2 → Fin S646x128.rank)
  dot_S646x32768_S32768x64_S646x64_1_0_0_1_n_n_wf : DotDims.WF S646x32768 S32768x64 S646x64 [1] [0] [0] [1] [] []
  scatter_S646_S41990x1_S41990_n_0_0_1_wf : ScatterDims.WF S646 S41990x1 S41990 [] [0] [0] 1
  gather_S646_S41990x1_S41990_n_0_n_n_0_1_1_wf : GatherDims.WF S646 S41990x1 S41990 [] [0] [] [0] [] 1 ![1]
  gather_S646x64_S41990x1_S41990x64_1_0_n_n_0_1_164_wf : GatherDims.WF S646x64 S41990x1 S41990x64 [1] [0] [] [0] [] 1 ![1, 64]
  scatter_S646x64_S41990x1_S41990x64_1_0_0_1_wf : ScatterDims.WF S646x64 S41990x1 S41990x64 [1] [0] [0] 1
  dot_S646x64_S64x128_S646x128_1_0_0_1_n_n_wf : DotDims.WF S646x64 S64x128 S646x128 [1] [0] [0] [1] [] []
  gather_S646x128_S41990x1_S41990x128_1_0_n_n_0_1_1128_wf : GatherDims.WF S646x128 S41990x1 S41990x128 [1] [0] [] [0] [] 1 ![1, 128]
  scatter_S646x128_S41990x1_S41990x128_1_0_0_1_wf : ScatterDims.WF S646x128 S41990x1 S41990x128 [1] [0] [0] 1

variable [Facts₀]

def dot_S646x32768_S32768x64_S646x64_1_0_0_1_n_n : DotDims S646x32768 S32768x64 S646x64 where
  lhsContracting := [1]
  rhsContracting := [0]
  lhsNonContracting := [0]
  rhsNonContracting := [1]
  lhsBatch := []
  rhsBatch := []
  wf := dot_S646x32768_S32768x64_S646x64_1_0_0_1_n_n_wf
def scatter_S646_S41990x1_S41990_n_0_0_1 : ScatterDims S646 S41990x1 S41990 where
  updateWindowDims := []
  insertedWindowDims := [0]
  scatterDimsToOperandDims := [0]
  indexVectorDim := 1
  wf := scatter_S646_S41990x1_S41990_n_0_0_1_wf
def gather_S646_S41990x1_S41990_n_0_n_n_0_1_1 : GatherDims S646 S41990x1 S41990 where
  offsetDims := []
  collapsedSliceDims := [0]
  operandBatchingDims := []
  startIndicesBatchingDims := []
  startIndexMap := [0]
  indexVectorDim := 1
  sliceSizes := ![1]
  wf := gather_S646_S41990x1_S41990_n_0_n_n_0_1_1_wf
def gather_S646x64_S41990x1_S41990x64_1_0_n_n_0_1_164 : GatherDims S646x64 S41990x1 S41990x64 where
  offsetDims := [1]
  collapsedSliceDims := [0]
  operandBatchingDims := []
  startIndicesBatchingDims := []
  startIndexMap := [0]
  indexVectorDim := 1
  sliceSizes := ![1, 64]
  wf := gather_S646x64_S41990x1_S41990x64_1_0_n_n_0_1_164_wf
def scatter_S646x64_S41990x1_S41990x64_1_0_0_1 : ScatterDims S646x64 S41990x1 S41990x64 where
  updateWindowDims := [1]
  insertedWindowDims := [0]
  scatterDimsToOperandDims := [0]
  indexVectorDim := 1
  wf := scatter_S646x64_S41990x1_S41990x64_1_0_0_1_wf
def dot_S646x64_S64x128_S646x128_1_0_0_1_n_n : DotDims S646x64 S64x128 S646x128 where
  lhsContracting := [1]
  rhsContracting := [0]
  lhsNonContracting := [0]
  rhsNonContracting := [1]
  lhsBatch := []
  rhsBatch := []
  wf := dot_S646x64_S64x128_S646x128_1_0_0_1_n_n_wf
def gather_S646x128_S41990x1_S41990x128_1_0_n_n_0_1_1128 : GatherDims S646x128 S41990x1 S41990x128 where
  offsetDims := [1]
  collapsedSliceDims := [0]
  operandBatchingDims := []
  startIndicesBatchingDims := []
  startIndexMap := [0]
  indexVectorDim := 1
  sliceSizes := ![1, 128]
  wf := gather_S646x128_S41990x1_S41990x128_1_0_n_n_0_1_1128_wf
def scatter_S646x128_S41990x1_S41990x128_1_0_0_1 : ScatterDims S646x128 S41990x1 S41990x128 where
  updateWindowDims := [1]
  insertedWindowDims := [0]
  scatterDimsToOperandDims := [0]
  indexVectorDim := 1
  wf := scatter_S646x128_S41990x1_S41990x128_1_0_0_1_wf

class Facts : Prop extends Facts₀ where

variable [Facts]
-- ==== Proof.KFrameBase.lean ====
/-
  The frame of the fused projection kernel's program, first part: @main around its one region.

  @main is one host line (the two weight matrices joined along their columns), the region, and then 107 host lines that
  read the region's result. Here: the contents the region is entered with (the launch contents after the first line), that
  @main reduces to the region continued by the later lines, that those lines touch only the region's arrays and buffers
  that bypass it, allocate nothing and write none of the region's arrays nor any argument, each window's block at a grid
  point, and the two conditions the body branches on, decided over the grid: the reduction step is the first of its core's
  four (the accumulator is zeroed) at the points ≡ 0 (mod 4), the last (the accumulator is written out) at those ≡ 3.
  Everything is stated at any float instance.
-/
import proofs.«129990_j53197464928873_2_alg».proof.Proof.Gen.Kernel.Launch
import proofs.«129990_j53197464928873_2_alg».proof.Proof.Gen.Kernel.Skeleton
import proofs.«129990_j53197464928873_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the statements below range over a stretch of 76 host lines: elaborating them exceeds the default budget
set_option maxHeartbeats 40000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents the region is entered with: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The later lines, in their three stretches. -/
abbrev tail : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main reduces to the region continued by the later lines, at the contents after the first line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only the region's arrays and buffers that bypass it. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The buffers no later line writes: the eight arguments, the joined weights and the region's result. -/
def keptRefs : Finset (Ref sig .tc) :=
  {main_arg0, main_arg1, main_arg2, main_arg3, main_arg4, main_arg5, main_arg6, main_arg7, main_v0, main_v1}

theorem hostOps1_keeps : (hostOps1 : List (HloOp τ sig (Elt F))).Forall fun op => ∀ b ∈ keptRefs, Proc.devRef (τ := τ) .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; exact StableHlo.devRef_ne_of_ne (by revert b hb; decide))
theorem hostOps1_1_keeps : (hostOps1_1 : List (HloOp τ sig (Elt F))).Forall fun op => ∀ b ∈ keptRefs, Proc.devRef (τ := τ) .tc b ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; exact StableHlo.devRef_ne_of_ne (by revert b hb; decide))
set_option maxHeartbeats 8000000 in
theorem hostOps1_2_keeps : (hostOps1_2 : List (HloOp τ sig (Elt F))).Forall fun op => ∀ b ∈ keptRefs, Proc.devRef (τ := τ) .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; exact StableHlo.devRef_ne_of_ne (by revert b hb; decide))

/-- No later line writes a kept buffer. -/
theorem tail_writes_fresh : ∀ ops ∈ (tail : List (List (HloOp τ sig (Elt F)))), ∀ op ∈ ops, ∀ b ∈ keptRefs,
    Proc.devRef (τ := τ) .tc b ∉ op.writes := by
  intro ops hops op hop
  simp only [tail, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- In particular they write no array of the region. -/
theorem sfx_keeps : ∀ ops ∈ (tail : List (List (HloOp τ sig (Elt F)))), ∀ op ∈ ops,
    ∀ w, Proc.devRef .tc (Pipeline.arrRef spec0 w) ∉ op.writes := by
  intro ops hops op hop w
  exact tail_writes_fresh ops hops op hop _ (by revert w; decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (fun op hop => by
      obtain ⟨ops, hops, hop⟩ := List.mem_flatten.mp hop
      exact tail_writes_fresh ops hops op hop main_arg1 (by decide)),
    Pipeline.withArrays_of_ne _ c (V0 m c) _ main_arg1 (by exact (by decide : ∀ w, Pipeline.arrRef spec0 w ≠ main_arg1))]
  exact V_main_arg1 m c

set_option maxHeartbeats 4000000 in
/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (fun op hop => by
      obtain ⟨ops, hops, hop⟩ := List.mem_flatten.mp hop
      exact tail_writes_fresh ops hops op hop main_arg2 (by decide)),
    Pipeline.withArrays_of_ne _ c (V0 m c) _ main_arg2 (by exact (by decide : ∀ w, Pipeline.arrRef spec0 w ≠ main_arg2))]
  exact V_main_arg2 m c

set_option maxHeartbeats 4000000 in
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (fun op hop => by
      obtain ⟨ops, hops, hop⟩ := List.mem_flatten.mp hop
      exact tail_writes_fresh ops hops op hop main_arg3 (by decide)),
    Pipeline.withArrays_of_ne _ c (V0 m c) _ main_arg3 (by exact (by decide : ∀ w, Pipeline.arrRef spec0 w ≠ main_arg3))]
  exact V_main_arg3 m c

set_option maxHeartbeats 4000000 in
/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (fun op hop => by
      obtain ⟨ops, hops, hop⟩ := List.mem_flatten.mp hop
      exact tail_writes_fresh ops hops op hop main_arg4 (by decide)),
    Pipeline.withArrays_of_ne _ c (V0 m c) _ main_arg4 (by exact (by decide : ∀ w, Pipeline.arrRef spec0 w ≠ main_arg4))]
  exact V_main_arg4 m c

set_option maxHeartbeats 4000000 in
/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (fun op hop => by
      obtain ⟨ops, hops, hop⟩ := List.mem_flatten.mp hop
      exact tail_writes_fresh ops hops op hop main_arg5 (by decide)),
    Pipeline.withArrays_of_ne _ c (V0 m c) _ main_arg5 (by exact (by decide : ∀ w, Pipeline.arrRef spec0 w ≠ main_arg5))]
  exact V_main_arg5 m c

set_option maxHeartbeats 4000000 in
/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (fun op hop => by
      obtain ⟨ops, hops, hop⟩ := List.mem_flatten.mp hop
      exact tail_writes_fresh ops hops op hop main_arg6 (by decide)),
    Pipeline.withArrays_of_ne _ c (V0 m c) _ main_arg6 (by exact (by decide : ∀ w, Pipeline.arrRef spec0 w ≠ main_arg6))]
  exact V_main_arg6 m c

set_option maxHeartbeats 4000000 in
/-- No host line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (fun op hop => by
      obtain ⟨ops, hops, hop⟩ := List.mem_flatten.mp hop
      exact tail_writes_fresh ops hops op hop main_arg7 (by decide)),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- The body's first branch: the reduction step is its core's first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The body's second branch: the reduction step is its core's last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a core's last step the body stores nothing into the result's buffer, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch memrefs -/

abbrev VO0_2 : View sig .tc .vmem S1x646x128 .f32 := (Memref.whole cc0_stg2_0 : Memref sig .tc .vmem S1x646x128 .f32).view
abbrev ms0_0 (t : Fin cfg0.N) : Memref sig .tc .vmem S646x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x646x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S646x128 .f32 := Memref.whole cc0_scratch0
abbrev VS0_0 : View sig .tc .vmem S646x128 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.KFrameRuns.lean ====
/-
  The frame of the fused projection kernel's program, second part: the kernel body run once in each of the three cases its
  two branches meet on the grid.

  First step of a core (the accumulator is zeroed, then the step's product is added): the accumulator may hold anything
  before, the result's buffer is not touched. A middle step: the accumulator holds what the step before left. A core's last
  step: the same, and the accumulator is copied into the result's buffer. Each run is the symbolic execution of the body's
  memory operations over its named values; what a buffer ends with is recorded as the list of pieces stored into it, found
  by the run.
-/
import proofs.«129990_j53197464928873_2_alg».proof.Proof.KFrameBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A core's FIRST step: the inputs' buffers at their blocks and the result's buffer are handed back as found; the
    accumulator, at anything before, ends with the pieces the two stores wrote. -/
noncomputable def kernelRun0_A (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) :
    Σ' (L2 : List (View.Piece (Elt F) S1x646x128 .f32)), { LS0 : List (View.Piece (Elt F) S646x128 .f32) //
      ∀ (xi2 : Vec F S1x646x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_proj_kernel i arg2 harg2 arg3 harg3 arg4 harg4 arg5 harg5) K } := by
  refine ⟨[], ?_, fun xi2 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A MIDDLE step: as the first, the accumulator at what the step before left. -/
noncomputable def kernelRun0_B (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) :
    Σ' (L2 : List (View.Piece (Elt F) S1x646x128 .f32)), { LS0 : List (View.Piece (Elt F) S646x128 .f32) //
      ∀ (xi2 : Vec F S1x646x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_proj_kernel i arg2 harg2 arg3 harg3 arg4 harg4 arg5 harg5) K } := by
  refine ⟨[], ?_, fun xi2 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A core's LAST step: the accumulator at what the step before left; the result's buffer, at anything before, ends with
    the piece the copy wrote. -/
noncomputable def kernelRun0_C (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) :
    Σ' (L2 : List (View.Piece (Elt F) S1x646x128 .f32)), { LS0 : List (View.Piece (Elt F) S646x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__fused_proj_kernel i arg2 harg2 arg3 harg3 arg4 harg4 arg5 harg5) K } := by
  refine ⟨?_, ?_, fun E K => ?run⟩
  case run =>
    simp only [cc0__fused_proj_kernel_eq_skeleton]; unfold cc0__fused_proj_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KFrame.lean ====
/-
  The frame of the fused projection kernel's program, last part: what the result's buffer and the accumulator hold after
  each grid point, the region's proof data, the body's obligation at every point, and the run.

  After a point the accumulator holds what that point's case leaves in it, a middle or last step run over what the point
  before left; the result's buffer is stored into only at a core's last step, which is also the only point that writes it
  back. The region's invariant carries the accumulator at those contents from point to point, and forgets them at the end.
  The run is the library's frame run for a tracked scratch and host lines after the region; from it, every argument ends as
  launched: the node features as an input window's array, the others because no line writes them.
-/
import proofs.«129990_j53197464928873_2_alg».proof.Proof.KFrameRuns

set_option maxRecDepth 16384
-- the statements below range over a stretch of 76 host lines: elaborating them exceeds the default budget
set_option maxHeartbeats 40000000

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the result's buffer: its pieces read back (none: a placeholder nothing consults, the buffer being neither written back nor read next). -/
def out0_A_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) : Vec F S1x646x128 .f32 :=
  VO0_2.read (Elt F) (VO0_2.writes (Elt F) VO0_2.junk (kernelRun0_A c i arg2 harg2 arg3 harg3 arg4 harg4 arg5 harg5 hc0 hc1 x0 x1).1)

/-- This case's stores into the accumulator cover it. -/
theorem scover0_A_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) (y : S646x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S646x128.size (by sl_kernel_rfl) y

/-- What this case leaves in the accumulator: its pieces read back. -/
def sout0_A_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) : Vec F S646x128 .f32 :=
  VS0_0.read (Elt F) (VS0_0.writes (Elt F) VS0_0.junk (kernelRun0_A c i arg2 harg2 arg3 harg3 arg4 harg4 arg5 harg5 hc0 hc1 x0 x1).2.1)

/-- What this case leaves in the result's buffer: its pieces read back (none: a placeholder nothing consults, the buffer being neither written back nor read next). -/
def out0_B_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) : Vec F S1x646x128 .f32 :=
  VO0_2.read (Elt F) (VO0_2.writes (Elt F) VO0_2.junk (kernelRun0_B c i arg2 harg2 arg3 harg3 arg4 harg4 arg5 harg5 hc0 hc1 x0 x1 xs0).1)

/-- This case's stores into the accumulator cover it. -/
theorem scover0_B_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) (y : S646x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S646x128.size (by sl_kernel_rfl) y

/-- What this case leaves in the accumulator: its pieces read back. -/
def sout0_B_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) : Vec F S646x128 .f32 :=
  VS0_0.read (Elt F) (VS0_0.writes (Elt F) VS0_0.junk (kernelRun0_B c i arg2 harg2 arg3 harg3 arg4 harg4 arg5 harg5 hc0 hc1 x0 x1 xs0).2.1)

/-- The last step's one store into the result's buffer covers it. -/
theorem cover0_C_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) (y : S1x646x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x646x128.size (by sl_kernel_rfl) y

/-- What this case leaves in the result's buffer: its pieces read back. -/
def out0_C_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) : Vec F S1x646x128 .f32 :=
  VO0_2.read (Elt F) (VO0_2.writes (Elt F) VO0_2.junk (kernelRun0_C c i arg2 harg2 arg3 harg3 arg4 harg4 arg5 harg5 hc0 hc1 x0 x1 xs0).1)

/-- This case's stores into the accumulator cover it. -/
theorem scover0_C_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) (y : S646x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S646x128.size (by sl_kernel_rfl) y

/-- What this case leaves in the accumulator: its pieces read back. -/
def sout0_C_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) : Vec F S646x128 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- After the body at position `n`: the result's buffer and the accumulator (the case the closed forms select, a middle or
    last step over what position `n - 1` left in the accumulator). -/
def outsAt0 (c : Dev nD) : (n : ℕ) → n < cfg0.N → Vec F S1x646x128 .f32 × Vec F S646x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by have hN : n + 1 < 8 := lt_of_lt_of_eq hn (show cfg0.N = 8 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the
    point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- On core `c`: the arrays as the region finds them; after the body at point `t` each input's buffer at its block, the
    result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; that
    case's run applies, the invariant handing it the accumulator (at anything at a core's first step) and taking it back
    at the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, every array of the region ending at what the proof data compute and
    every other unscoped buffer as the later lines leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

/-- THE FRAME, at any float instance: the program runs to the end, nothing faulting, and its eight arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩) (run_main m ρ)

end Cert.Kernel.Fr

end
-- ==== Proof.KIFrameBase.lean ====
/-
  The frame of the fused projection kernel's program, first part: @main around its one region.

  @main is one host line (the two weight matrices joined along their columns), the region, and then 107 host lines that
  read the region's result. Here: the contents the region is entered with (the launch contents after the first line), that
  @main reduces to the region continued by the later lines, that those lines touch only the region's arrays and buffers
  that bypass it, allocate nothing and write none of the region's arrays nor any argument, each window's block at a grid
  point, and the two conditions the body branches on, decided over the grid: the reduction step is the first of its core's
  four (the accumulator is zeroed) at the points ≡ 0 (mod 4), the last (the accumulator is written out) at those ≡ 3.
  Everything is stated at any float instance.
-/
import proofs.«129990_j53197464928873_2_alg».proof.Proof.Gen.KernelIdeal.Launch
import proofs.«129990_j53197464928873_2_alg».proof.Proof.Gen.KernelIdeal.Skeleton
import proofs.«129990_j53197464928873_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the statements below range over a stretch of 76 host lines: elaborating them exceeds the default budget
set_option maxHeartbeats 40000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The contents the region is entered with: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The later lines, in their three stretches. -/
abbrev tail : List (List (HloOp τ sig (Elt F))) := [hostOps1, hostOps1_1, hostOps1_2]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 4000000 in
theorem hostOps1_2_fresh : (hostOps1_2 : List (HloOp τ sig (Elt F))).Forall fun op => op.fresh = ∅ := by
  simp only [List.Forall]; repeat' constructor

/-- @main reduces to the region continued by the later lines, at the contents after the first line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch only the region's arrays and buffers that bypass it. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tail, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tail : List (List (HloOp τ sig (Elt F)))), ∀ op ∈ ops, op.fresh = ∅ := by
  intro ops hops op hop
  simp only [tail, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- The buffers no later line writes: the eight arguments, the joined weights and the region's result. -/
def keptRefs : Finset (Ref sig .tc) :=
  {main_arg0, main_arg1, main_arg2, main_arg3, main_arg4, main_arg5, main_arg6, main_arg7, main_v0, main_v1}

theorem hostOps1_keeps : (hostOps1 : List (HloOp τ sig (Elt F))).Forall fun op => ∀ b ∈ keptRefs, Proc.devRef (τ := τ) .tc b ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; exact StableHlo.devRef_ne_of_ne (by revert b hb; decide))
theorem hostOps1_1_keeps : (hostOps1_1 : List (HloOp τ sig (Elt F))).Forall fun op => ∀ b ∈ keptRefs, Proc.devRef (τ := τ) .tc b ∉ op.writes := by
  simp only [hostOps1_1, List.Forall, StableHlo.TRef.unary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; exact StableHlo.devRef_ne_of_ne (by revert b hb; decide))
set_option maxHeartbeats 8000000 in
theorem hostOps1_2_keeps : (hostOps1_2 : List (HloOp τ sig (Elt F))).Forall fun op => ∀ b ∈ keptRefs, Proc.devRef (τ := τ) .tc b ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro b hb; exact StableHlo.devRef_ne_of_ne (by revert b hb; decide))

/-- No later line writes a kept buffer. -/
theorem tail_writes_fresh : ∀ ops ∈ (tail : List (List (HloOp τ sig (Elt F)))), ∀ op ∈ ops, ∀ b ∈ keptRefs,
    Proc.devRef (τ := τ) .tc b ∉ op.writes := by
  intro ops hops op hop
  simp only [tail, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- In particular they write no array of the region. -/
theorem sfx_keeps : ∀ ops ∈ (tail : List (List (HloOp τ sig (Elt F)))), ∀ op ∈ ops,
    ∀ w, Proc.devRef .tc (Pipeline.arrRef spec0 w) ∉ op.writes := by
  intro ops hops op hop w
  exact tail_writes_fresh ops hops op hop _ (by revert w; decide)

/-- No host line before the region writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line before the region writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 4000000 in
/-- No host line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (fun op hop => by
      obtain ⟨ops, hops, hop⟩ := List.mem_flatten.mp hop
      exact tail_writes_fresh ops hops op hop main_arg1 (by decide)),
    Pipeline.withArrays_of_ne _ c (V0 m c) _ main_arg1 (by exact (by decide : ∀ w, Pipeline.arrRef spec0 w ≠ main_arg1))]
  exact V_main_arg1 m c

set_option maxHeartbeats 4000000 in
/-- No host line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (fun op hop => by
      obtain ⟨ops, hops, hop⟩ := List.mem_flatten.mp hop
      exact tail_writes_fresh ops hops op hop main_arg2 (by decide)),
    Pipeline.withArrays_of_ne _ c (V0 m c) _ main_arg2 (by exact (by decide : ∀ w, Pipeline.arrRef spec0 w ≠ main_arg2))]
  exact V_main_arg2 m c

set_option maxHeartbeats 4000000 in
/-- No host line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (fun op hop => by
      obtain ⟨ops, hops, hop⟩ := List.mem_flatten.mp hop
      exact tail_writes_fresh ops hops op hop main_arg3 (by decide)),
    Pipeline.withArrays_of_ne _ c (V0 m c) _ main_arg3 (by exact (by decide : ∀ w, Pipeline.arrRef spec0 w ≠ main_arg3))]
  exact V_main_arg3 m c

set_option maxHeartbeats 4000000 in
/-- No host line after the region writes argument 4: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg4 = m ((c : Thread nD τ).loc main_arg4) := by
  unfold Pipeline.afterTail₀
  rw [StableHlo.after_of_forall_not_mem (b := Proc.devRef .tc main_arg4) _ _ (fun op hop => by
      obtain ⟨ops, hops, hop⟩ := List.mem_flatten.mp hop
      exact tail_writes_fresh ops hops op hop main_arg4 (by decide)),
    Pipeline.withArrays_of_ne _ c (V0 m c) _ main_arg4 (by exact (by decide : ∀ w, Pipeline.arrRef spec0 w ≠ main_arg4))]
  exact V_main_arg4 m c

set_option maxHeartbeats 4000000 in
/-- No host line after the region writes argument 5: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg5 = m ((c : Thread nD τ).loc main_arg5) := by
  unfold Pipeline.afterTail₀
  rw [StableHlo.after_of_forall_not_mem (b := Proc.devRef .tc main_arg5) _ _ (fun op hop => by
      obtain ⟨ops, hops, hop⟩ := List.mem_flatten.mp hop
      exact tail_writes_fresh ops hops op hop main_arg5 (by decide)),
    Pipeline.withArrays_of_ne _ c (V0 m c) _ main_arg5 (by exact (by decide : ∀ w, Pipeline.arrRef spec0 w ≠ main_arg5))]
  exact V_main_arg5 m c

set_option maxHeartbeats 4000000 in
/-- No host line after the region writes argument 6: it ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg6 = m ((c : Thread nD τ).loc main_arg6) := by
  unfold Pipeline.afterTail₀
  rw [StableHlo.after_of_forall_not_mem (b := Proc.devRef .tc main_arg6) _ _ (fun op hop => by
      obtain ⟨ops, hops, hop⟩ := List.mem_flatten.mp hop
      exact tail_writes_fresh ops hops op hop main_arg6 (by decide)),
    Pipeline.withArrays_of_ne _ c (V0 m c) _ main_arg6 (by exact (by decide : ∀ w, Pipeline.arrRef spec0 w ≠ main_arg6))]
  exact V_main_arg6 m c

set_option maxHeartbeats 4000000 in
/-- No host line after the region writes argument 7: it ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg7 = m ((c : Thread nD τ).loc main_arg7) := by
  unfold Pipeline.afterTail₀
  rw [StableHlo.after_of_forall_not_mem (b := Proc.devRef .tc main_arg7) _ _ (fun op hop => by
      obtain ⟨ops, hops, hop⟩ := List.mem_flatten.mp hop
      exact tail_writes_fresh ops hops op hop main_arg7 (by decide)),
    Pipeline.withArrays_of_ne _ c (V0 m c) _ main_arg7 (by exact (by decide : ∀ w, Pipeline.arrRef spec0 w ≠ main_arg7))]
  exact V_main_arg7 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions, decided over the grid -/

/-- The body's first branch: the reduction step is its core's first. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The body's second branch: the reduction step is its core's last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from a core's last step the body stores nothing into the result's buffer, and the pipeline does not write it back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch memrefs -/

abbrev VO0_2 : View sig .tc .vmem S1x646x128 .f32 := (Memref.whole cc0_stg2_0 : Memref sig .tc .vmem S1x646x128 .f32).view
abbrev ms0_0 (t : Fin cfg0.N) : Memref sig .tc .vmem S646x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x646x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S646x128 .f32 := Memref.whole cc0_scratch0
abbrev VS0_0 : View sig .tc .vmem S646x128 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KIFrameRuns.lean ====
/-
  The frame of the fused projection kernel's program, second part: the kernel body run once in each of the three cases its
  two branches meet on the grid.

  First step of a core (the accumulator is zeroed, then the step's product is added): the accumulator may hold anything
  before, the result's buffer is not touched. A middle step: the accumulator holds what the step before left. A core's last
  step: the same, and the accumulator is copied into the result's buffer. Each run is the symbolic execution of the body's
  memory operations over its named values; what a buffer ends with is recorded as the list of pieces stored into it, found
  by the run.
-/
import proofs.«129990_j53197464928873_2_alg».proof.Proof.KIFrameBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A core's FIRST step: the inputs' buffers at their blocks and the result's buffer are handed back as found; the
    accumulator, at anything before, ends with the pieces the two stores wrote. -/
noncomputable def kernelRun0_A (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) :
    Σ' (L2 : List (View.Piece (Elt F) S1x646x128 .f32)), { LS0 : List (View.Piece (Elt F) S646x128 .f32) //
      ∀ (xi2 : Vec F S1x646x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_proj_kernel i arg2 harg2 arg3 harg3 arg4 harg4 arg5 harg5) K } := by
  refine ⟨[], ?_, fun xi2 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A MIDDLE step: as the first, the accumulator at what the step before left. -/
noncomputable def kernelRun0_B (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) :
    Σ' (L2 : List (View.Piece (Elt F) S1x646x128 .f32)), { LS0 : List (View.Piece (Elt F) S646x128 .f32) //
      ∀ (xi2 : Vec F S1x646x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__fused_proj_kernel i arg2 harg2 arg3 harg3 arg4 harg4 arg5 harg5) K } := by
  refine ⟨[], ?_, fun xi2 E K => ?run⟩
  case run =>
    simp only [cc0__fused_proj_kernel_eq_skeleton]; unfold cc0__fused_proj_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A core's LAST step: the accumulator at what the step before left; the result's buffer, at anything before, ends with
    the piece the copy wrote. -/
noncomputable def kernelRun0_C (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) :
    Σ' (L2 : List (View.Piece (Elt F) S1x646x128 .f32)), { LS0 : List (View.Piece (Elt F) S646x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__fused_proj_kernel i arg2 harg2 arg3 harg3 arg4 harg4 arg5 harg5) K } := by
  refine ⟨?_, ?_, fun E K => ?run⟩
  case run =>
    simp only [cc0__fused_proj_kernel_eq_skeleton]; unfold cc0__fused_proj_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KIFrame.lean ====
/-
  The frame of the fused projection kernel's program, last part: what the result's buffer and the accumulator hold after
  each grid point, the region's proof data, the body's obligation at every point, and the run.

  After a point the accumulator holds what that point's case leaves in it, a middle or last step run over what the point
  before left; the result's buffer is stored into only at a core's last step, which is also the only point that writes it
  back. The region's invariant carries the accumulator at those contents from point to point, and forgets them at the end.
  The run is the library's frame run for a tracked scratch and host lines after the region; from it, every argument ends as
  launched: the node features as an input window's array, the others because no line writes them.
-/
import proofs.«129990_j53197464928873_2_alg».proof.Proof.KIFrameRuns

set_option maxRecDepth 16384
-- the statements below range over a stretch of 76 host lines: elaborating them exceeds the default budget
set_option maxHeartbeats 40000000

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What this case leaves in the result's buffer: its pieces read back (none: a placeholder nothing consults, the buffer being neither written back nor read next). -/
def out0_A_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) : Vec F S1x646x128 .f32 :=
  VO0_2.read (Elt F) (VO0_2.writes (Elt F) VO0_2.junk (kernelRun0_A c i arg2 harg2 arg3 harg3 arg4 harg4 arg5 harg5 hc0 hc1 x0 x1).1)

/-- This case's stores into the accumulator cover it. -/
theorem scover0_A_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) (y : S646x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S646x128.size (by sl_kernel_rfl) y

/-- What this case leaves in the accumulator: its pieces read back. -/
def sout0_A_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) : Vec F S646x128 .f32 :=
  VS0_0.read (Elt F) (VS0_0.writes (Elt F) VS0_0.junk (kernelRun0_A c i arg2 harg2 arg3 harg3 arg4 harg4 arg5 harg5 hc0 hc1 x0 x1).2.1)

/-- What this case leaves in the result's buffer: its pieces read back (none: a placeholder nothing consults, the buffer being neither written back nor read next). -/
def out0_B_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) : Vec F S1x646x128 .f32 :=
  VO0_2.read (Elt F) (VO0_2.writes (Elt F) VO0_2.junk (kernelRun0_B c i arg2 harg2 arg3 harg3 arg4 harg4 arg5 harg5 hc0 hc1 x0 x1 xs0).1)

/-- This case's stores into the accumulator cover it. -/
theorem scover0_B_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) (y : S646x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S646x128.size (by sl_kernel_rfl) y

/-- What this case leaves in the accumulator: its pieces read back. -/
def sout0_B_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) : Vec F S646x128 .f32 :=
  VS0_0.read (Elt F) (VS0_0.writes (Elt F) VS0_0.junk (kernelRun0_B c i arg2 harg2 arg3 harg3 arg4 harg4 arg5 harg5 hc0 hc1 x0 x1 xs0).2.1)

/-- The last step's one store into the result's buffer covers it. -/
theorem cover0_C_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) (y : S1x646x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x646x128.size (by sl_kernel_rfl) y

/-- What this case leaves in the result's buffer: its pieces read back. -/
def out0_C_2 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) : Vec F S1x646x128 .f32 :=
  VO0_2.read (Elt F) (VO0_2.writes (Elt F) VO0_2.junk (kernelRun0_C c i arg2 harg2 arg3 harg3 arg4 harg4 arg5 harg5 hc0 hc1 x0 x1 xs0).1)

/-- This case's stores into the accumulator cover it. -/
theorem scover0_C_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) (y : S646x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S646x128.size (by sl_kernel_rfl) y

/-- What this case leaves in the accumulator: its pieces read back. -/
def sout0_C_0 (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) : Vec F S646x128 .f32 :=
  VS0_0.read (Elt F) (VS0_0.writes (Elt F) VS0_0.junk (kernelRun0_C c i arg2 harg2 arg3 harg3 arg4 harg4 arg5 harg5 hc0 hc1 x0 x1 xs0).2.1)

/-! ## What the buffers hold after each point -/

/-- After the body at position `n`: the result's buffer and the accumulator (the case the closed forms select, a middle or
    last step over what position `n - 1` left in the accumulator). -/
def outsAt0 (c : Dev nD) : (n : ℕ) → n < cfg0.N → Vec F S1x646x128 .f32 × Vec F S646x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by have hN : n + 1 < 8 := lt_of_lt_of_eq hn (show cfg0.N = 8 from N_0); omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at what the
    point before left; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The region's proof data -/

/-- On core `c`: the arrays as the region finds them; after the body at point `t` each input's buffer at its block, the
    result's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' buffers hold their blocks; the closed forms say which case the point is in; that
    case's run applies, the invariant handing it the accumulator (at anything at a core's first step) and taking it back
    at the point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases h1 : t.val % 4 = 3
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_C c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩⟩
        iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, every array of the region ending at what the proof data compute and
    every other unscoped buffer as the later lines leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

/-- THE FRAME, at any float instance: the program runs to the end, nothing faulting, and its eight arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c),
     ((h c).2 main_arg7 (Pipeline.mem_restRefs_of main_arg7 (by decide) (by decide))).trans (W_main_arg7 m (dats m) c)⟩) (run_main m ρ)

end Cert.KernelIdeal.Fr

end
-- ==== Proof.KIPieces.lean ====
/-
  The value of the fused projection kernel's region, first part: what each case of the body leaves, read back as values.

  A core's first step leaves in the accumulator the zero block plus the step's product; a middle or last step leaves what
  the step before left plus its product; the last step also leaves, in the result's buffer, the accumulator under a
  leading unit axis. Each is the one covering store's value, its loads reading whole buffers.
-/
import proofs.«129990_j53197464928873_2_alg».proof.Proof.KIFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the accumulator ends at its contents plus the step's product. -/
theorem sout_B (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : ¬cond0_1 i)
    (x0 : Vec F S646x4096 .f32) (x1 : Vec F S4096x128 .f32) (xs0 : Vec F S646x128 .f32) :
    sout0_B_0 c i arg2 harg2 arg3 harg3 arg4 harg4 arg5 harg5 hc0 hc1 x0 x1 xs0 = k0_pay2 xs0 x0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz2]
  simp only [View.readAt_eq_ld, harg2.read_unread, harg3.read_unread, harg4.read_unread, harg5.read_unread, View.ld_unit_zero (S := S646x128) hz2, View.ld_unit_zero (S := S646x4096) hz2, View.ld_unit_zero (S := S4096x128) hz2, View.ld_unit_zero (S := S1x646x128) hz3]

/-- A core's last step: the accumulator as in a middle step. -/
theorem sout_C (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) :
    sout0_C_0 c i arg2 harg2 arg3 harg3 arg4 harg4 arg5 harg5 hc0 hc1 x0 x1 xs0 = k0_pay2 xs0 x0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg4.read_unread, harg5.read_unread, View.ld_unit_zero (S := S646x128) hz2, View.ld_unit_zero (S := S646x4096) hz2, View.ld_unit_zero (S := S4096x128) hz2, View.ld_unit_zero (S := S1x646x128) hz3]

/-- A core's last step: the result's buffer ends at the accumulator's final contents under a leading unit axis. -/
theorem out_C (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : ¬cond0_0 i) (hc1 : cond0_1 i)
    (x0 : Vec F S646x4096 .f32) (x1 : Vec F S4096x128 .f32) (xs0 : Vec F S646x128 .f32) :
    out0_C_2 c i arg2 harg2 arg3 harg3 arg4 harg4 arg5 harg5 hc0 hc1 x0 x1 xs0 = k0_pay3 (k0_pay2 xs0 x0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S646x128) _ hz2]
  simp only [View.readAt_eq_ld, harg2.read_unread, harg3.read_unread, harg4.read_unread, harg5.read_unread, View.ld_unit_zero (S := S646x128) hz2, View.ld_unit_zero (S := S646x4096) hz2, View.ld_unit_zero (S := S4096x128) hz2, View.ld_unit_zero (S := S1x646x128) hz3]

/-- A core's first step: the accumulator ends at the zero block plus the step's product. -/
theorem sout_A (c : Dev nD) (i : grid0.Coords) (arg2 : Memref sig .tc .vmem S646x4096 .f32) (harg2 : arg2.IsWhole) (arg3 : Memref sig .tc .vmem S4096x128 .f32) (harg3 : arg3.IsWhole) (arg4 : Memref sig .tc .vmem S1x646x128 .f32) (harg4 : arg4.IsWhole) (arg5 : Memref sig .tc .vmem S646x128 .f32) (harg5 : arg5.IsWhole) (hc0 : cond0_0 i) (hc1 : ¬cond0_1 i)
    (x0 : Vec F S646x4096 .f32) (x1 : Vec F S4096x128 .f32) :
    sout0_A_0 c i arg2 harg2 arg3 harg3 arg4 harg4 arg5 harg5 hc0 hc1 x0 x1 = k0_pay2 (k0_pay1 (F := F)) x0 x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S646x128) hz2, View.readCov_unit_zero (S := S646x128) _ hz2]
  simp only [View.readAt_eq_ld, harg2.read_unread, harg3.read_unread, harg4.read_unread, harg5.read_unread, View.ld_unit_zero (S := S646x128) hz2, View.ld_unit_zero (S := S646x4096) hz2, View.ld_unit_zero (S := S4096x128) hz2, View.ld_unit_zero (S := S1x646x128) hz3]

end Cert.KernelIdeal.Fr

end
-- ==== Proof.KIChain.lean ====
/-
  The value of the fused projection kernel's region, second part: the accumulator from point to point.

  After position n the accumulator holds: at a core's first step, the zero block plus that step's product; otherwise what
  position n - 1 left plus this step's product. What the frame's proof data record point by point is exactly this chain
  (by induction on the point, never enumerating the grid), and at a core's last step the result's buffer holds the chain
  under a leading unit axis.
-/
import proofs.«129990_j53197464928873_2_alg».proof.Proof.KIPieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulator after position `n`. -/
def accAt (c : Dev nD) : (n : ℕ) → n < cfg0.N → Vec F S646x128 .f32
  | 0, h => k0_pay2 (k0_pay1 (F := F)) (iblk m c 0 ⟨0, h⟩) (iblk m c 1 ⟨0, h⟩)
  | n + 1, h =>
    if (n + 1) % 4 = 0 then k0_pay2 (k0_pay1 (F := F)) (iblk m c 0 ⟨n + 1, h⟩) (iblk m c 1 ⟨n + 1, h⟩)
    else k0_pay2 (accAt c n (Nat.lt_of_succ_lt h)) (iblk m c 0 ⟨n + 1, h⟩) (iblk m c 1 ⟨n + 1, h⟩)

theorem accAt_first (c : Dev nD) (n : ℕ) (h : n < cfg0.N) (h0 : n % 4 = 0) :
    accAt m c n h = k0_pay2 (k0_pay1 (F := F)) (iblk m c 0 ⟨n, h⟩) (iblk m c 1 ⟨n, h⟩) := by
  cases n with
  | zero => rfl
  | succ n => exact if_pos h0

theorem accAt_next (c : Dev nD) (n : ℕ) (h : n + 1 < cfg0.N) (h0 : ¬(n + 1) % 4 = 0) :
    accAt m c (n + 1) h = k0_pay2 (accAt m c n (Nat.lt_of_succ_lt h)) (iblk m c 0 ⟨n + 1, h⟩) (iblk m c 1 ⟨n + 1, h⟩) :=
  if_neg h0

/-- The chain does not depend on how its position is written. -/
theorem accAt_congr (c : Dev nD) {n n' : ℕ} (e : n = n') (h : n < cfg0.N) (h' : n' < cfg0.N) : accAt m c n h = accAt m c n' h' := by
  subst e; rfl

/-- The accumulator component of the frame's point-by-point record is the chain. -/
theorem outsAt_snd (c : Dev nD) : ∀ (n : ℕ) (h : n < cfg0.N), (outsAt0 m c n h).2 = accAt m c n h
  | 0, h => by
    rw [outsAt0_A m c ⟨0, h⟩ rfl (show ¬(0 : ℕ) % 4 = 3 by decide)]
    dsimp only
    exact sout_A ..
  | n + 1, h => by
    have hN : cfg0.N = 8 := N_0
    by_cases h0 : (n + 1) % 4 = 0
    · have h1 : ¬(n + 1) % 4 = 3 := by omega
      rw [outsAt0_A m c ⟨n + 1, h⟩ h0 h1, accAt_first m c (n + 1) h h0]
      dsimp only
      exact sout_A ..
    · by_cases h1 : (n + 1) % 4 = 3
      · rw [outsAt0_C m c ⟨n + 1, h⟩ h0 h1, accAt_next m c n h h0]
        dsimp only
        rw [sout_C]
        show k0_pay2 (outsAt0 m c n _).2 _ _ = k0_pay2 (accAt m c n _) _ _
        rw [outsAt_snd c n]
      · rw [outsAt0_B m c ⟨n + 1, h⟩ h0 h1, accAt_next m c n h h0]
        dsimp only
        rw [sout_B]
        show k0_pay2 (outsAt0 m c n _).2 _ _ = k0_pay2 (accAt m c n _) _ _
        rw [outsAt_snd c n]

/-- At a core's last step the result's buffer holds the chain under a leading unit axis. -/
theorem outsAt_fst (c : Dev nD) (t : Fin cfg0.N) (h1 : t.val % 4 = 3) :
    (outsAt0 m c t.val t.isLt).1 = k0_pay3 (accAt m c t.val t.isLt) := by
  have hN : cfg0.N = 8 := N_0
  obtain ⟨n, hn⟩ := t
  cases n with
  | zero => exact absurd h1 (show ¬(0 : ℕ) % 4 = 3 by decide)
  | succ n =>
    have h0 : ¬(n + 1) % 4 = 0 := by dsimp only at h1; omega
    rw [outsAt0_C m c ⟨n + 1, hn⟩ h0 h1]
    dsimp only
    rw [out_C, accAt_next m c n hn h0]
    show k0_pay3 (k0_pay2 (outsAt0 m c n _).2 _ _) = k0_pay3 (k0_pay2 (accAt m c n _) _ _)
    rw [outsAt_snd m c n]

end Cert.KernelIdeal.Fr

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.AccEntry.lean ====
/-
  The kernel body's three stored values, and the two input windows' blocks, at an entry, over the extended reals.

  The first is the zero block.  The second is one accumulation step: the accumulator plus the product of a
  `[646, 4096]` block with a `[4096, 128]` block, entry `(n, j)` of which is `∑ k, xb (n, k) * wb (k, j)`.  The third
  is the accumulator with a leading unit axis added, which keeps every entry.

  The grid has 2 × 4 points; point `t` (in row-major order) reads the `t`-th block of 4096 columns of the `[646, 32768]`
  array and the `t`-th block of 4096 rows of the `[32768, 128]` array: a block's entry at `(n, k)` is the array's at the
  block index times the block extent plus the coordinate inside the block, on each axis.
-/
import proofs.«129990_j53197464928873_2_alg».proof.Proof.Gen.KernelIdeal.Skeleton
import proofs.«129990_j53197464928873_2_alg».proof.Proof.KIFrameBase
import proofs.«129990_j53197464928873_2_alg».proof.Proof.LibMatmulEntry
import Idealize.ShloMosaic.Lib.ValueLayout
import Idealize.ShloMosaic.Lib.Pipeline.Value
import Idealize.ShloMosaic.Lib.ValueIdx
import Idealize.ShloMosaic.PureOps.Ideal.Laws
import Idealize.ShloMosaic.Lib.StableHlo.Run

noncomputable section

open scoped BigOperators
open Idealize.ShloMosaic Idealize.ShloMosaic.ValueIdx Cert.KernelIdeal

namespace Cert.Proof.Acc

/-- The accumulation step at an entry: the accumulator's entry plus row `n` of the left block against column `j` of
    the right block. -/
theorem pay2_apply (a : Vec Ideal S646x128 .f32) (xb : Vec Ideal S646x4096 .f32) (wb : Vec Ideal S4096x128 .f32)
    (n : Fin 646) (j : Fin 128) :
    Gen.k0_pay2 (F := Ideal) a xb wb (ix2 n j) = a (ix2 n j) + ∑ k : Fin 4096, xb (ix2 n k) * wb (ix2 k j) := by
  show shapeCast S646x128
      (addf (F := Ideal) a
        (matmul (F := Ideal) dot_S646x4096_S4096x128_S646x128_1_0_0_1_n_n none xb
          (shapeCast S4096x128 wb Facts₀.shapeCasts_S4096x128_S4096x128)
          (constant (F := Ideal) S646x128 .f32 0x00000000#32)))
      Facts₀.shapeCasts_S646x128_S646x128 (ix2 n j) = _
  rw [shapeCast_self, shapeCast_self, addf_apply]
  refine congrArg (a (ix2 n j) + ·) ?_
  exact Ideal.matmul_rows_cols dot_S646x4096_S4096x128_S646x128_1_0_0_1_n_n rfl rfl rfl rfl rfl rfl none xb wb n j

/-- The zero block at an entry. -/
theorem pay1_apply (n : Fin 646) (j : Fin 128) : (Gen.k0_pay1 (F := Ideal)) (ix2 n j) = 0 := by
  show shapeCast S646x128 (broadcast S646x128 (Scalar.ofBits (F := Ideal) .f32 0x00000000#32))
      Facts₀.shapeCasts_S646x128_S646x128 (ix2 n j) = 0
  rw [shapeCast_self]
  show Ideal.ofBits .f32 0x00000000#32 = 0
  exact Ideal.ofBits_zero_f32

/-- The accumulator with a leading unit axis, at an entry. -/
theorem pay3_apply (v : Vec Ideal S646x128 .f32) (n : Fin 646) (j : Fin 128) :
    Gen.k0_pay3 (F := Ideal) v (ix3 (0 : Fin 1) n j) = v (ix2 n j) := by
  show shapeCast S1x646x128 v Facts₀.shapeCasts_S646x128_S1x646x128 (ix3 (0 : Fin 1) n j) = _
  exact shapeCast_ab_1ab_apply v Facts₀.shapeCasts_S646x128_S1x646x128 (0 : Fin 1) n j

/-! ## The input windows' blocks -/

section Blocks
open Idealize.ShloMosaic.TcCoe Idealize.SL.Sem

variable (m : (ℓ : Loc nD τ sig) → Buf (Elt Ideal) ℓ)

/-- Window 0's index map over the grid: block row 0, block column the point's number. -/
theorem index0 : ∀ t : Fin grid0.N, win0_0.index t 0 = 0 ∧ win0_0.index t 1 = t.val := by decide +kernel

/-- Window 1's index map over the grid: block row the point's number, block column 0. -/
theorem index1 : ∀ t : Fin grid0.N, win0_1.index t 0 = t.val ∧ win0_1.index t 1 = 0 := by decide +kernel

/-- A column of block `t` is a column of the array. -/
theorem col_lt (t : Fin cfg0.N) (k : Fin 4096) : t.val * 4096 + k.val < 32768 := by
  have ht : t.val < grid0.N := t.isLt
  have hN := Gen.N_0
  have hk := k.isLt
  omega

/-- WINDOW 0's BLOCK AT AN ENTRY: columns `4096 t …` of the `[646, 32768]` array. -/
theorem iblk0_apply (c : Dev nD) (t : Fin cfg0.N) (n : Fin 646) (k : Fin 4096) :
    (Fr.iblk m c 0 t : S646x4096.Idx → EReal) (ix2 n k)
      = (Fr.V m c main_arg0 : S646x32768.Idx → EReal) (ix2 n ⟨t.val * 4096 + k.val, col_lt t k⟩) := by
  have hi := index0 t
  unfold Fr.iblk
  rw [View.read_apply]
  show (Fr.V m c main_arg0 : S646x32768.Idx → EReal) _ = _
  refine congrArg (Fr.V m c main_arg0 : S646x32768.Idx → EReal) (funext fun a => Fin.ext ?_)
  match a with
  | ⟨0, _⟩ => show win0_0.index t 0 * 646 + 1 * n.val = n.val; rw [hi.1]; omega
  | ⟨1, _⟩ => show win0_0.index t 1 * 4096 + 1 * k.val = t.val * 4096 + k.val; rw [hi.2]; omega

/-- WINDOW 1's BLOCK AT AN ENTRY: rows `4096 t …` of the `[32768, 128]` array. -/
theorem iblk1_apply (c : Dev nD) (t : Fin cfg0.N) (k : Fin 4096) (j : Fin 128) :
    (Fr.iblk m c 1 t : S4096x128.Idx → EReal) (ix2 k j)
      = (Fr.V m c main_v0 : S32768x128.Idx → EReal) (ix2 ⟨t.val * 4096 + k.val, col_lt t k⟩ j) := by
  have hi := index1 t
  unfold Fr.iblk
  rw [View.read_apply]
  show (Fr.V m c main_v0 : S32768x128.Idx → EReal) _ = _
  refine congrArg (Fr.V m c main_v0 : S32768x128.Idx → EReal) (funext fun a => Fin.ext ?_)
  match a with
  | ⟨0, _⟩ => show win0_1.index t 0 * 4096 + 1 * k.val = t.val * 4096 + k.val; rw [hi.1]; omega
  | ⟨1, _⟩ => show win0_1.index t 1 * 128 + 1 * j.val = j.val; rw [hi.2]; omega

/-- THE JOINED WEIGHTS: the one host line before the region writes the two `[32768, 64]` weight matrices side by
    side, columns `0 … 63` the first and `64 … 127` the second. -/
theorem V_main_v0 (c : Dev nD) :
    (Fr.V m c main_v0 : S32768x128.Idx → EReal)
      = concatenate S32768x128 1
          [⟨S32768x64, m ((c : Thread nD τ).loc main_arg2)⟩, ⟨S32768x64, m ((c : Thread nD τ).loc main_arg6)⟩]
          Facts₀.concatenates_S32768x64_S32768x64_S32768x128_d1 := by
  dsimp only [Fr.V, Fr.V0]
  simp only [Gen.hostOps0, List.flatten_cons, List.flatten_nil, List.append_nil]
  after_results

/-- The joined weights at a column of the first half: the first weight matrix. -/
theorem V_main_v0_left (c : Dev nD) (k : Fin 32768) (j : Fin 64) :
    (Fr.V m c main_v0 : S32768x128.Idx → EReal) (ix2 k ⟨j.val, by omega⟩)
      = (m ((c : Thread nD τ).loc main_arg2) : S32768x64.Idx → EReal) (ix2 k j) := by
  rw [V_main_v0]
  exact concatenate_pair_apply_left (t := S32768x128) (s₁ := S32768x64) (s₂ := S32768x64) (1 : Fin 2) _ _
    Facts₀.concatenates_S32768x64_S32768x64_S32768x128_d1 _ rfl (ix2 k j)
    (fun b => by match b with | ⟨0, _⟩ => rfl | ⟨1, _⟩ => rfl)

/-- The joined weights at a column of the second half: the second weight matrix, 64 columns earlier. -/
theorem V_main_v0_right (c : Dev nD) (k : Fin 32768) (j : Fin 64) :
    (Fr.V m c main_v0 : S32768x128.Idx → EReal) (ix2 k ⟨64 + j.val, by omega⟩)
      = (m ((c : Thread nD τ).loc main_arg6) : S32768x64.Idx → EReal) (ix2 k j) := by
  rw [V_main_v0]
  exact concatenate_pair_apply_right (t := S32768x128) (s₁ := S32768x64) (s₂ := S32768x64) (1 : Fin 2) _ _
    Facts₀.concatenates_S32768x64_S32768x64_S32768x128_d1 _ rfl rfl (ix2 k j)
    (fun b hb => by
      match b with
      | ⟨0, _⟩ => rfl
      | ⟨1, _⟩ => exact absurd rfl hb)
    (by show j.val + 64 = 64 + j.val; omega)

end Blocks

end Cert.Proof.Acc

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«129990_j53197464928873_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.ProjLaw.lean ====
/-
  The projection law.

  The array P holds the two halves of one matrix product: P[c, n, j] is the sum over the 16384 indices k of
  half c of x[n, 16384 c + k] · w[16384 c + k, j], where w is the two weight matrices side by side (W1 in
  columns 0 … 63, LPw in columns 64 … 127).  Adding the two halves gives, at (n, j), the sum over all 32768
  indices of x[n, k] · w[k, j]: a sum over 2 · 16384 indices is the sum of its two tiles.  Columns 0 … 63 of
  that are the product x · W1, columns 64 … 127 the product x · LPw, because a column j < 64 of the
  side-by-side matrix is column j of W1 and column 64 + j is column j of LPw.  Addition of extended reals is
  commutative and associative, so nothing here asks an entry to be finite.
-/
import proofs.«129990_j53197464928873_2_alg».proof.Proof.LibDotGeneralEntry
import Idealize.ShloMosaic.Lib.ValueLayout
import Idealize.ShloMosaic.Lib.Pipeline.Value

open Idealize.ShloMosaic Idealize.ShloMosaic.ValueIdx
open scoped BigOperators

noncomputable section

namespace Cert.Proof.ProjLaw

abbrev S646x32768 : Shape := ⟨2, ![646, 32768]⟩
abbrev S32768x64 : Shape := ⟨2, ![32768, 64]⟩
abbrev S32768x128 : Shape := ⟨2, ![32768, 128]⟩
abbrev S2x646x128 : Shape := ⟨3, ![2, 646, 128]⟩
abbrev S1x646x128 : Shape := ⟨3, ![1, 646, 128]⟩
abbrev S646x128 : Shape := ⟨2, ![646, 128]⟩
abbrev S646x64 : Shape := ⟨2, ![646, 64]⟩

/-! ## A sum over `m * n` indices as `m` tiles of `n` -/

/-- Position `r` of tile `q` is an index below `m * n`. -/
theorem tile_lt {m n N : ℕ} (hN : m * n = N) (q : Fin m) (r : Fin n) : q.val * n + r.val < N := by
  subst hN
  calc q.val * n + r.val < q.val * n + n := Nat.add_lt_add_left r.isLt _
    _ = (q.val + 1) * n := (Nat.succ_mul _ _).symm
    _ ≤ m * n := Nat.mul_le_mul_right _ q.isLt

/-- In a commutative additive monoid a sum over `N = m * n` indices is the sum, over the `m` tiles, of the sums over
    the `n` positions of a tile: `(q, r) ↦ q n + r` is a bijection onto the indices below `N`. -/
theorem sum_tiles {M : Type} [AddCommMonoid M] (m n N : ℕ) (hN : m * n = N) (g : Fin N → M) :
    ∑ q : Fin m, ∑ r : Fin n, g ⟨q.val * n + r.val, tile_lt hN q r⟩ = ∑ i : Fin N, g i := by
  subst hN
  rw [← Equiv.sum_comp finProdFinEquiv g, Fintype.sum_prod_type]
  refine Finset.sum_congr rfl fun q _ => Finset.sum_congr rfl fun r _ => congrArg g (Fin.ext ?_)
  show q.val * n + r.val = (finProdFinEquiv (q, r)).val
  rw [finProdFinEquiv_apply_val, Nat.mul_comm, Nat.add_comm]

theorem two_mul_16384 : 2 * 16384 = 32768 := by norm_num
theorem four_mul_4096 : 4 * 4096 = 16384 := by norm_num

/-- Index `k` of half `c` among all 32768 contraction indices: `16384 c + k`. -/
def kIdx (c : Fin 2) (k : Fin 16384) : Fin 32768 := ⟨c.val * 16384 + k.val, tile_lt two_mul_16384 c k⟩

theorem kIdx_val (c : Fin 2) (k : Fin 16384) : (kIdx c k).val = c.val * 16384 + k.val := rfl

/-- Index `k` of tile `s` among the 16384 indices of a half: `4096 s + k`. -/
def sIdx (s : Fin 4) (k : Fin 4096) : Fin 16384 := ⟨s.val * 4096 + k.val, tile_lt four_mul_4096 s k⟩

theorem sIdx_val (s : Fin 4) (k : Fin 4096) : (sIdx s k).val = s.val * 4096 + k.val := rfl

/-- Index `k` of tile `s` of half `c` among all 32768 contraction indices: `(4 c + s) 4096 + k`. -/
def tIdx (c : Fin 2) (s : Fin 4) (k : Fin 4096) : Fin 32768 :=
  ⟨(4 * c.val + s.val) * 4096 + k.val, by have := c.isLt; have := s.isLt; have := k.isLt; omega⟩

theorem tIdx_val (c : Fin 2) (s : Fin 4) (k : Fin 4096) : (tIdx c s k).val = (4 * c.val + s.val) * 4096 + k.val := rfl

/-- Tile `s` of half `c` is where half `c`'s index `4096 s + k` lies. -/
theorem kIdx_sIdx (c : Fin 2) (s : Fin 4) (k : Fin 4096) : kIdx c (sIdx s k) = tIdx c s k :=
  Fin.ext (by rw [kIdx_val, sIdx_val, tIdx_val]; omega)

/-- A sum over 32768 indices as its two halves. -/
theorem sum_halves {M : Type} [AddCommMonoid M] (g : Fin 32768 → M) :
    ∑ k : Fin 16384, g (kIdx 0 k) + ∑ k : Fin 16384, g (kIdx 1 k) = ∑ k : Fin 32768, g k := by
  rw [← sum_tiles 2 16384 32768 two_mul_16384 g, Fin.sum_univ_two]
  rfl

/-- A sum over 16384 indices as its four tiles of 4096, added one after the other onto zero. -/
theorem sum_four_tiles {M : Type} [AddCommMonoid M] (g : Fin 16384 → M) :
    (((0 + ∑ k : Fin 4096, g (sIdx 0 k)) + ∑ k : Fin 4096, g (sIdx 1 k)) + ∑ k : Fin 4096, g (sIdx 2 k))
      + ∑ k : Fin 4096, g (sIdx 3 k) = ∑ k : Fin 16384, g k := by
  rw [← sum_tiles 4 4096 16384 four_mul_4096 g, Fin.sum_univ_four, zero_add]
  rfl

/-! ## The two weight matrices side by side, read at a column -/

section Wcat

variable (W1 LPw : FVec Ideal S32768x64 .f32) (hcat : Shape.Concatenates [S32768x64, S32768x64] S32768x128 1)

/-- A column below 64 of the side-by-side matrix is that column of the left matrix. -/
theorem wcat_left (k : Fin 32768) (j : Fin 64) (j' : Fin 128) (hj : j'.val = j.val) :
    concatenate S32768x128 1 [⟨S32768x64, W1⟩, ⟨S32768x64, LPw⟩] hcat (ix2 k j') = W1 (ix2 k j) :=
  concatenate_pair_apply_left (s₁ := S32768x64) (s₂ := S32768x64) (1 : Fin 2) W1 LPw hcat (ix2 k j') rfl (ix2 k j)
    (fun b => by
      match b with
      | ⟨0, _⟩ => rfl
      | ⟨1, _⟩ => exact hj.symm)

/-- Column `64 + j` of the side-by-side matrix is column `j` of the right matrix. -/
theorem wcat_right (k : Fin 32768) (j : Fin 64) (j' : Fin 128) (hj : j'.val = 64 + j.val) :
    concatenate S32768x128 1 [⟨S32768x64, W1⟩, ⟨S32768x64, LPw⟩] hcat (ix2 k j') = LPw (ix2 k j) :=
  concatenate_pair_apply_right (s₁ := S32768x64) (s₂ := S32768x64) (1 : Fin 2) W1 LPw hcat (ix2 k j') rfl rfl (ix2 k j)
    (fun b hne => by
      match b with
      | ⟨0, _⟩ => rfl
      | ⟨1, _⟩ => exact absurd rfl hne)
    (by show j.val + 64 = j'.val; omega)

end Wcat

/-! ## The two halves added -/

section ProjSum

variable (h0 : S2x646x128.Slices ![0, 0, 0] S1x646x128) (h1 : S2x646x128.Slices ![1, 0, 0] S1x646x128)
  (hc : S1x646x128.ShapeCasts S646x128)

/-- The sum of the two halves, as the host spells it: each half cut out, its unit axis dropped, the two added. -/
def projSum (P : FVec Ideal S2x646x128 .f32) : FVec Ideal S646x128 .f32 :=
  addf (shapeCast S646x128 (extractStridedSlice S1x646x128 ![0, 0, 0] P h0) hc)
    (shapeCast S646x128 (extractStridedSlice S1x646x128 ![1, 0, 0] P h1) hc)

/-- At an entry it is the sum of the two halves' entries. -/
theorem projSum_apply (P : FVec Ideal S2x646x128 .f32) (n : Fin 646) (j : Fin 128) :
    projSum h0 h1 hc P (ix2 n j) = P (ix3 (0 : Fin 2) n j) + P (ix3 (1 : Fin 2) n j) := by
  unfold projSum
  rw [addf_apply, shapeCast_1ab_ab_apply, shapeCast_1ab_ab_apply]
  rw [extractStridedSlice_apply ![0, 0, 0] P h0 (ix3 (0 : Fin 1) n j) (ix3 (0 : Fin 2) n j) (fun a => by
      match a with
      | ⟨0, _⟩ => rfl
      | ⟨1, _⟩ => exact (Nat.zero_add _).symm
      | ⟨2, _⟩ => exact (Nat.zero_add _).symm),
    extractStridedSlice_apply ![1, 0, 0] P h1 (ix3 (0 : Fin 1) n j) (ix3 (1 : Fin 2) n j) (fun a => by
      match a with
      | ⟨0, _⟩ => rfl
      | ⟨1, _⟩ => exact (Nat.zero_add _).symm
      | ⟨2, _⟩ => exact (Nat.zero_add _).symm)]

end ProjSum

/-! ## The law -/

section Law

variable (x : FVec Ideal S646x32768 .f32) (W1 LPw : FVec Ideal S32768x64 .f32)
  (hcat : Shape.Concatenates [S32768x64, S32768x64] S32768x128 1)

/-- The part of the product `x · w` at `(n, j)` that tile `s` of half `c` contributes. -/
def tileSum (c : Fin 2) (s : Fin 4) (n : Fin 646) (j : Fin 128) : Ideal .f32 :=
  ∑ k : Fin 4096, x (ix2 n (tIdx c s k))
    * concatenate S32768x128 1 [⟨S32768x64, W1⟩, ⟨S32768x64, LPw⟩] hcat (ix2 (tIdx c s k) j)

/-- A half given as its four tiles added one after the other onto zero is the sum over the half's 16384 indices. -/
theorem halfSums_of_tileSums (P : FVec Ideal S2x646x128 .f32)
    (hP : ∀ (c : Fin 2) (n : Fin 646) (j : Fin 128), P (ix3 c n j)
      = (((0 + tileSum x W1 LPw hcat c 0 n j) + tileSum x W1 LPw hcat c 1 n j) + tileSum x W1 LPw hcat c 2 n j)
          + tileSum x W1 LPw hcat c 3 n j)
    (c : Fin 2) (n : Fin 646) (j : Fin 128) :
    P (ix3 c n j) = ∑ k : Fin 16384, x (ix2 n (kIdx c k))
      * concatenate S32768x128 1 [⟨S32768x64, W1⟩, ⟨S32768x64, LPw⟩] hcat (ix2 (kIdx c k) j) := by
  rw [hP c n j, ← sum_four_tiles (fun k : Fin 16384 => x (ix2 n (kIdx c k))
      * concatenate S32768x128 1 [⟨S32768x64, W1⟩, ⟨S32768x64, LPw⟩] hcat (ix2 (kIdx c k) j))]
  simp only [kIdx_sIdx, tileSum]

variable (h0 : S2x646x128.Slices ![0, 0, 0] S1x646x128) (h1 : S2x646x128.Slices ![1, 0, 0] S1x646x128)
  (hc : S1x646x128.ShapeCasts S646x128)
  (D : DotDims S646x32768 S32768x64 S646x64)
  (hlb : D.lhsBatch = []) (hln : D.lhsNonContracting = [0]) (hlc : D.lhsContracting = [1])
  (hrb : D.rhsBatch = []) (hrn : D.rhsNonContracting = [1]) (hrc : D.rhsContracting = [0])

include hlb hln hlc hrb hrn hrc

/-- Columns 0 … 63 of the two halves added are the product `x · W1`. -/
theorem proj_left_of_halfSums (P : FVec Ideal S2x646x128 .f32) (hsl : S646x128.Slices ![0, 0] S646x64)
    (hP : ∀ (c : Fin 2) (n : Fin 646) (j : Fin 128), P (ix3 c n j) = ∑ k : Fin 16384, x (ix2 n (kIdx c k))
      * concatenate S32768x128 1 [⟨S32768x64, W1⟩, ⟨S32768x64, LPw⟩] hcat (ix2 (kIdx c k) j)) :
    extractStridedSlice S646x64 ![0, 0] (projSum h0 h1 hc P) hsl = Host.dotGeneral D none x W1 := by
  funext i
  obtain ⟨n, j, rfl⟩ : ∃ (n : Fin 646) (j : Fin 64), i = ix2 n j := ⟨i 0, i 1, eq_ix2 i⟩
  have hj : j.val < 128 := by have := j.isLt; omega
  show _ = FloatOps.dotGeneral D none .single x W1 (ix2 n j)
  rw [Ideal.dotGeneral_rows_cols D hlb hln hlc hrb hrn hrc none .single x W1 n j,
    slice2_axis1_apply 0 (projSum h0 h1 hc P) hsl n j ⟨j.val, hj⟩ (Nat.zero_add _).symm,
    projSum_apply, hP, hP]
  have hw : ∀ k : Fin 32768, concatenate S32768x128 1 [⟨S32768x64, W1⟩, ⟨S32768x64, LPw⟩] hcat (ix2 k ⟨j.val, hj⟩)
      = W1 (ix2 k j) := fun k => wcat_left W1 LPw hcat k j ⟨j.val, hj⟩ rfl
  simp only [hw]
  exact sum_halves (fun k : Fin 32768 => x (ix2 n k) * W1 (ix2 k j))

/-- Columns 64 … 127 of the two halves added are the product `x · LPw`. -/
theorem proj_right_of_halfSums (P : FVec Ideal S2x646x128 .f32) (hsr : S646x128.Slices ![0, 64] S646x64)
    (hP : ∀ (c : Fin 2) (n : Fin 646) (j : Fin 128), P (ix3 c n j) = ∑ k : Fin 16384, x (ix2 n (kIdx c k))
      * concatenate S32768x128 1 [⟨S32768x64, W1⟩, ⟨S32768x64, LPw⟩] hcat (ix2 (kIdx c k) j)) :
    extractStridedSlice S646x64 ![0, 64] (projSum h0 h1 hc P) hsr = Host.dotGeneral D none x LPw := by
  funext i
  obtain ⟨n, j, rfl⟩ : ∃ (n : Fin 646) (j : Fin 64), i = ix2 n j := ⟨i 0, i 1, eq_ix2 i⟩
  have hj : 64 + j.val < 128 := by have := j.isLt; omega
  show _ = FloatOps.dotGeneral D none .single x LPw (ix2 n j)
  rw [Ideal.dotGeneral_rows_cols D hlb hln hlc hrb hrn hrc none .single x LPw n j,
    slice2_axis1_apply 64 (projSum h0 h1 hc P) hsr n j ⟨64 + j.val, hj⟩ rfl,
    projSum_apply, hP, hP]
  have hw : ∀ k : Fin 32768, concatenate S32768x128 1 [⟨S32768x64, W1⟩, ⟨S32768x64, LPw⟩] hcat (ix2 k ⟨64 + j.val, hj⟩)
      = LPw (ix2 k j) := fun k => wcat_right W1 LPw hcat k j ⟨64 + j.val, hj⟩ rfl
  simp only [hw]
  exact sum_halves (fun k : Fin 32768 => x (ix2 n k) * LPw (ix2 k j))

/-- The same from the four-tile form of each half. -/
theorem proj_left_of_tileSums (P : FVec Ideal S2x646x128 .f32) (hsl : S646x128.Slices ![0, 0] S646x64)
    (hP : ∀ (c : Fin 2) (n : Fin 646) (j : Fin 128), P (ix3 c n j)
      = (((0 + tileSum x W1 LPw hcat c 0 n j) + tileSum x W1 LPw hcat c 1 n j) + tileSum x W1 LPw hcat c 2 n j)
          + tileSum x W1 LPw hcat c 3 n j) :
    extractStridedSlice S646x64 ![0, 0] (projSum h0 h1 hc P) hsl = Host.dotGeneral D none x W1 :=
  proj_left_of_halfSums x W1 LPw hcat h0 h1 hc D hlb hln hlc hrb hrn hrc P hsl
    (halfSums_of_tileSums x W1 LPw hcat P hP)

theorem proj_right_of_tileSums (P : FVec Ideal S2x646x128 .f32) (hsr : S646x128.Slices ![0, 64] S646x64)
    (hP : ∀ (c : Fin 2) (n : Fin 646) (j : Fin 128), P (ix3 c n j)
      = (((0 + tileSum x W1 LPw hcat c 0 n j) + tileSum x W1 LPw hcat c 1 n j) + tileSum x W1 LPw hcat c 2 n j)
          + tileSum x W1 LPw hcat c 3 n j) :
    extractStridedSlice S646x64 ![0, 64] (projSum h0 h1 hc P) hsr = Host.dotGeneral D none x LPw :=
  proj_right_of_halfSums x W1 LPw hcat h0 h1 hc D hlb hln hlc hrb hrn hrc P hsr
    (halfSums_of_tileSums x W1 LPw hcat P hP)

end Law

end Cert.Proof.ProjLaw

end
-- ==== Proof.KIResult.lean ====
/-
  The value of the fused projection kernel's region, last part: the result array.

  The region's result has one plane per core; plane q is core q's accumulator after its fourth reduction tile, written back
  at that point and at no other. Entry (q, n, j) is therefore the left-nested sum
      (((0 + T 0) + T 1) + T 2) + T 3,    T s = ∑ k < 4096, x (n, (4q + s)·4096 + k) · w ((4q + s)·4096 + k, j),
  of the node features x and the joined weights w as the region finds them.
-/
import proofs.«129990_j53197464928873_2_alg».proof.Proof.KIChain
import proofs.«129990_j53197464928873_2_alg».proof.Proof.AccEntry
import proofs.«129990_j53197464928873_2_alg».proof.Proof.ProjLaw

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Proof.Acc Cert.Proof.ProjLaw

variable (mi : (ℓ : Loc nD τ sig) → Buf (Elt Ideal) ℓ)

theorem core_lt (q : Fin 2) : 4 * q.val + 3 < cfg0.N := by
  have := q.isLt; rw [show cfg0.N = 8 from N_0]; omega

/-- The region's result array: plane `q` is the accumulator after core `q`'s last step. -/
def Pres (c : Dev nD) : S2x646x128.Idx → EReal := fun i =>
  (accAt (F := Ideal) mi c (4 * (i 0).val + 3) (core_lt (i 0)) : S646x128.Idx → EReal) (ix2 (i 1) (i 2))

/-- The result window's block index, decided over the grid: the core's number on the leading axis. -/
theorem index2 : ∀ t : Fin grid0.N, win0_2.index t 0 = t.val / 4 ∧ win0_2.index t 1 = 0 ∧ win0_2.index t 2 = 0 := by
  decide +kernel

/-- What a core's last point writes back is that core's plane of the result array. -/
theorem flushed_eq (c : Dev nD) (t : Fin cfg0.N) (hf : (cfg0.win 2).flush t = true) :
    (dats mi 0 c).flushed 2 t = ((cfg0.win 2).blk t).view.read (Elt Ideal) (Pres mi c) := by
  have h3 : t.val % 4 = 3 := (flush0_2 t).mp hf
  have hN : cfg0.N = 8 := N_0
  have hlt : t.val < 8 := lt_of_lt_of_eq t.isLt hN
  obtain ⟨e0, e1, e2⟩ := index2 t
  show (cfg0.win 2).cut (grid0.coords t) ((dats mi 0 c).after 2 t) = _
  rw [after0_2, outsAt_fst mi c t h3]
  funext y
  obtain ⟨p, n, j, rfl⟩ : ∃ (p : Fin 1) (n : Fin 646) (j : Fin 128), y = ix3 p n j := ⟨y 0, y 1, y 2, eq_ix3 y⟩
  obtain rfl : p = 0 := Subsingleton.elim _ _
  rw [View.read_apply]
  have hE : ((cfg0.win 2).blk t).view.emb (ix3 (0 : Fin 1) n j) = ix3 (⟨t.val / 4, by omega⟩ : Fin 2) n j := by
    funext a; apply Fin.ext
    match a with
    | ⟨0, _⟩ => show win0_2.index t 0 * 1 + 1 * 0 = t.val / 4; omega
    | ⟨1, _⟩ => show win0_2.index t 1 * 646 + 1 * n.val = n.val; omega
    | ⟨2, _⟩ => show win0_2.index t 2 * 128 + 1 * j.val = j.val; omega
  rw [hE]
  show (k0_pay3 (F := Ideal) (accAt mi c t.val t.isLt) : S1x646x128.Idx → EReal) (ix3 (0 : Fin 1) n j)
    = (accAt (F := Ideal) mi c (4 * (t.val / 4) + 3) _ : S646x128.Idx → EReal) (ix2 n j)
  rw [pay3_apply, accAt_congr mi c (show 4 * (t.val / 4) + 3 = t.val by omega) _ t.isLt]

/-- An index of the result array is in point `t`'s block iff each coordinate is in the block's range. -/
theorem mem_blk (t : Fin cfg0.N) (i : S2x646x128.Idx) :
    i ∈ ((cfg0.win 2).blk t).view.set ↔ ∀ a : Fin 3, win0_2.index t a * S1x646x128.size a ≤ (i a).val ∧ (i a).val < win0_2.index t a * S1x646x128.size a + S1x646x128.size a := by
  show i ∈ ((View.whole main_v1).slice (win0_2.rect t)).set ↔ _
  rw [View.set_slice_whole, Rect.mem_set_unit]
  exact Iff.rfl

/-- The result array after the run: every index is in the plane its core's last point writes back. -/
theorem final (c : Dev nD) : (dats mi 0 c).arrAt 2 cfg0.N = Pres mi c :=
  (dats mi 0 c).arrAt_eq_of_cover 2 (Pres mi c) (flushed_eq mi c) fun i => by
    have hN : cfg0.N = 8 := N_0
    have h0 : (i 0).val < 2 := (i 0).isLt
    have h1 : (i 1).val < 646 := (i 1).isLt
    have h2 : (i 2).val < 128 := (i 2).isLt
    obtain ⟨e0, e1, e2⟩ := index2 ⟨4 * (i 0).val + 3, by have hN' : grid0.N = 8 := N_0; omega⟩
    refine ⟨⟨4 * (i 0).val + 3, by have hN' : grid0.N = 8 := N_0; omega⟩, (flush0_2 _).mpr (by show (4 * (i 0).val + 3) % 4 = 3; omega), ?_⟩
    rw [mem_blk]
    intro a
    match a with
    | ⟨0, _⟩ =>
      show win0_2.index ⟨4 * (i 0).val + 3, _⟩ 0 * 1 ≤ (i 0).val ∧ (i 0).val < win0_2.index ⟨4 * (i 0).val + 3, _⟩ 0 * 1 + 1
      rw [e0]; show (4 * (i 0).val + 3) / 4 * 1 ≤ (i 0).val ∧ (i 0).val < (4 * (i 0).val + 3) / 4 * 1 + 1; omega
    | ⟨1, _⟩ =>
      show win0_2.index ⟨4 * (i 0).val + 3, _⟩ 1 * 646 ≤ (i 1).val ∧ (i 1).val < win0_2.index ⟨4 * (i 0).val + 3, _⟩ 1 * 646 + 646
      rw [e1]; omega
    | ⟨2, _⟩ =>
      show win0_2.index ⟨4 * (i 0).val + 3, _⟩ 2 * 128 ≤ (i 2).val ∧ (i 2).val < win0_2.index ⟨4 * (i 0).val + 3, _⟩ 2 * 128 + 128
      rw [e2]; omega

/-! ## The result array's entries -/

/-- The node features and the joined weights, as the region finds them. -/
abbrev xArr (c : Dev nD) : S646x32768.Idx → EReal := V mi c main_arg0
abbrev wArr (c : Dev nD) : S32768x128.Idx → EReal := V mi c main_v0

/-- One reduction tile's contribution to entry (n, j): the products of row n of the node features and column j of the
    joined weights over the tile's 4096 positions. -/
def tile (c : Dev nD) (b : ℕ) (hb : b < cfg0.N) (n : Fin 646) (j : Fin 128) : EReal :=
  ∑ k : Fin 4096, xArr mi c (ix2 n ⟨b * 4096 + k.val, col_lt ⟨b, hb⟩ k⟩) * wArr mi c (ix2 ⟨b * 4096 + k.val, col_lt ⟨b, hb⟩ k⟩ j)

theorem accAt_first_apply (c : Dev nD) (b : ℕ) (hb : b < cfg0.N) (h0 : b % 4 = 0) (n : Fin 646) (j : Fin 128) :
    (accAt (F := Ideal) mi c b hb : S646x128.Idx → EReal) (ix2 n j) = 0 + tile mi c b hb n j := by
  rw [accAt_first mi c b hb h0, pay2_apply, pay1_apply]
  refine congrArg (0 + ·) (Finset.sum_congr rfl fun k _ => ?_)
  rw [iblk0_apply, iblk1_apply]

theorem accAt_next_apply (c : Dev nD) (b : ℕ) (hb : b + 1 < cfg0.N) (h0 : ¬(b + 1) % 4 = 0) (n : Fin 646) (j : Fin 128) :
    (accAt (F := Ideal) mi c (b + 1) hb : S646x128.Idx → EReal) (ix2 n j)
      = (accAt (F := Ideal) mi c b (Nat.lt_of_succ_lt hb) : S646x128.Idx → EReal) (ix2 n j) + tile mi c (b + 1) hb n j := by
  rw [accAt_next mi c b hb h0, pay2_apply]
  refine congrArg (_ + ·) (Finset.sum_congr rfl fun k _ => ?_)
  rw [iblk0_apply, iblk1_apply]

/-- Entry (q, n, j) of the result array: core q's four tiles, added in order onto zero. -/
theorem Pres_apply (c : Dev nD) (q : Fin 2) (n : Fin 646) (j : Fin 128) :
    Pres mi c (ix3 q n j)
      = (((0 + tile mi c (4 * q.val) (by have := core_lt q; omega) n j)
            + tile mi c (4 * q.val + 1) (by have := core_lt q; omega) n j)
          + tile mi c (4 * q.val + 2) (by have := core_lt q; omega) n j)
        + tile mi c (4 * q.val + 3) (core_lt q) n j := by
  show (accAt (F := Ideal) mi c (4 * q.val + 2 + 1) _ : S646x128.Idx → EReal) (ix2 n j) = _
  rw [accAt_next_apply mi c (4 * q.val + 2) _ (by omega)]
  show (accAt (F := Ideal) mi c (4 * q.val + 1 + 1) _ : S646x128.Idx → EReal) (ix2 n j) + _ = _
  rw [accAt_next_apply mi c (4 * q.val + 1) _ (by omega)]
  show (accAt (F := Ideal) mi c (4 * q.val + 0 + 1) _ : S646x128.Idx → EReal) (ix2 n j) + _ + _ = _
  rw [accAt_next_apply mi c (4 * q.val + 0) _ (by omega)]
  rw [accAt_first_apply mi c (4 * q.val + 0) _ (by omega)]
  rfl

end Cert.KernelIdeal.Fr

end
-- ==== Proof.AggTerms.lean ====
/-
  The two spellings of a graph aggregation, as the two programs compose them, over variables.

  Both take the edge targets `col`, the edge sources `row` (32-bit words, one per edge), the edge weights `nrm` and a
  table `h` of one row per node.  The DENSE spelling collects the weights into a matrix with one scatter-add at the
  two-component index `(col e, row e)` — after the negative-index wrap of both components — and multiplies the matrix
  into the table (`dot_general`).  The SEGMENT spelling gathers the table's rows at the wrapped `row`, multiplies each
  by its weight, and scatter-adds the rows at the raw `col`.
-/
import proofs.«129990_j53197464928873_2_alg».proof.Proof.Gen.KernelIdeal
import proofs.«129990_j53197464928873_2_alg».proof.Proof.Gen.ReferenceIdeal
import Idealize.ShloMosaic.PureOps.Ideal

noncomputable section

namespace Cert.Proof.Agg

open Idealize.ShloMosaic

section Dense
open Cert.KernelIdeal Cert.KernelIdeal.Facts₀

/-- The negative-index wrap `select (v < 0) (v + 646) v`, in the dense spelling. -/
abbrev wrapD (v : IVec S41990 32) : IVec S41990 32 :=
  select (cmpi .slt v (broadcastInDim S41990 ![] bcast_S_S41990 (constantI S_ 32 0#32)))
    (addi v (broadcastInDim S41990 ![] bcast_S_S41990 (constantI S_ 32 646#32))) v

/-- The two-column index `[wrap col, wrap row]` of the dense scatter. -/
abbrev pairIdx (col row : IVec S41990 32) : IVec S41990x2 32 :=
  concatenate S41990x2 1
    [⟨S41990x1, broadcastInDim S41990x1 ![0] bcast_S41990_S41990x1_0 (wrapD col)⟩,
     ⟨S41990x1, broadcastInDim S41990x1 ![0] bcast_S41990_S41990x1_0 (wrapD row)⟩]
    concatenates_S41990x1_S41990x1_S41990x2_d1

/-- The dense weight matrix: `zeros([646, 646]).at[col, row].add(nrm)`. -/
def denseAdj (col row : IVec S41990 32) (nrm : FVec Ideal S41990 .f32) : FVec Ideal S646x646 .f32 :=
  Host.scatterAdd (F := Ideal) scatter_S646x646_S41990x2_S41990_n_01_01_1
    (broadcastInDim S646x646 ![] bcast_S_S646x646 (constant (F := Ideal) S_ .f32 0x00000000#32))
    (pairIdx col row) nrm

/-- The dense aggregation of a width-64 table. -/
def denseAgg64 (col row : IVec S41990 32) (nrm : FVec Ideal S41990 .f32) (h : FVec Ideal S646x64 .f32) :
    FVec Ideal S646x64 .f32 :=
  Host.dotGeneral (F := Ideal) dot_S646x646_S646x64_S646x64_1_0_0_1_n_n none (denseAdj col row nrm) h

/-- The dense aggregation of a width-128 table. -/
def denseAgg128 (col row : IVec S41990 32) (nrm : FVec Ideal S41990 .f32) (h : FVec Ideal S646x128 .f32) :
    FVec Ideal S646x128 .f32 :=
  Host.dotGeneral (F := Ideal) dot_S646x646_S646x128_S646x128_1_0_0_1_n_n none (denseAdj col row nrm) h

end Dense

section Segment
open Cert.ReferenceIdeal Cert.ReferenceIdeal.Facts₀

/-- The negative-index wrap, in the segment spelling. -/
abbrev wrapS (v : IVec S41990 32) : IVec S41990 32 :=
  select (cmpi .slt v (broadcastInDim S41990 ![] bcast_S_S41990 (constantI S_ 32 0#32)))
    (addi v (broadcastInDim S41990 ![] bcast_S_S41990 (constantI S_ 32 646#32))) v

/-- The segment aggregation of a width-64 table. -/
def segAgg64 (col row : IVec S41990 32) (nrm : FVec Ideal S41990 .f32) (h : FVec Ideal S646x64 .f32) :
    FVec Ideal S646x64 .f32 :=
  Host.scatterAdd (F := Ideal) scatter_S646x64_S41990x1_S41990x64_1_0_0_1
    (broadcastInDim S646x64 ![] bcast_S_S646x64 (constant (F := Ideal) S_ .f32 0x00000000#32))
    (broadcastInDim S41990x1 ![0] bcast_S41990_S41990x1_0 col)
    (mulf (F := Ideal)
      (Host.gather gather_S646x64_S41990x1_S41990x64_1_0_n_n_0_1_164 h
        (broadcastInDim S41990x1 ![0] bcast_S41990_S41990x1_0 (wrapS row)))
      (broadcastInDim S41990x64 ![0, 1] bcast_S41990x1_S41990x64_0_1
        (broadcastInDim S41990x1 ![0] bcast_S41990_S41990x1_0 nrm)))

/-- The segment aggregation of a width-128 table. -/
def segAgg128 (col row : IVec S41990 32) (nrm : FVec Ideal S41990 .f32) (h : FVec Ideal S646x128 .f32) :
    FVec Ideal S646x128 .f32 :=
  Host.scatterAdd (F := Ideal) scatter_S646x128_S41990x1_S41990x128_1_0_0_1
    (broadcastInDim S646x128 ![] bcast_S_S646x128 (constant (F := Ideal) S_ .f32 0x00000000#32))
    (broadcastInDim S41990x1 ![0] bcast_S41990_S41990x1_0 col)
    (mulf (F := Ideal)
      (Host.gather gather_S646x128_S41990x1_S41990x128_1_0_n_n_0_1_1128 h
        (broadcastInDim S41990x1 ![0] bcast_S41990_S41990x1_0 (wrapS row)))
      (broadcastInDim S41990x128 ![0, 1] bcast_S41990x1_S41990x128_0_1
        (broadcastInDim S41990x1 ![0] bcast_S41990_S41990x1_0 nrm)))

end Segment

end Cert.Proof.Agg

end
-- ==== Proof.PreFactsNorm.lean ====
/-
  The edge weights are nonnegative.

  The degree array is a scatter-add; the array `dinv` holds, at each node, the reciprocal square root of the
  degree where the degree is positive and zero elsewhere.  The reciprocal square root of a positive extended
  real is nonnegative (of +∞ it is 0, of a positive real it is the inverse of a square root), so every entry
  of `dinv` is nonnegative — whatever the degrees are, because a degree that is not positive is never passed
  through the reciprocal square root.  A gathered entry is an entry of `dinv`, and the weight of an edge is a
  product of two gathered entries; a product of two nonnegative extended reals is nonnegative.  No bound on the
  indices is used.
-/
import proofs.«129990_j53197464928873_2_alg».proof.KernelIdeal
import Idealize.ShloMosaic.Lib.ValueLayout
import Idealize.ShloMosaic.Lib.IdealHost
import Idealize.ShloMosaic.PureOps.Ideal.Laws

open Idealize.ShloMosaic Idealize.ShloMosaic.ValueIdx

noncomputable section

namespace Cert.Proof.PreFactsNorm

abbrev S646 : Shape := ⟨1, ![646]⟩
abbrev S41990 : Shape := ⟨1, ![41990]⟩
abbrev S41990x1 : Shape := ⟨2, ![41990, 1]⟩
abbrev S_ : Shape := ⟨0, ![]⟩

/-! ## One entry -/

/-- The reciprocal square root of a positive extended real is nonnegative. -/
theorem rsqrt_nonneg_of_pos (a : EReal) (h : 0 < a) : 0 ≤ Ideal.rsqrt a := by
  induction a using EReal.rec with
  | bot => exact absurd h not_lt_bot
  | coe r =>
    have hr : 0 < r := EReal.coe_pos.mp h
    rw [Ideal.rsqrt_coe, if_neg (not_lt.mpr hr.le), if_neg hr.ne']
    exact EReal.coe_nonneg.mpr (inv_nonneg.mpr (Real.sqrt_nonneg r))
  | top => rw [Ideal.rsqrt_top]

/-- `where(a > 0, rsqrt a, 0)` is nonnegative. -/
theorem where_rsqrt_nonneg (a z : EReal) (hz : z = 0) :
    0 ≤ Scalar.select (Ideal.cmp .ogt a z) (Ideal.rsqrt a) z := by
  by_cases hlt : z < a
  · have hc : Ideal.cmp .ogt a z = 1#1 := by simp [Ideal.cmp, hlt]
    rw [hc, select_one]
    exact rsqrt_nonneg_of_pos a (hz ▸ hlt)
  · have hc : Ideal.cmp .ogt a z = 0#1 := by simp [Ideal.cmp, hlt]
    rw [hc, select_zero, hz]

/-! ## The arrays, for any scatter and gather dimension numbers -/

section Gen

variable (sd : ScatterDims S646 S41990x1 S41990) (gd : GatherDims S646 S41990x1 S41990)
  (hb646 : S_.BroadcastsInDim S646 (![] : Fin 0 → Fin S646.rank))
  (hb41990 : S_.BroadcastsInDim S41990 (![] : Fin 0 → Fin S41990.rank))
  (hbcol : S41990.BroadcastsInDim S41990x1 (![0] : Fin 1 → Fin S41990x1.rank))

/-- The degrees: ones scattered and added at the targets, onto zeros. -/
def degOfGen (col : IVec S41990 32) : FVec Ideal S646 .f32 :=
  Host.scatterAdd (F := Ideal) sd (broadcastInDim S646 ![] hb646 (constant (F := Ideal) S_ .f32 0x00000000#32))
    (broadcastInDim S41990x1 ![0] hbcol col)
    (broadcastInDim S41990 ![] hb41990 (constant (F := Ideal) S_ .f32 0x3F800000#32))

/-- `where(deg > 0, rsqrt deg, 0)`. -/
def dinvOfGen (col : IVec S41990 32) : FVec Ideal S646 .f32 :=
  select (cmpf (F := Ideal) .ogt (degOfGen sd hb646 hb41990 hbcol col)
      (broadcastInDim S646 ![] hb646 (constant (F := Ideal) S_ .f32 0x00000000#32)))
    (Host.rsqrt (F := Ideal) (degOfGen sd hb646 hb41990 hbcol col))
    (broadcastInDim S646 ![] hb646 (constant (F := Ideal) S_ .f32 0x00000000#32))

/-- The negative-index wrap: `v + 646` where `v < 0`, else `v`. -/
def wrapOfGen (v : IVec S41990 32) : IVec S41990 32 :=
  select (cmpi .slt v (broadcastInDim S41990 ![] hb41990 (constantI S_ 32 0#32)))
    (addi v (broadcastInDim S41990 ![] hb41990 (constantI S_ 32 646#32))) v

/-- The edge weights `dinv[row] * dinv[col]`. -/
def normOfGen (col row : IVec S41990 32) : FVec Ideal S41990 .f32 :=
  mulf (Host.gather gd (dinvOfGen sd hb646 hb41990 hbcol col) (broadcastInDim S41990x1 ![0] hbcol (wrapOfGen hb41990 row)))
    (Host.gather gd (dinvOfGen sd hb646 hb41990 hbcol col) (broadcastInDim S41990x1 ![0] hbcol (wrapOfGen hb41990 col)))

theorem dinvOfGen_nonneg (col : IVec S41990 32) (i : S646.Idx) : 0 ≤ dinvOfGen sd hb646 hb41990 hbcol col i := by
  have hz : broadcastInDim S646 ![] hb646 (constant (F := Ideal) S_ .f32 0x00000000#32) i = 0 := by
    rw [broadcastInDim_scalar_apply, constant_apply]
    exact Ideal.ofBits_zero_f32
  unfold dinvOfGen
  generalize degOfGen sd hb646 hb41990 hbcol col = deg
  generalize broadcastInDim S646 ![] hb646 (constant (F := Ideal) S_ .f32 0x00000000#32) = z at hz
  exact where_rsqrt_nonneg (deg i) (z i) hz

theorem normOfGen_nonneg (col row : IVec S41990 32) (e : S41990.Idx) :
    0 ≤ normOfGen sd gd hb646 hb41990 hbcol col row e := by
  have hd := dinvOfGen_nonneg sd hb646 hb41990 hbcol col
  unfold normOfGen
  generalize dinvOfGen sd hb646 hb41990 hbcol col = dinv at hd
  rw [mulf_apply]
  exact EReal.mul_nonneg (hd _) (hd _)

end Gen

/-! ## At the dimension numbers of the program -/

section Kernel

variable [Cert.KernelIdeal.Facts₀]

/-- The edge weights as the program computes them from the two index arrays. -/
def normOf (col row : IVec S41990 32) : FVec Ideal S41990 .f32 :=
  normOfGen Cert.KernelIdeal.scatter_S646_S41990x1_S41990_n_0_0_1 Cert.KernelIdeal.gather_S646_S41990x1_S41990_n_0_n_n_0_1_1
    Cert.KernelIdeal.Facts₀.bcast_S_S646 Cert.KernelIdeal.Facts₀.bcast_S_S41990 Cert.KernelIdeal.Facts₀.bcast_S41990_S41990x1_0
    col row

open Cert.KernelIdeal Cert.KernelIdeal.Facts₀ in
/-- The same, every operation written out. -/
theorem normOf_eq (col row : IVec S41990 32) :
    normOf col row
      = mulf
          (Host.gather gather_S646_S41990x1_S41990_n_0_n_n_0_1_1
            (select
              (cmpf (F := Ideal) .ogt
                (Host.scatterAdd (F := Ideal) scatter_S646_S41990x1_S41990_n_0_0_1
                  (broadcastInDim S646 ![] bcast_S_S646 (constant (F := Ideal) S_ .f32 0x00000000#32))
                  (broadcastInDim S41990x1 ![0] bcast_S41990_S41990x1_0 col)
                  (broadcastInDim S41990 ![] bcast_S_S41990 (constant (F := Ideal) S_ .f32 0x3F800000#32)))
                (broadcastInDim S646 ![] bcast_S_S646 (constant (F := Ideal) S_ .f32 0x00000000#32)))
              (Host.rsqrt (F := Ideal)
                (Host.scatterAdd (F := Ideal) scatter_S646_S41990x1_S41990_n_0_0_1
                  (broadcastInDim S646 ![] bcast_S_S646 (constant (F := Ideal) S_ .f32 0x00000000#32))
                  (broadcastInDim S41990x1 ![0] bcast_S41990_S41990x1_0 col)
                  (broadcastInDim S41990 ![] bcast_S_S41990 (constant (F := Ideal) S_ .f32 0x3F800000#32))))
              (broadcastInDim S646 ![] bcast_S_S646 (constant (F := Ideal) S_ .f32 0x00000000#32)))
            (broadcastInDim S41990x1 ![0] bcast_S41990_S41990x1_0
              (select (cmpi .slt row (broadcastInDim S41990 ![] bcast_S_S41990 (constantI S_ 32 0#32)))
                (addi row (broadcastInDim S41990 ![] bcast_S_S41990 (constantI S_ 32 646#32))) row)))
          (Host.gather gather_S646_S41990x1_S41990_n_0_n_n_0_1_1
            (select
              (cmpf (F := Ideal) .ogt
                (Host.scatterAdd (F := Ideal) scatter_S646_S41990x1_S41990_n_0_0_1
                  (broadcastInDim S646 ![] bcast_S_S646 (constant (F := Ideal) S_ .f32 0x00000000#32))
                  (broadcastInDim S41990x1 ![0] bcast_S41990_S41990x1_0 col)
                  (broadcastInDim S41990 ![] bcast_S_S41990 (constant (F := Ideal) S_ .f32 0x3F800000#32)))
                (broadcastInDim S646 ![] bcast_S_S646 (constant (F := Ideal) S_ .f32 0x00000000#32)))
              (Host.rsqrt (F := Ideal)
                (Host.scatterAdd (F := Ideal) scatter_S646_S41990x1_S41990_n_0_0_1
                  (broadcastInDim S646 ![] bcast_S_S646 (constant (F := Ideal) S_ .f32 0x00000000#32))
                  (broadcastInDim S41990x1 ![0] bcast_S41990_S41990x1_0 col)
                  (broadcastInDim S41990 ![] bcast_S_S41990 (constant (F := Ideal) S_ .f32 0x3F800000#32))))
              (broadcastInDim S646 ![] bcast_S_S646 (constant (F := Ideal) S_ .f32 0x00000000#32)))
            (broadcastInDim S41990x1 ![0] bcast_S41990_S41990x1_0
              (select (cmpi .slt col (broadcastInDim S41990 ![] bcast_S_S41990 (constantI S_ 32 0#32)))
                (addi col (broadcastInDim S41990 ![] bcast_S_S41990 (constantI S_ 32 646#32))) col))) :=
  rfl

/-- Every edge weight is nonnegative. -/
theorem norm_nonneg (col row : IVec S41990 32) (e : S41990.Idx) : 0 ≤ normOf col row e :=
  normOfGen_nonneg _ _ _ _ _ col row e

end Kernel

end Cert.Proof.PreFactsNorm

end
-- ==== Proof.ProjLawAt.lean ====
/-
  The projection law at the two programs' own names: the kernel's slices, shape cast and side-by-side weights,
  and the reference's matrix product.
-/
import proofs.«129990_j53197464928873_2_alg».proof.Proof.ProjLaw
import proofs.«129990_j53197464928873_2_alg».proof.KernelIdeal
import proofs.«129990_j53197464928873_2_alg».proof.ReferenceIdeal

open Idealize.ShloMosaic Idealize.ShloMosaic.ValueIdx
open scoped BigOperators

noncomputable section

namespace Cert.Proof.ProjLaw

variable [Cert.KernelIdeal.Facts₀] [Cert.ReferenceIdeal.Facts₀]

/-- The two weight matrices side by side, as the kernel's first operation builds them. -/
abbrev wcat (W1 LPw : FVec Ideal S32768x64 .f32) : FVec Ideal S32768x128 .f32 :=
  concatenate S32768x128 1 [⟨S32768x64, W1⟩, ⟨S32768x64, LPw⟩]
    Cert.KernelIdeal.Facts₀.concatenates_S32768x64_S32768x64_S32768x128_d1

/-- The two halves added, as the kernel's host operations spell it. -/
abbrev projSumK (P : FVec Ideal S2x646x128 .f32) : FVec Ideal S646x128 .f32 :=
  addf
    (shapeCast S646x128 (extractStridedSlice S1x646x128 ![0, 0, 0] P Cert.KernelIdeal.Facts₀.slices_S2x646x128_S1x646x128_0_0_0)
      Cert.KernelIdeal.Facts₀.shapeCasts_S1x646x128_S646x128)
    (shapeCast S646x128 (extractStridedSlice S1x646x128 ![1, 0, 0] P Cert.KernelIdeal.Facts₀.slices_S2x646x128_S1x646x128_1_0_0)
      Cert.KernelIdeal.Facts₀.shapeCasts_S1x646x128_S646x128)

variable (x : FVec Ideal S646x32768 .f32) (W1 LPw : FVec Ideal S32768x64 .f32) (P : FVec Ideal S2x646x128 .f32)

/-- Columns 0 … 63: the reference's `x · W1`; each half of `P` given as its four tiles added onto zero. -/
theorem proj_left
    (hP : ∀ (c : Fin 2) (n : Fin 646) (j : Fin 128), P (ix3 c n j)
      = (((0 + ∑ k : Fin 4096, x (ix2 n (tIdx c 0 k)) * wcat W1 LPw (ix2 (tIdx c 0 k) j))
            + ∑ k : Fin 4096, x (ix2 n (tIdx c 1 k)) * wcat W1 LPw (ix2 (tIdx c 1 k) j))
          + ∑ k : Fin 4096, x (ix2 n (tIdx c 2 k)) * wcat W1 LPw (ix2 (tIdx c 2 k) j))
        + ∑ k : Fin 4096, x (ix2 n (tIdx c 3 k)) * wcat W1 LPw (ix2 (tIdx c 3 k) j)) :
    extractStridedSlice S646x64 ![0, 0] (projSumK P) Cert.KernelIdeal.Facts₀.slices_S646x128_S646x64_0_0
      = Host.dotGeneral Cert.ReferenceIdeal.dot_S646x32768_S32768x64_S646x64_1_0_0_1_n_n none x W1 :=
  proj_left_of_tileSums x W1 LPw _ _ _ _ Cert.ReferenceIdeal.dot_S646x32768_S32768x64_S646x64_1_0_0_1_n_n
    rfl rfl rfl rfl rfl rfl P _ hP

/-- Columns 64 … 127: the reference's `x · LPw`. -/
theorem proj_right
    (hP : ∀ (c : Fin 2) (n : Fin 646) (j : Fin 128), P (ix3 c n j)
      = (((0 + ∑ k : Fin 4096, x (ix2 n (tIdx c 0 k)) * wcat W1 LPw (ix2 (tIdx c 0 k) j))
            + ∑ k : Fin 4096, x (ix2 n (tIdx c 1 k)) * wcat W1 LPw (ix2 (tIdx c 1 k) j))
          + ∑ k : Fin 4096, x (ix2 n (tIdx c 2 k)) * wcat W1 LPw (ix2 (tIdx c 2 k) j))
        + ∑ k : Fin 4096, x (ix2 n (tIdx c 3 k)) * wcat W1 LPw (ix2 (tIdx c 3 k) j)) :
    extractStridedSlice S646x64 ![0, 64] (projSumK P) Cert.KernelIdeal.Facts₀.slices_S646x128_S646x64_0_64
      = Host.dotGeneral Cert.ReferenceIdeal.dot_S646x32768_S32768x64_S646x64_1_0_0_1_n_n none x LPw :=
  proj_right_of_tileSums x W1 LPw _ _ _ _ Cert.ReferenceIdeal.dot_S646x32768_S32768x64_S646x64_1_0_0_1_n_n
    rfl rfl rfl rfl rfl rfl P _ hP

/-- The same two from the half form: half `c` of `P` the sum over its 16384 indices. -/
theorem proj_left_half
    (hP : ∀ (c : Fin 2) (n : Fin 646) (j : Fin 128), P (ix3 c n j)
      = ∑ k : Fin 16384, x (ix2 n (kIdx c k)) * wcat W1 LPw (ix2 (kIdx c k) j)) :
    extractStridedSlice S646x64 ![0, 0] (projSumK P) Cert.KernelIdeal.Facts₀.slices_S646x128_S646x64_0_0
      = Host.dotGeneral Cert.ReferenceIdeal.dot_S646x32768_S32768x64_S646x64_1_0_0_1_n_n none x W1 :=
  proj_left_of_halfSums x W1 LPw _ _ _ _ Cert.ReferenceIdeal.dot_S646x32768_S32768x64_S646x64_1_0_0_1_n_n
    rfl rfl rfl rfl rfl rfl P _ hP

theorem proj_right_half
    (hP : ∀ (c : Fin 2) (n : Fin 646) (j : Fin 128), P (ix3 c n j)
      = ∑ k : Fin 16384, x (ix2 n (kIdx c k)) * wcat W1 LPw (ix2 (kIdx c k) j)) :
    extractStridedSlice S646x64 ![0, 64] (projSumK P) Cert.KernelIdeal.Facts₀.slices_S646x128_S646x64_0_64
      = Host.dotGeneral Cert.ReferenceIdeal.dot_S646x32768_S32768x64_S646x64_1_0_0_1_n_n none x LPw :=
  proj_right_of_halfSums x W1 LPw _ _ _ _ Cert.ReferenceIdeal.dot_S646x32768_S32768x64_S646x64_1_0_0_1_n_n
    rfl rfl rfl rfl rfl rfl P _ hP

end Cert.Proof.ProjLaw

end
-- ==== Proof.TailDefs.lean ====
/-
  The host computation that follows the projection, as one composed value.

  From the two halves `P` of the projection, the edge list and the small parameters, the program forms: the two
  index arrays (sources `row`, targets `col`), the edge weights, the dense weight matrix `A`; the first layer
  `lin + (A · h₀ + b1)` with `h₀` and `lin` the two column halves of the projection (the second plus its bias);
  the SiLU `h · (1 / (1 + exp (-h)))`; the normalisation over all entries (mean, centred value, variance, reciprocal
  square root of variance plus epsilon, product); the second weight product and the second aggregation
  `A · (ln · W2) + b2`.  Each definition below is one of these stages, written with exactly the operations the
  program composes, so that unfolding them all gives the program's own composition.
-/
import proofs.«129990_j53197464928873_2_alg».proof.Proof.AggTerms
import proofs.«129990_j53197464928873_2_alg».proof.Proof.PreFactsNorm
import proofs.«129990_j53197464928873_2_alg».proof.Proof.ProjLawAt

open Idealize.ShloMosaic

noncomputable section

namespace Cert.Proof.Tail

open Cert.KernelIdeal Cert.KernelIdeal.Facts₀

/-- The sources' array: row 0 of the edge list, flattened, followed by 0 … 645. -/
def rowOf (ei : IVec S2x41344 32) : IVec S41990 32 :=
  concatenate S41990 0
    [⟨S41344, shapeCast S41344 (extractStridedSlice S1x41344 ![0, 0] ei slices_S2x41344_S1x41344_0_0) shapeCasts_S1x41344_S41344⟩,
     ⟨S646, iotaInDim S646 32 0⟩] concatenates_S41344_S646_S41990_d0

/-- The targets' array: row 1 of the edge list, flattened, followed by 0 … 645. -/
def colOf (ei : IVec S2x41344 32) : IVec S41990 32 :=
  concatenate S41990 0
    [⟨S41344, shapeCast S41344 (extractStridedSlice S1x41344 ![1, 0] ei slices_S2x41344_S1x41344_1_0) shapeCasts_S1x41344_S41344⟩,
     ⟨S646, iotaInDim S646 32 0⟩] concatenates_S41344_S646_S41990_d0

/-- Columns 0 … 63 of the two halves added. -/
def projL (P : FVec Ideal S2x646x128 .f32) : FVec Ideal S646x64 .f32 :=
  extractStridedSlice S646x64 ![0, 0] (Cert.Proof.ProjLaw.projSumK P) slices_S646x128_S646x64_0_0

/-- Columns 64 … 127 of the two halves added. -/
def projR (P : FVec Ideal S2x646x128 .f32) : FVec Ideal S646x64 .f32 :=
  extractStridedSlice S646x64 ![0, 64] (Cert.Proof.ProjLaw.projSumK P) slices_S646x128_S646x64_0_64

/-- A bias of 64 entries repeated down the 646 rows. -/
def biasRows64 (b : FVec Ideal S64 .f32) : FVec Ideal S646x64 .f32 :=
  broadcastInDim S646x64 ![0, 1] bcast_S1x64_S646x64_0_1 (broadcastInDim S1x64 ![1] bcast_S64_S1x64_1 b)

/-- A bias of 128 entries repeated down the 646 rows. -/
def biasRows128 (b : FVec Ideal S128 .f32) : FVec Ideal S646x128 .f32 :=
  broadcastInDim S646x128 ![0, 1] bcast_S1x128_S646x128_0_1 (broadcastInDim S1x128 ![1] bcast_S128_S1x128_1 b)

/-- The linear path: the right column half plus its bias. -/
def linOf (P : FVec Ideal S2x646x128 .f32) (LPb : FVec Ideal S64 .f32) : FVec Ideal S646x64 .f32 :=
  addf (projR P) (biasRows64 LPb)

/-- The degrees: ones scattered and added at the targets, onto zeros. -/
def degOf (col : IVec S41990 32) : FVec Ideal S646 .f32 :=
  Host.scatterAdd (F := Ideal) scatter_S646_S41990x1_S41990_n_0_0_1
    (broadcastInDim S646 ![] bcast_S_S646 (constant (F := Ideal) S_ .f32 0x00000000#32))
    (broadcastInDim S41990x1 ![0] bcast_S41990_S41990x1_0 col)
    (broadcastInDim S41990 ![] bcast_S_S41990 (constant (F := Ideal) S_ .f32 0x3F800000#32))

/-- `where(deg > 0, rsqrt deg, 0)`. -/
def dinvOf (col : IVec S41990 32) : FVec Ideal S646 .f32 :=
  select (cmpf (F := Ideal) .ogt (degOf col) (broadcastInDim S646 ![] bcast_S_S646 (constant (F := Ideal) S_ .f32 0x00000000#32)))
    (Host.rsqrt (F := Ideal) (degOf col))
    (broadcastInDim S646 ![] bcast_S_S646 (constant (F := Ideal) S_ .f32 0x00000000#32))

/-- The edge weights `dinv[row] · dinv[col]` from any array `dinv`. -/
def nrmFrom (dinv : FVec Ideal S646 .f32) (col row : IVec S41990 32) : FVec Ideal S41990 .f32 :=
  mulf (Host.gather gather_S646_S41990x1_S41990_n_0_n_n_0_1_1 dinv
      (broadcastInDim S41990x1 ![0] bcast_S41990_S41990x1_0 (Cert.Proof.Agg.wrapD row)))
    (Host.gather gather_S646_S41990x1_S41990_n_0_n_n_0_1_1 dinv
      (broadcastInDim S41990x1 ![0] bcast_S41990_S41990x1_0 (Cert.Proof.Agg.wrapD col)))

/-- The edge weights from the edge list. -/
def nrmOf (ei : IVec S2x41344 32) : FVec Ideal S41990 .f32 :=
  nrmFrom (dinvOf (colOf ei)) (colOf ei) (rowOf ei)

/-- They are the weights whose nonnegativity is known. -/
theorem nrmOf_eq (ei : IVec S2x41344 32) : nrmOf ei = Cert.Proof.PreFactsNorm.normOf (colOf ei) (rowOf ei) := rfl

/-- The first layer before its nonlinearity: `lin + (agg + b1)`. -/
def hiddenOf (lin agg : FVec Ideal S646x64 .f32) (b1 : FVec Ideal S64 .f32) : FVec Ideal S646x64 .f32 :=
  addf lin (addf agg (biasRows64 b1))

/-- SiLU: `h · (1 / (1 + exp (-h)))`. -/
def siluOf (h : FVec Ideal S646x64 .f32) : FVec Ideal S646x64 .f32 :=
  mulf h
    (Host.divf (F := Ideal) (broadcastInDim S646x64 ![] bcast_S_S646x64 (constant (F := Ideal) S_ .f32 0x3F800000#32))
      (addf (broadcastInDim S646x64 ![] bcast_S_S646x64 (constant (F := Ideal) S_ .f32 0x3F800000#32))
        (Host.exp (F := Ideal) (Host.negf (F := Ideal) h))))

/-- The sum of all entries divided by their number. -/
def meanOf (s : FVec Ideal S646x64 .f32) : FVec Ideal S_ .f32 :=
  Host.divf (F := Ideal) (Host.reduceAdd (F := Ideal) s (constant (F := Ideal) S_ .f32 0x00000000#32) reducesTo_S646x64_S_d0_1 h_S_)
    (constant (F := Ideal) S_ .f32 0x47218000#32)

/-- The entries less their mean. -/
def centredOf (s : FVec Ideal S646x64 .f32) : FVec Ideal S646x64 .f32 :=
  subf s (broadcastInDim S646x64 ![] bcast_S_S646x64 (meanOf s))

/-- The normalisation over all entries: centred value times the reciprocal square root of variance plus epsilon. -/
def lnOf (s : FVec Ideal S646x64 .f32) : FVec Ideal S646x64 .f32 :=
  mulf (centredOf s)
    (broadcastInDim S646x64 ![] bcast_S_S646x64
      (Host.rsqrt (F := Ideal)
        (addf (meanOf (mulf (centredOf s) (centredOf s))) (constant (F := Ideal) S_ .f32 0x3727C5AC#32))))

/-- The tail from its inputs: the array `dinv`, the two index arrays, the left column half `h0`, the linear path. -/
def tailFrom (dinv : FVec Ideal S646 .f32) (col row : IVec S41990 32) (h0 lin : FVec Ideal S646x64 .f32)
    (b1 : FVec Ideal S64 .f32) (W2 : FVec Ideal S64x128 .f32) (b2 : FVec Ideal S128 .f32) : FVec Ideal S646x128 .f32 :=
  addf
    (Cert.Proof.Agg.denseAgg128 col row (nrmFrom dinv col row)
      (Host.dotGeneral (F := Ideal) dot_S646x64_S64x128_S646x128_1_0_0_1_n_n none
        (lnOf (siluOf (hiddenOf lin (Cert.Proof.Agg.denseAgg64 col row (nrmFrom dinv col row) h0) b1)))
        W2))
    (biasRows128 b2)

/-- The whole tail: the second aggregation of the normalised first layer times `W2`, plus `b2`. -/
def kerTail (P : FVec Ideal S2x646x128 .f32) (ei : IVec S2x41344 32) (b1 : FVec Ideal S64 .f32)
    (W2 : FVec Ideal S64x128 .f32) (b2 : FVec Ideal S128 .f32) (LPb : FVec Ideal S64 .f32) : FVec Ideal S646x128 .f32 :=
  tailFrom (dinvOf (colOf ei)) (colOf ei) (rowOf ei) (projL P) (linOf P LPb) b1 W2 b2

/-- The same with every stage named. -/
theorem kerTail_eq (P : FVec Ideal S2x646x128 .f32) (ei : IVec S2x41344 32) (b1 : FVec Ideal S64 .f32)
    (W2 : FVec Ideal S64x128 .f32) (b2 : FVec Ideal S128 .f32) (LPb : FVec Ideal S64 .f32) :
    kerTail P ei b1 W2 b2 LPb
      = addf
          (Cert.Proof.Agg.denseAgg128 (colOf ei) (rowOf ei) (nrmOf ei)
            (Host.dotGeneral (F := Ideal) dot_S646x64_S64x128_S646x128_1_0_0_1_n_n none
              (lnOf (siluOf (hiddenOf (linOf P LPb)
                (Cert.Proof.Agg.denseAgg64 (colOf ei) (rowOf ei) (nrmOf ei) (projL P)) b1)))
              W2))
          (biasRows128 b2) := rfl

end Cert.Proof.Tail

end
-- ==== Proof.LibAfterAppend.lean ====
/-
  Host operations run one stretch after another.

  The contents of a device's buffers after a list of host operations is a fold of the operations over the contents
  before.  A fold over a concatenation is the fold over the second list started from the fold over the first: the
  contents after `l₁ ++ l₂` are the contents after `l₂` from the contents after `l₁`.  This lets a long host
  program be read one stretch at a time, with the contents between two stretches carried as one unknown.
-/
import Idealize.ShloMosaic.Lib.StableHlo.Run

noncomputable section

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Three stretches, as a host program cut twice reads them. -/
theorem after_three (l₁ l₂ l₃ : List (HloOp τ sig Val)) (V : Valuation τ sig Val) :
    after (List.flatten [l₁, l₂, l₃]) V = after l₃ (after l₂ (after l₁ V)) := by
  simp only [List.flatten_cons, List.flatten_nil, List.append_nil, after_append]

end Cert.Lib.AfterAppend

end
-- ==== Proof.TailRead.lean ====
/-
  The host operations that follow the projection, read in order: what the result buffer holds after them is the
  composed value of the definitions of the stages, applied to what the buffers held before.

  The operations come in three stretches.  Each stretch is read by itself, from unknown contents: the first leaves
  the two column halves, the two index arrays, the degree comparison and the reciprocal square roots; the second
  chooses between them (the array `dinv`); the third composes everything else.  A buffer that a stretch does not
  write keeps its contents.
-/
import proofs.«129990_j53197464928873_2_alg».proof.Proof.TailDefs
import proofs.«129990_j53197464928873_2_alg».proof.Proof.LibAfterAppend
import proofs.«129990_j53197464928873_2_alg».proof.Proof.Gen.KernelIdeal.Launch
import Idealize.ShloMosaic.Lib.StableHlo.Run

noncomputable section

namespace Cert.Proof.Tail

open Cert.KernelIdeal Cert.KernelIdeal.Gen Idealize.ShloMosaic Idealize.ShloMosaic.TcCoe Idealize.SL.Sem
  Idealize.ShloMosaic.StableHlo

variable (W : Valuation τ sig (Elt Ideal))

/-! ## The first stretch -/

set_option maxRecDepth 8192 in
theorem s1_v7 : after (hostOps1 (F := Ideal)) W (Proc.devRef .tc main_v7) = projL (W (Proc.devRef .tc main_v1)) := by
  after_results_simp <;> rfl

set_option maxRecDepth 8192 in
theorem s1_v11 : after (hostOps1 (F := Ideal)) W (Proc.devRef .tc main_v11)
    = linOf (W (Proc.devRef .tc main_v1)) (W (Proc.devRef .tc main_arg7)) := by
  after_results_simp <;> rfl

set_option maxRecDepth 8192 in
theorem s1_v15 : after (hostOps1 (F := Ideal)) W (Proc.devRef .tc main_v15) = rowOf (W (Proc.devRef .tc main_arg1)) := by
  after_results_simp <;> rfl

set_option maxRecDepth 8192 in
theorem s1_v18 : after (hostOps1 (F := Ideal)) W (Proc.devRef .tc main_v18) = colOf (W (Proc.devRef .tc main_arg1)) := by
  after_results_simp <;> rfl

set_option maxRecDepth 8192 in
theorem s1_v24 : after (hostOps1 (F := Ideal)) W (Proc.devRef .tc main_v24)
    = cmpf (F := Ideal) .ogt (degOf (colOf (W (Proc.devRef .tc main_arg1))))
        (broadcastInDim S646 ![] Facts₀.bcast_S_S646 (constant (F := Ideal) S_ .f32 0x00000000#32)) := by
  after_results_simp <;> rfl

set_option maxRecDepth 8192 in
theorem s1_v25 : after (hostOps1 (F := Ideal)) W (Proc.devRef .tc main_v25)
    = Host.rsqrt (F := Ideal) (degOf (colOf (W (Proc.devRef .tc main_arg1)))) := by
  after_results_simp <;> rfl

set_option maxRecDepth 8192 in
theorem s1_cst2 : after (hostOps1 (F := Ideal)) W (Proc.devRef .tc main_cst_2) = constant (F := Ideal) S_ .f32 0x00000000#32 := by
  after_results_simp <;> rfl

set_option maxRecDepth 8192 in
theorem s1_arg3 : after (hostOps1 (F := Ideal)) W (Proc.devRef .tc main_arg3) = W (Proc.devRef .tc main_arg3) := by
  after_results_simp <;> rfl

set_option maxRecDepth 8192 in
theorem s1_arg4 : after (hostOps1 (F := Ideal)) W (Proc.devRef .tc main_arg4) = W (Proc.devRef .tc main_arg4) := by
  after_results_simp <;> rfl

set_option maxRecDepth 8192 in
theorem s1_arg5 : after (hostOps1 (F := Ideal)) W (Proc.devRef .tc main_arg5) = W (Proc.devRef .tc main_arg5) := by
  after_results_simp <;> rfl

/-! ## The second stretch -/

set_option maxRecDepth 8192 in
theorem s2_v26 : after (hostOps1_1 (F := Ideal)) W (Proc.devRef .tc main_v26)
    = select (W (Proc.devRef .tc main_v24)) (W (Proc.devRef .tc main_v25))
        (broadcastInDim S646 ![] Facts₀.bcast_S_S646 (W (Proc.devRef .tc main_cst_2))) := by
  unfold hostOps1_1 TRef.unary TRef.ternary
  after_results_simp <;> rfl

set_option maxRecDepth 8192 in
theorem s2_v7 : after (hostOps1_1 (F := Ideal)) W (Proc.devRef .tc main_v7) = W (Proc.devRef .tc main_v7) := by
  unfold hostOps1_1 TRef.unary TRef.ternary
  after_results_simp <;> rfl

set_option maxRecDepth 8192 in
theorem s2_v11 : after (hostOps1_1 (F := Ideal)) W (Proc.devRef .tc main_v11) = W (Proc.devRef .tc main_v11) := by
  unfold hostOps1_1 TRef.unary TRef.ternary
  after_results_simp <;> rfl

set_option maxRecDepth 8192 in
theorem s2_v15 : after (hostOps1_1 (F := Ideal)) W (Proc.devRef .tc main_v15) = W (Proc.devRef .tc main_v15) := by
  unfold hostOps1_1 TRef.unary TRef.ternary
  after_results_simp <;> rfl

set_option maxRecDepth 8192 in
theorem s2_v18 : after (hostOps1_1 (F := Ideal)) W (Proc.devRef .tc main_v18) = W (Proc.devRef .tc main_v18) := by
  unfold hostOps1_1 TRef.unary TRef.ternary
  after_results_simp <;> rfl

set_option maxRecDepth 8192 in
theorem s2_arg3 : after (hostOps1_1 (F := Ideal)) W (Proc.devRef .tc main_arg3) = W (Proc.devRef .tc main_arg3) := by
  unfold hostOps1_1 TRef.unary TRef.ternary
  after_results_simp <;> rfl

set_option maxRecDepth 8192 in
theorem s2_arg4 : after (hostOps1_1 (F := Ideal)) W (Proc.devRef .tc main_arg4) = W (Proc.devRef .tc main_arg4) := by
  unfold hostOps1_1 TRef.unary TRef.ternary
  after_results_simp <;> rfl

set_option maxRecDepth 8192 in
theorem s2_arg5 : after (hostOps1_1 (F := Ideal)) W (Proc.devRef .tc main_arg5) = W (Proc.devRef .tc main_arg5) := by
  unfold hostOps1_1 TRef.unary TRef.ternary
  after_results_simp <;> rfl

/-! ## The third stretch -/

set_option maxRecDepth 8192 in
set_option maxHeartbeats 8000000 in
theorem s3_v86 : after (hostOps1_2 (F := Ideal)) W (Proc.devRef .tc main_v86)
    = tailFrom (W (Proc.devRef .tc main_v26)) (W (Proc.devRef .tc main_v18)) (W (Proc.devRef .tc main_v15)) (W (Proc.devRef .tc main_v7)) (W (Proc.devRef .tc main_v11))
        (W (Proc.devRef .tc main_arg3)) (W (Proc.devRef .tc main_arg4)) (W (Proc.devRef .tc main_arg5)) := by
  after_results_simp <;> rfl

/-! ## The three stretches in order -/

/-- After the host operations that follow the projection the result buffer holds the composed tail of what the
    projection's buffer, the edge list and the small parameters held before them. -/
theorem after_tail_eq :
    after (List.flatten [hostOps1 (F := Ideal), hostOps1_1, hostOps1_2]) W (Proc.devRef .tc main_v86)
      = kerTail (W (Proc.devRef .tc main_v1)) (W (Proc.devRef .tc main_arg1)) (W (Proc.devRef .tc main_arg3)) (W (Proc.devRef .tc main_arg4))
          (W (Proc.devRef .tc main_arg5)) (W (Proc.devRef .tc main_arg7)) := by
  rw [Cert.Lib.AfterAppend.after_three, s3_v86, s2_v26, s2_v18, s2_v15, s2_v7, s2_v11, s2_arg3, s2_arg4, s2_arg5,
    s1_v24, s1_v25, s1_cst2, s1_v18, s1_v15, s1_v7, s1_v11, s1_arg3, s1_arg4, s1_arg5]
  rfl

end Cert.Proof.Tail

end
-- ==== Proof.KIRunValue.lean ====
/-
  The value of the fused projection kernel's program: what its result buffer holds at the end.

  The frame run ends with the region's result array at the two cores' accumulated partial products and every buffer the later
  host lines write at those lines' composition over the region-exit contents. Reading that composition off (the lines as one
  function of the partial products, the edge list and the small parameters) gives the program's result as that function of the
  region's result array and the launch contents of the arguments; the arguments themselves end as launched.
-/
import proofs.«129990_j53197464928873_2_alg».proof.Proof.KIResult
import proofs.«129990_j53197464928873_2_alg».proof.Proof.TailRead

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Proof.Acc Cert.Proof.ProjLaw Cert.Proof.Tail

variable (mi : (ℓ : Loc nD τ sig) → Buf (Elt Ideal) ℓ)

/-- The program's result on core `c`: the later lines' function of the region's result array and the arguments. -/
def kres (c : Dev nD) : Buf (Elt Ideal) ((c.tc : Thread nD τ).loc main_v86) :=
  kerTail (Pres mi c) (mi ((c : Thread nD τ).loc main_arg1)) (mi ((c : Thread nD τ).loc main_arg3)) (mi ((c : Thread nD τ).loc main_arg4)) (mi ((c : Thread nD τ).loc main_arg5)) (mi ((c : Thread nD τ).loc main_arg7))

/-- The later lines, run from the region's exit, leave the result buffer at that function. -/
theorem tail_value (c : Dev nD) :
    Pipeline.afterTail₀ cfgs (dats mi) 0 (V0 mi) tail c main_v86 = kres mi c := by
  unfold Pipeline.afterTail₀ kres
  rw [after_tail_eq]
  have hP : Pipeline.withArrays (cfgs 0).spec c (V0 mi c) (fun w => (dats mi 0 c).arrAt w (cfgs 0).N) (Proc.devRef .tc main_v1) = Pres mi c :=
    (Pipeline.withArrays_arr spec0 launch0.win.arr_inj c _ _ 2).trans (final mi c)
  have h1 : Pipeline.withArrays (cfgs 0).spec c (V0 mi c) (fun w => (dats mi 0 c).arrAt w (cfgs 0).N) (Proc.devRef .tc main_arg1) = mi ((c : Thread nD τ).loc main_arg1) :=
    (Pipeline.withArrays_of_ne _ c (V0 mi c) _ main_arg1 (by exact (by decide : ∀ w, Pipeline.arrRef spec0 w ≠ main_arg1))).trans (V_main_arg1 mi c)
  have h3 : Pipeline.withArrays (cfgs 0).spec c (V0 mi c) (fun w => (dats mi 0 c).arrAt w (cfgs 0).N) (Proc.devRef .tc main_arg3) = mi ((c : Thread nD τ).loc main_arg3) :=
    (Pipeline.withArrays_of_ne _ c (V0 mi c) _ main_arg3 (by exact (by decide : ∀ w, Pipeline.arrRef spec0 w ≠ main_arg3))).trans (V_main_arg3 mi c)
  have h4 : Pipeline.withArrays (cfgs 0).spec c (V0 mi c) (fun w => (dats mi 0 c).arrAt w (cfgs 0).N) (Proc.devRef .tc main_arg4) = mi ((c : Thread nD τ).loc main_arg4) :=
    (Pipeline.withArrays_of_ne _ c (V0 mi c) _ main_arg4 (by exact (by decide : ∀ w, Pipeline.arrRef spec0 w ≠ main_arg4))).trans (V_main_arg4 mi c)
  have h5 : Pipeline.withArrays (cfgs 0).spec c (V0 mi c) (fun w => (dats mi 0 c).arrAt w (cfgs 0).N) (Proc.devRef .tc main_arg5) = mi ((c : Thread nD τ).loc main_arg5) :=
    (Pipeline.withArrays_of_ne _ c (V0 mi c) _ main_arg5 (by exact (by decide : ∀ w, Pipeline.arrRef spec0 w ≠ main_arg5))).trans (V_main_arg5 mi c)
  have h7 : Pipeline.withArrays (cfgs 0).spec c (V0 mi c) (fun w => (dats mi 0 c).arrAt w (cfgs 0).N) (Proc.devRef .tc main_arg7) = mi ((c : Thread nD τ).loc main_arg7) :=
    (Pipeline.withArrays_of_ne _ c (V0 mi c) _ main_arg7 (by exact (by decide : ∀ w, Pipeline.arrRef spec0 w ≠ main_arg7))).trans (V_main_arg7 mi c)
  rw [hP, h1, h3, h4, h5, h7]

/-- The idealized kernel's program runs to the end with its result at `kres` and its arguments as launched. -/
theorem run_value (ρ : Dev nD → PrngReg) : θ_run defs (onTc (τ := τ) (main (F := Ideal))) ⟨mi, fun _ => 0, ρ⟩ (fun r => ∀ c : Dev nD,
      r.2.mem ((c.tc : Thread nD τ).loc main_v86) = kres mi c
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4)
      ∧ r.2.mem ((c.tc : Thread nD τ).loc main_arg5) = mi ((c.tc : Thread nD τ).loc main_arg5)
      ∧ r.2.mem ((c.tc : Thread nD τ).loc main_arg6) = mi ((c.tc : Thread nD τ).loc main_arg6)
      ∧ r.2.mem ((c.tc : Thread nD τ).loc main_arg7) = mi ((c.tc : Thread nD τ).loc main_arg7)) :=
  (θ_run defs _ _).mono (fun _ h c =>
    ⟨((h c).2 main_v86 (Pipeline.mem_restRefs_of main_v86 (by decide) (by decide))).trans (tail_value mi c),
     ((h c).1 0).trans (((dats mi 0 c).arrAt_in 0 rfl _).trans ((A_eq mi c 0).trans (V_main_arg0 mi c))),
     ((h c).2 main_arg1 (Pipeline.mem_restRefs_of main_arg1 (by decide) (by decide))).trans (W_main_arg1 mi (dats mi) c),
     ((h c).2 main_arg2 (Pipeline.mem_restRefs_of main_arg2 (by decide) (by decide))).trans (W_main_arg2 mi (dats mi) c),
     ((h c).2 main_arg3 (Pipeline.mem_restRefs_of main_arg3 (by decide) (by decide))).trans (W_main_arg3 mi (dats mi) c),
     ((h c).2 main_arg4 (Pipeline.mem_restRefs_of main_arg4 (by decide) (by decide))).trans (W_main_arg4 mi (dats mi) c),
     ((h c).2 main_arg5 (Pipeline.mem_restRefs_of main_arg5 (by decide) (by decide))).trans (W_main_arg5 mi (dats mi) c),
     ((h c).2 main_arg6 (Pipeline.mem_restRefs_of main_arg6 (by decide) (by decide))).trans (W_main_arg6 mi (dats mi) c),
     ((h c).2 main_arg7 (Pipeline.mem_restRefs_of main_arg7 (by decide) (by decide))).trans (W_main_arg7 mi (dats mi) c)⟩) (run_main mi ρ)

/-- The node features and the two projection weight matrices, as launched. -/
abbrev argX (c : Dev nD) : FVec Ideal S646x32768 .f32 := mi ((c : Thread nD τ).loc main_arg0)
abbrev argW1 (c : Dev nD) : FVec Ideal S32768x64 .f32 := mi ((c : Thread nD τ).loc main_arg2)
abbrev argLPw (c : Dev nD) : FVec Ideal S32768x64 .f32 := mi ((c : Thread nD τ).loc main_arg6)

/-- The region's result array in the form the projection law takes: each entry the core's four tiles of the contraction of
    the node features with the joined weight matrices, added in order onto zero. -/
theorem Pres_tiles (c : Dev nD) (q : Fin 2) (n : Fin 646) (j : Fin 128) :
    Pres mi c (ix3 q n j)
      = (((0 + ∑ k : Fin 4096, argX mi c (ix2 n (tIdx q 0 k)) * wcat (argW1 mi c) (argLPw mi c) (ix2 (tIdx q 0 k) j))
            + ∑ k : Fin 4096, argX mi c (ix2 n (tIdx q 1 k)) * wcat (argW1 mi c) (argLPw mi c) (ix2 (tIdx q 1 k) j))
          + ∑ k : Fin 4096, argX mi c (ix2 n (tIdx q 2 k)) * wcat (argW1 mi c) (argLPw mi c) (ix2 (tIdx q 2 k) j))
        + ∑ k : Fin 4096, argX mi c (ix2 n (tIdx q 3 k)) * wcat (argW1 mi c) (argLPw mi c) (ix2 (tIdx q 3 k) j) := by
  rw [Pres_apply]
  simp only [tile, xArr, wArr]
  rw [V_main_arg0, V_main_v0]
  rfl

end Cert.KernelIdeal.Fr

end
-- ==== Proof.LibScatterFlat.lean ====
/-
  A SPARSE ROW PRODUCT DOES NOT SEE HOW THE FEATURE AXIS IS SPLIT.

  The operation: out[r] = z[r] + the sum, over the edges e whose row index is r, of lv[e] * g[col(e)], where every
  node carries a block of numbers. It can be written with the block as TWO axes [A, B] — a gather of [1, A, B] slices
  of g : [N, A, B] at the column indices, an elementwise product with lv : [E, A, B], a scatter-add of [A, B] windows
  into z : [N, A, B] at the row indices — or with the block as ONE axis [C]: a gather of [1, C] rows of g : [N, C], the
  product with lv : [E, C], a scatter-add of rows into z : [N, C].

  At the exact-real instance the two agree entry by entry along ANY relabelling fl : Fin A → Fin B → Fin C of the
  block's coordinates under which the three operands agree (g, lv and z at (·, d, k) are those at (·, fl d k)): entry
  (n, d, k) of the first is entry (n, fl d k) of the second (`scatter_gather_flat_gen`). Nothing is asked of fl
  (row-major flattening, B * d + k, is the case of interest), and nothing of the index arrays: the scatter drops an
  update whose row index is outside [0, N) and the gather clamps its column index into [0, N - 1], and both do so on
  the leading axis only, by the same rule, in the two spellings.

  Why: fix the target (n, d, k). An update (e, d', k') of the first scatter lands on it exactly when row(e) = n,
  d' = d and k' = k (`sc3_hit`); an update (e, c) of the second lands on (n, fl d k) exactly when row(e) = n and
  c = fl d k (`sc2_hit`). So e ↦ (e, d, k) and e ↦ (e, fl d k) enumerate the two sets of contributing updates by the
  same set of edges, the maps (e, d, k) ↦ (e, fl d k) and (e, c) ↦ (e, d, k) are inverse bijections between them, and
  the summands agree: lv at (e, d, k) times g at (r, d, k) against lv at (e, fl d k) times g at (r, fl d k), with the
  same clamped row r = min (col(e) read signed, negative as 0) (N - 1) on both sides (`gather3_apply`,
  `gather2_apply`).

  The first lemma holds for every scatter: an update lands on i exactly when, on every operand axis, its signed start
  plus its window coordinate is i's coordinate (`resultIdx?_eq_some_iff`).
-/
import Idealize.ShloMosaic.PureOps.Ideal
import Idealize.ShloMosaic.Lib.ValueIdx

noncomputable section

open scoped BigOperators
open Idealize.ShloMosaic Idealize.ShloMosaic.ValueIdx

namespace Cert.LibScatterFlat

/-- WHERE AN UPDATE LANDS, for every scatter: update index `j` lands on operand index `i` exactly when on every
    operand axis the signed start plus the window coordinate is `i`'s coordinate. (An update that leaves the operand
    on some axis lands nowhere, and then no `i` has those coordinates.) -/
theorem resultIdx?_eq_some_iff {s si u : Shape} (D : ScatterDims s si u) {w : Nat} (j : u.Idx) (idx : IVec si w)
    (i : s.Idx) :
    D.resultIdx? j idx = some i ↔ ∀ a, D.start j idx a + (D.window j a : ℤ) = ((i a).val : ℤ) := by
  unfold ScatterDims.resultIdx?
  split
  · rename_i h
    rw [Option.some.injEq]
    constructor
    · intro hi a
      have h1 := congrFun hi a
      have h2 := h a
      rw [← h1]
      show _ = (((D.start j idx a + (D.window j a : ℤ)).toNat : ℕ) : ℤ)
      omega
    · intro hi
      funext a
      refine Fin.ext ?_
      have h1 := hi a
      have h2 := h a
      show (D.start j idx a + (D.window j a : ℤ)).toNat = (i a).val
      omega
  · rename_i h
    constructor
    · intro hi; exact absurd hi (by simp)
    · intro hi
      exfalso; apply h; intro a
      have h1 := hi a
      have h2 := (i a).isLt
      omega

/-- The scatter's dimension numbers with the block as two axes: operand [N, A, B], one row index per edge ([E, 1],
    index vector on axis 1), updates [E, A, B] whose axes 1 and 2 are window axes; operand axis 0 is the inserted one
    and the one the row index addresses. -/
abbrev sc3 (N E A B : Nat) (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

/-- The same with the block as one axis: operand [N, C], updates [E, C] whose axis 1 is the window axis. -/
abbrev sc2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The gather's dimension numbers with the block as two axes: slices [1, A, B] of an operand [N, A, B], one start
    index per edge ([E, 1]) on operand axis 0, which is collapsed; result [E, A, B] with offset axes 1 and 2. -/
abbrev gd3 (N E A B : Nat)
    (wf : GatherDims.WF ⟨3, ![N, A, B]⟩ ⟨2, ![E, 1]⟩ ⟨3, ![E, A, B]⟩ [1, 2] [0] [] [0] [] 1 ![1, A, B]) :
    GatherDims ⟨3, ![N, A, B]⟩ ⟨2, ![E, 1]⟩ ⟨3, ![E, A, B]⟩ where
  offsetDims := [1, 2]
  collapsedSliceDims := [0]
  operandBatchingDims := []
  startIndicesBatchingDims := []
  startIndexMap := [0]
  indexVectorDim := 1
  sliceSizes := ![1, A, B]
  wf := wf

/-- The same with the block as one axis: rows [1, C] of an operand [N, C]; result [E, C] with offset axis 1. -/
abbrev gd2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable {N E A B C w : Nat}

/-- On the addressed axis the window of update (e, d, k) starts at edge e's row index, read signed. -/
theorem sc3_start0 (wf) (e : Fin E) (d : Fin A) (k : Fin B) (idx : IVec ⟨2, ![E, 1]⟩ w) :
    (sc3 N E A B wf).start (ix3 e d k) idx 0 = (idx (ix2 e 0)).toInt := by
  unfold ScatterDims.start
  rw [dif_pos (show (0 : Fin 3) ∈ (sc3 N E A B wf).scatterDimsToOperandDims from List.mem_singleton.mpr rfl)]
  have hsi : (sc3 N E A B wf).siIdx (ix3 e d k) ⟨List.idxOf (0 : Fin 3) (sc3 N E A B wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the two block axes every window starts at 0. -/
theorem sc3_start1 (wf) (j : (⟨3, ![E, A, B]⟩ : Shape).Idx) (idx : IVec ⟨2, ![E, 1]⟩ w) :
    (sc3 N E A B wf).start j idx 1 = 0 := by
  unfold ScatterDims.start
  rw [dif_neg (show (1 : Fin 3) ∉ ([0] : List (Fin 3)) from by decide)]

theorem sc3_start2 (wf) (j : (⟨3, ![E, A, B]⟩ : Shape).Idx) (idx : IVec ⟨2, ![E, 1]⟩ w) :
    (sc3 N E A B wf).start j idx 2 = 0 := by
  unfold ScatterDims.start
  rw [dif_neg (show (2 : Fin 3) ∉ ([0] : List (Fin 3)) from by decide)]

/-- The window coordinates of update (e, d, k): 0 on the inserted axis, d and k on the block axes. -/
theorem sc3_window0 (wf) (e : Fin E) (d : Fin A) (k : Fin B) : (sc3 N E A B wf).window (ix3 e d k) 0 = 0 := rfl
theorem sc3_window1 (wf) (e : Fin E) (d : Fin A) (k : Fin B) : (sc3 N E A B wf).window (ix3 e d k) 1 = d.val := rfl
theorem sc3_window2 (wf) (e : Fin E) (d : Fin A) (k : Fin B) : (sc3 N E A B wf).window (ix3 e d k) 2 = k.val := rfl

/-- The same reads with the block as one axis: start the row index on axis 0 and 0 on axis 1; window coordinates
    0 and c for update (e, c). -/
theorem sc2_start0 (wf) (e : Fin E) (c : Fin C) (idx : IVec ⟨2, ![E, 1]⟩ w) :
    (sc2 N E C wf).start (ix2 e c) idx 0 = (idx (ix2 e 0)).toInt := by
  unfold ScatterDims.start
  rw [dif_pos (show (0 : Fin 2) ∈ (sc2 N E C wf).scatterDimsToOperandDims from List.mem_singleton.mpr rfl)]
  have hsi : (sc2 N E C wf).siIdx (ix2 e c) ⟨List.idxOf (0 : Fin 2) (sc2 N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem sc2_start1 (wf) (j : (⟨2, ![E, C]⟩ : Shape).Idx) (idx : IVec ⟨2, ![E, 1]⟩ w) :
    (sc2 N E C wf).start j idx 1 = 0 := by
  unfold ScatterDims.start
  rw [dif_neg (show (1 : Fin 2) ∉ ([0] : List (Fin 2)) from by decide)]

theorem sc2_window0 (wf) (e : Fin E) (c : Fin C) : (sc2 N E C wf).window (ix2 e c) 0 = 0 := rfl
theorem sc2_window1 (wf) (e : Fin E) (c : Fin C) : (sc2 N E C wf).window (ix2 e c) 1 = c.val := rfl

/-- An update of the rank-3 scatter lands on entry (n, d', k') exactly when its row index is n and its window
    coordinates are (d', k'). -/
theorem sc3_hit (wf) (e : Fin E) (d : Fin A) (k : Fin B) (idx : IVec ⟨2, ![E, 1]⟩ w) (n : Fin N) (d' : Fin A) (k' : Fin B) :
    (sc3 N E A B wf).resultIdx? (ix3 e d k) idx = some (ix3 n d' k') ↔
      (idx (ix2 e 0)).toInt = (n.val : ℤ) ∧ d = d' ∧ k = k' := by
  rw [resultIdx?_eq_some_iff]
  constructor
  · intro h
    have h0 : (sc3 N E A B wf).start (ix3 e d k) idx 0 + (((sc3 N E A B wf).window (ix3 e d k) 0 : ℕ) : ℤ)
        = (n.val : ℤ) := h 0
    have h1 : (sc3 N E A B wf).start (ix3 e d k) idx 1 + (((sc3 N E A B wf).window (ix3 e d k) 1 : ℕ) : ℤ)
        = (d'.val : ℤ) := h 1
    have h2 : (sc3 N E A B wf).start (ix3 e d k) idx 2 + (((sc3 N E A B wf).window (ix3 e d k) 2 : ℕ) : ℤ)
        = (k'.val : ℤ) := h 2
    rw [sc3_start0, sc3_window0] at h0
    rw [sc3_start1, sc3_window1] at h1
    rw [sc3_start2, sc3_window2] at h2
    refine ⟨?_, Fin.ext ?_, Fin.ext ?_⟩
    · omega
    · omega
    · omega
  · rintro ⟨h0, rfl, rfl⟩ a
    match a with
    | ⟨0, _⟩ =>
      show (sc3 N E A B wf).start (ix3 e d k) idx 0 + (((sc3 N E A B wf).window (ix3 e d k) 0 : ℕ) : ℤ) = (n.val : ℤ)
      rw [sc3_start0, sc3_window0, h0]; omega
    | ⟨1, _⟩ =>
      show (sc3 N E A B wf).start (ix3 e d k) idx 1 + (((sc3 N E A B wf).window (ix3 e d k) 1 : ℕ) : ℤ) = (d.val : ℤ)
      rw [sc3_start1, sc3_window1]; omega
    | ⟨2, _⟩ =>
      show (sc3 N E A B wf).start (ix3 e d k) idx 2 + (((sc3 N E A B wf).window (ix3 e d k) 2 : ℕ) : ℤ) = (k.val : ℤ)
      rw [sc3_start2, sc3_window2]; omega

/-- An update (e, c) of the rank-2 scatter lands on entry (n, c') exactly when its row index is n and c = c'. -/
theorem sc2_hit (wf) (e : Fin E) (c : Fin C) (idx : IVec ⟨2, ![E, 1]⟩ w) (n : Fin N) (c' : Fin C) :
    (sc2 N E C wf).resultIdx? (ix2 e c) idx = some (ix2 n c') ↔
      (idx (ix2 e 0)).toInt = (n.val : ℤ) ∧ c = c' := by
  rw [resultIdx?_eq_some_iff]
  constructor
  · intro h
    have h0 : (sc2 N E C wf).start (ix2 e c) idx 0 + (((sc2 N E C wf).window (ix2 e c) 0 : ℕ) : ℤ)
        = (n.val : ℤ) := h 0
    have h1 : (sc2 N E C wf).start (ix2 e c) idx 1 + (((sc2 N E C wf).window (ix2 e c) 1 : ℕ) : ℤ)
        = (c'.val : ℤ) := h 1
    rw [sc2_start0, sc2_window0] at h0
    rw [sc2_start1, sc2_window1] at h1
    refine ⟨?_, Fin.ext ?_⟩
    · omega
    · omega
  · rintro ⟨h0, rfl⟩ a
    match a with
    | ⟨0, _⟩ =>
      show (sc2 N E C wf).start (ix2 e c) idx 0 + (((sc2 N E C wf).window (ix2 e c) 0 : ℕ) : ℤ) = (n.val : ℤ)
      rw [sc2_start0, sc2_window0, h0]; omega
    | ⟨1, _⟩ =>
      show (sc2 N E C wf).start (ix2 e c) idx 1 + (((sc2 N E C wf).window (ix2 e c) 1 : ℕ) : ℤ) = (c.val : ℤ)
      rw [sc2_start1, sc2_window1]; omega

/-- The rank-3 gather at (e, d, k): the operand at (r, d, k), where r is edge e's start index read signed, a negative
    one as 0, and clamped to N - 1. -/
theorem gather3_apply {α : Type} (hN : 0 < N) (wf) (x : (⟨3, ![N, A, B]⟩ : Shape).Idx → α) (idx : IVec ⟨2, ![E, 1]⟩ w)
    (e : Fin E) (d : Fin A) (k : Fin B) :
    Host.gather (gd3 N E A B wf) x idx (ix3 e d k)
      = x (ix3 ⟨min (idx (ix2 e 0)).toInt.toNat (N - 1), by omega⟩ d k) := by
  unfold Host.gather
  congr 1
  funext a
  refine Fin.ext ?_
  match a with
  | ⟨0, _⟩ =>
    show (gd3 N E A B wf).start (ix3 e d k) idx 0 + (gd3 N E A B wf).batchCoord (ix3 e d k) 0
      + (gd3 N E A B wf).offCoord (ix3 e d k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (gd3 N E A B wf).startIndexMap from List.mem_singleton.mpr rfl)]
    have hsi : (gd3 N E A B wf).siIdx (ix3 e d k) ⟨List.idxOf (0 : Fin 3) (gd3 N E A B wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gd3 N E A B wf).start (ix3 e d k) idx 1 + (gd3 N E A B wf).batchCoord (ix3 e d k) 1
      + (gd3 N E A B wf).offCoord (ix3 e d k) 1 = d.val
    rw [GatherDims.batchCoord_eq_zero _ _ _ List.not_mem_nil]
    unfold GatherDims.start
    rw [dif_neg (show (1 : Fin 3) ∉ ([0] : List (Fin 3)) from by decide)]
    simp only [Nat.add_zero, Nat.zero_add]
    rfl
  | ⟨2, _⟩ =>
    show (gd3 N E A B wf).start (ix3 e d k) idx 2 + (gd3 N E A B wf).batchCoord (ix3 e d k) 2
      + (gd3 N E A B wf).offCoord (ix3 e d k) 2 = k.val
    rw [GatherDims.batchCoord_eq_zero _ _ _ List.not_mem_nil]
    unfold GatherDims.start
    rw [dif_neg (show (2 : Fin 3) ∉ ([0] : List (Fin 3)) from by decide)]
    simp only [Nat.add_zero, Nat.zero_add]
    rfl

/-- The rank-2 gather at (e, c): the operand at (r, c), the same r. -/
theorem gather2_apply {α : Type} (hN : 0 < N) (wf) (x : (⟨2, ![N, C]⟩ : Shape).Idx → α) (idx : IVec ⟨2, ![E, 1]⟩ w)
    (e : Fin E) (c : Fin C) :
    Host.gather (gd2 N E C wf) x idx (ix2 e c)
      = x (ix2 ⟨min (idx (ix2 e 0)).toInt.toNat (N - 1), by omega⟩ c) := by
  unfold Host.gather
  congr 1
  funext a
  refine Fin.ext ?_
  match a with
  | ⟨0, _⟩ =>
    show (gd2 N E C wf).start (ix2 e c) idx 0 + (gd2 N E C wf).batchCoord (ix2 e c) 0
      + (gd2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gd2 N E C wf).startIndexMap from List.mem_singleton.mpr rfl)]
    have hsi : (gd2 N E C wf).siIdx (ix2 e c) ⟨List.idxOf (0 : Fin 2) (gd2 N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gd2 N E C wf).start (ix2 e c) idx 1 + (gd2 N E C wf).batchCoord (ix2 e c) 1
      + (gd2 N E C wf).offCoord (ix2 e c) 1 = c.val
    rw [GatherDims.batchCoord_eq_zero _ _ _ List.not_mem_nil]
    unfold GatherDims.start
    rw [dif_neg (show (1 : Fin 2) ∉ ([0] : List (Fin 2)) from by decide)]
    simp only [Nat.add_zero, Nat.zero_add]
    rfl

end

section Main
variable {N E A B C w w' : Nat} {φ : FTy}

/-- THE TWO SPELLINGS AGREE ENTRY BY ENTRY: with operands that agree along `fl` (`hg`, `hlv`, `hz`), entry (n, d, k) of
    the scatter-add of lv * gather(g) over [N, A, B] is entry (n, fl d k) of the one over [N, C]; any index words. -/
theorem scatter_gather_flat_gen (fl : Fin A → Fin B → Fin C)
    (wfS3 : ScatterDims.WF ⟨3, ![N, A, B]⟩ ⟨2, ![E, 1]⟩ ⟨3, ![E, A, B]⟩ [1, 2] [0] [0] 1)
    (wfG3 : GatherDims.WF ⟨3, ![N, A, B]⟩ ⟨2, ![E, 1]⟩ ⟨3, ![E, A, B]⟩ [1, 2] [0] [] [0] [] 1 ![1, A, B])
    (wfS2 : ScatterDims.WF ⟨2, ![N, C]⟩ ⟨2, ![E, 1]⟩ ⟨2, ![E, C]⟩ [1] [0] [0] 1)
    (wfG2 : GatherDims.WF ⟨2, ![N, C]⟩ ⟨2, ![E, 1]⟩ ⟨2, ![E, C]⟩ [1] [0] [] [0] [] 1 ![1, C])
    (g3 : (⟨3, ![N, A, B]⟩ : Shape).Idx → EReal) (g2 : (⟨2, ![N, C]⟩ : Shape).Idx → EReal)
    (hg : ∀ (n : Fin N) (d : Fin A) (k : Fin B), g3 (ix3 n d k) = g2 (ix2 n (fl d k)))
    (lv3 : (⟨3, ![E, A, B]⟩ : Shape).Idx → EReal) (lv2 : (⟨2, ![E, C]⟩ : Shape).Idx → EReal)
    (hlv : ∀ (e : Fin E) (d : Fin A) (k : Fin B), lv3 (ix3 e d k) = lv2 (ix2 e (fl d k)))
    (z3 : (⟨3, ![N, A, B]⟩ : Shape).Idx → EReal) (z2 : (⟨2, ![N, C]⟩ : Shape).Idx → EReal)
    (hz : ∀ (n : Fin N) (d : Fin A) (k : Fin B), z3 (ix3 n d k) = z2 (ix2 n (fl d k)))
    (irows : IVec ⟨2, ![E, 1]⟩ w) (icols : IVec ⟨2, ![E, 1]⟩ w')
    (n : Fin N) (d : Fin A) (k : Fin B) :
    Host.scatterAdd (F := Ideal) (φ := φ) (sc3 N E A B wfS3) z3 irows
        (mulf (F := Ideal) (φ := φ) lv3 (Host.gather (gd3 N E A B wfG3) g3 icols)) (ix3 n d k)
      = Host.scatterAdd (F := Ideal) (φ := φ) (sc2 N E C wfS2) z2 irows
        (mulf (F := Ideal) (φ := φ) lv2 (Host.gather (gd2 N E C wfG2) g2 icols)) (ix2 n (fl d k)) := by
  have hN : 0 < N := n.pos
  unfold Host.scatterAdd
  rw [Ideal.hostScatterAdd_def, Ideal.hostScatterAdd_def]
  unfold Ideal.hostScatterAdd
  show z3 (ix3 n d k) + _ = z2 (ix2 n (fl d k)) + _
  rw [hz]
  refine congrArg (z2 (ix2 n (fl d k)) + ·) ?_
  refine Finset.sum_nbij' (fun j3 => ix2 (j3 0) (fl d k)) (fun j2 => ix3 (j2 0) d k) ?_ ?_ ?_ ?_ ?_
  · intro j3 hj3
    obtain ⟨e, d', k', rfl⟩ : ∃ (e : Fin E) (d' : Fin A) (k' : Fin B), j3 = ix3 e d' k' := ⟨j3 0, j3 1, j3 2, eq_ix3 j3⟩
    rw [Finset.mem_filter] at hj3 ⊢
    obtain ⟨h0, rfl, rfl⟩ := (sc3_hit wfS3 e d' k' irows n d k).mp hj3.2
    exact ⟨Finset.mem_univ _, (sc2_hit wfS2 e (fl d' k') irows n (fl d' k')).mpr ⟨h0, rfl⟩⟩
  · intro j2 hj2
    obtain ⟨e, c, rfl⟩ : ∃ (e : Fin E) (c : Fin C), j2 = ix2 e c := ⟨j2 0, j2 1, eq_ix2 j2⟩
    rw [Finset.mem_filter] at hj2 ⊢
    obtain ⟨h0, _⟩ := (sc2_hit wfS2 e c irows n (fl d k)).mp hj2.2
    exact ⟨Finset.mem_univ _, (sc3_hit wfS3 e d k irows n d k).mpr ⟨h0, rfl, rfl⟩⟩
  · intro j3 hj3
    obtain ⟨e, d', k', rfl⟩ : ∃ (e : Fin E) (d' : Fin A) (k' : Fin B), j3 = ix3 e d' k' := ⟨j3 0, j3 1, j3 2, eq_ix3 j3⟩
    rw [Finset.mem_filter] at hj3
    obtain ⟨_, rfl, rfl⟩ := (sc3_hit wfS3 e d' k' irows n d k).mp hj3.2
    rfl
  · intro j2 hj2
    obtain ⟨e, c, rfl⟩ : ∃ (e : Fin E) (c : Fin C), j2 = ix2 e c := ⟨j2 0, j2 1, eq_ix2 j2⟩
    rw [Finset.mem_filter] at hj2
    obtain ⟨_, rfl⟩ := (sc2_hit wfS2 e c irows n (fl d k)).mp hj2.2
    rfl
  · intro j3 hj3
    obtain ⟨e, d', k', rfl⟩ : ∃ (e : Fin E) (d' : Fin A) (k' : Fin B), j3 = ix3 e d' k' := ⟨j3 0, j3 1, j3 2, eq_ix3 j3⟩
    rw [Finset.mem_filter] at hj3
    obtain ⟨_, rfl, rfl⟩ := (sc3_hit wfS3 e d' k' irows n d k).mp hj3.2
    show mulf (F := Ideal) (φ := φ) lv3 (Host.gather (gd3 N E A B wfG3) g3 icols) (ix3 e d' k')
      = mulf (F := Ideal) (φ := φ) lv2 (Host.gather (gd2 N E C wfG2) g2 icols) (ix2 e (fl d' k'))
    rw [mulf_apply, mulf_apply, gather3_apply hN, gather2_apply hN, hlv, hg]

end Main

end Cert.LibScatterFlat

end
-- ==== Proof.LibSegmentSum.lean ====
/-
  The host's accumulating scatter of rows — jax's `segment_sum` of a table of rows — read at an entry.

  Updates `upd : [E, H]` are added into an operand `x : [V, H]`, row `e` of the updates onto the row of
  the operand that `idx[e, 0]` names (read signed; a row outside the operand is dropped).  Over the
  extended reals the accumulation is the exact sum, so entry `(v, k)` of the result is `x (v, k)` plus
  the sum of `upd (e, k)` over the update rows `e` whose index is `v`.
-/
import Idealize.ShloMosaic.PureOps.Ideal
import Idealize.ShloMosaic.Lib.ValueIdx

open Idealize.ShloMosaic Idealize.ShloMosaic.ValueIdx

namespace Cert.Proof.LibSegmentSum

/-- The dimension numbers of a row scatter: the update's second axis is the window, the operand's first
    axis is the one the single index component names. -/
abbrev rowDims (V E H : Nat) (wf : ScatterDims.WF ⟨2, ![V, H]⟩ ⟨2, ![E, 1]⟩ ⟨2, ![E, H]⟩ [1] [0] [0] 1) :
    ScatterDims ⟨2, ![V, H]⟩ ⟨2, ![E, 1]⟩ ⟨2, ![E, H]⟩ where
  updateWindowDims := [1]
  insertedWindowDims := [0]
  scatterDimsToOperandDims := [0]
  indexVectorDim := 1
  wf := wf

/-- Where update row `e` reads its index. -/
abbrev segIdx {E : Nat} (e : Fin E) : (⟨2, ![E, 1]⟩ : Shape).Idx := ix2 e ⟨0, Nat.one_pos⟩

variable {V E H w : Nat} (wf : ScatterDims.WF ⟨2, ![V, H]⟩ ⟨2, ![E, 1]⟩ ⟨2, ![E, H]⟩ [1] [0] [0] 1)

theorem start_row (j : (⟨2, ![E, H]⟩ : Shape).Idx) (idx : IVec ⟨2, ![E, 1]⟩ w) :
    (rowDims V E H wf).start j idx 0 = (idx (segIdx (j 0))).toInt := by
  unfold ScatterDims.start
  rw [dif_pos (show (0 : Fin 2) ∈ (rowDims V E H wf).scatterDimsToOperandDims from List.mem_singleton.mpr rfl)]
  have hsi : (rowDims V E H wf).siIdx j ⟨List.idxOf (0 : Fin 2) (rowDims V E H wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

/-- The operand's axes that carry a window coordinate: only the second. -/
theorem sKept_eq : (rowDims V E H wf).sKept = [1] := by
  show (List.finRange 2).filter (fun a : Fin 2 => a ∉ ([0] : List (Fin 2))) = [1]
  decide

theorem start_col (j : (⟨2, ![E, H]⟩ : Shape).Idx) (idx : IVec ⟨2, ![E, 1]⟩ w) :
    (rowDims V E H wf).start j idx 1 = 0 := by
  unfold ScatterDims.start
  rw [dif_neg (show ¬ (1 : Fin 2) ∈ ([0] : List (Fin 2)) by decide)]

theorem window_row (j : (⟨2, ![E, H]⟩ : Shape).Idx) : (rowDims V E H wf).window j 0 = 0 := by
  unfold ScatterDims.window
  rw [dif_neg (show ¬ (0 : Fin 2) ∈ (rowDims V E H wf).sKept by
    rw [sKept_eq]; exact (show ¬ (0 : Fin 2) ∈ ([1] : List (Fin 2)) by decide))]

theorem window_col (j : (⟨2, ![E, H]⟩ : Shape).Idx) : (rowDims V E H wf).window j 1 = (j 1).val := by
  unfold ScatterDims.window
  rw [dif_pos (show (1 : Fin 2) ∈ (rowDims V E H wf).sKept by
    rw [sKept_eq]; exact (show (1 : Fin 2) ∈ ([1] : List (Fin 2)) by decide))]
  rfl

/-- The update entry `j` stays inside the operand exactly when its row's index, read signed, names a row. -/
theorem inside_iff (j : (⟨2, ![E, H]⟩ : Shape).Idx) (idx : IVec ⟨2, ![E, 1]⟩ w) :
    (∀ a, 0 ≤ (rowDims V E H wf).start j idx a + (rowDims V E H wf).window j a ∧
        (rowDims V E H wf).start j idx a + (rowDims V E H wf).window j a < (⟨2, ![V, H]⟩ : Shape).size a)
      ↔ (0 ≤ (idx (segIdx (j 0))).toInt ∧ (idx (segIdx (j 0))).toInt < V) := by
  rw [Fin.forall_fin_two, start_row, start_col, window_row, window_col]
  have := idx2_lt1 j
  show (0 ≤ _ + ((0 : ℕ) : ℤ) ∧ _ + ((0 : ℕ) : ℤ) < ((V : ℕ) : ℤ))
    ∧ (0 ≤ (0 : ℤ) + (((j 1).val : ℕ) : ℤ) ∧ (0 : ℤ) + (((j 1).val : ℕ) : ℤ) < ((H : ℕ) : ℤ)) ↔ _
  omega

/-- The update entry `j` lands on the operand entry `i` exactly when its row's index is `i`'s row and
    the two share the column. -/
theorem resultIdx?_eq_some_iff (j : (⟨2, ![E, H]⟩ : Shape).Idx) (idx : IVec ⟨2, ![E, 1]⟩ w)
    (i : (⟨2, ![V, H]⟩ : Shape).Idx) :
    (rowDims V E H wf).resultIdx? j idx = some i
      ↔ (idx (segIdx (j 0))).toInt = ((i 0).val : ℤ) ∧ (j 1).val = (i 1).val := by
  unfold ScatterDims.resultIdx?
  have hi0 := idx2_lt0 i
  by_cases hc : ∀ a, 0 ≤ (rowDims V E H wf).start j idx a + (rowDims V E H wf).window j a ∧
      (rowDims V E H wf).start j idx a + (rowDims V E H wf).window j a < (⟨2, ![V, H]⟩ : Shape).size a
  · rw [dif_pos hc]
    have hc' := (inside_iff wf j idx).mp hc
    constructor
    · intro h
      have hi := Option.some.inj h
      have h0 : ((rowDims V E H wf).start j idx 0 + (rowDims V E H wf).window j 0).toNat = (i 0).val :=
        congrArg (fun f => (f 0).val) hi
      have h1 : ((rowDims V E H wf).start j idx 1 + (rowDims V E H wf).window j 1).toNat = (i 1).val :=
        congrArg (fun f => (f 1).val) hi
      rw [start_row, window_row] at h0
      rw [start_col, window_col] at h1
      constructor <;> omega
    · rintro ⟨h0, h1⟩
      congr 1
      funext a
      refine Fin.ext ?_
      revert a
      rw [Fin.forall_fin_two]
      constructor
      · show ((rowDims V E H wf).start j idx 0 + (rowDims V E H wf).window j 0).toNat = (i 0).val
        rw [start_row, window_row]; omega
      · show ((rowDims V E H wf).start j idx 1 + (rowDims V E H wf).window j 1).toNat = (i 1).val
        rw [start_col, window_col]; omega
  · rw [dif_neg hc]
    constructor
    · intro h; exact absurd h (by simp)
    · rintro ⟨h0, _⟩
      exact absurd ((inside_iff wf j idx).mpr ⟨by omega, by omega⟩) hc

/-- An operand entry's column, as a column of the updates. -/
abbrev colOf (i : (⟨2, ![V, H]⟩ : Shape).Idx) : Fin H := ⟨(i 1).val, idx2_lt1 i⟩

/-- THE ROW SCATTER-ADD READ AT AN ENTRY: the operand's entry plus the entries, in the same column, of
    the update rows whose index names the entry's row. -/
theorem scatterAdd_rows_apply (x : (⟨2, ![V, H]⟩ : Shape).Idx → EReal) (idx : IVec ⟨2, ![E, 1]⟩ w)
    (upd : (⟨2, ![E, H]⟩ : Shape).Idx → EReal) (i : (⟨2, ![V, H]⟩ : Shape).Idx) :
    Ideal.hostScatterAdd (rowDims V E H wf) x idx upd i
      = x i + ∑ e : Fin E, if (idx (segIdx e)).toInt = ((i 0).val : ℤ) then upd (ix2 e (colOf i)) else 0 := by
  unfold Ideal.hostScatterAdd
  congr 1
  rw [Finset.sum_filter, sum_idx2]
  refine Finset.sum_congr rfl fun e _ => ?_
  by_cases hA : (idx (segIdx e)).toInt = ((i 0).val : ℤ)
  · rw [if_pos hA]
    refine (Finset.sum_eq_single (colOf i) ?_ ?_).trans ?_
    · intro k _ hk
      exact if_neg fun h => hk (Fin.ext ((resultIdx?_eq_some_iff wf (ix2 e k) idx i).mp h).2)
    · intro h; exact absurd (Finset.mem_univ _) h
    · exact if_pos ((resultIdx?_eq_some_iff wf (ix2 e (colOf i)) idx i).mpr ⟨hA, rfl⟩)
  · rw [if_neg hA]
    exact Finset.sum_eq_zero fun k _ => if_neg fun h => hA ((resultIdx?_eq_some_iff wf (ix2 e k) idx i).mp h).1

/-! ## The same for a table of scalars (`segment_sum` of a vector: a count when the updates are ones) -/

section Scalars

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scalar scatter: no window axis, the operand's one axis named by the index. -/
abbrev scalarDims (V E : Nat) (wf : ScatterDims.WF ⟨1, ![V]⟩ ⟨2, ![E, 1]⟩ ⟨1, ![E]⟩ [] [0] [0] 1) :
    ScatterDims ⟨1, ![V]⟩ ⟨2, ![E, 1]⟩ ⟨1, ![E]⟩ where
  updateWindowDims := []
  insertedWindowDims := [0]
  scatterDimsToOperandDims := [0]
  indexVectorDim := 1
  wf := wf

variable {V E w : Nat} (wf : ScatterDims.WF ⟨1, ![V]⟩ ⟨2, ![E, 1]⟩ ⟨1, ![E]⟩ [] [0] [0] 1)

theorem start_scalar (j : (⟨1, ![E]⟩ : Shape).Idx) (idx : IVec ⟨2, ![E, 1]⟩ w) :
    (scalarDims V E wf).start j idx 0 = (idx (segIdx (j 0))).toInt := by
  unfold ScatterDims.start
  rw [dif_pos (show (0 : Fin 1) ∈ (scalarDims V E wf).scatterDimsToOperandDims from List.mem_singleton.mpr rfl)]
  have hsi : (scalarDims V E wf).siIdx j ⟨List.idxOf (0 : Fin 1) (scalarDims V E wf).scatterDimsToOperandDims,
      List.idxOf_lt_length_iff.2 (List.mem_singleton.mpr rfl)⟩ = segIdx (j 0) := by
    funext b; refine Fin.ext ?_
    match b with
    | ⟨0, _⟩ => rfl
    | ⟨1, _⟩ => rfl
  rw [hsi]
  rfl

theorem sKept_scalar : (scalarDims V E wf).sKept = [] := by
  show (List.finRange 1).filter (fun a : Fin 1 => a ∉ ([0] : List (Fin 1))) = []
  decide

theorem window_scalar (j : (⟨1, ![E]⟩ : Shape).Idx) : (scalarDims V E wf).window j 0 = 0 := by
  unfold ScatterDims.window
  rw [dif_neg (show ¬ (0 : Fin 1) ∈ (scalarDims V E wf).sKept by rw [sKept_scalar]; exact List.not_mem_nil)]

theorem resultIdx?_scalar_iff (j : (⟨1, ![E]⟩ : Shape).Idx) (idx : IVec ⟨2, ![E, 1]⟩ w) (i : (⟨1, ![V]⟩ : Shape).Idx) :
    (scalarDims V E wf).resultIdx? j idx = some i ↔ (idx (segIdx (j 0))).toInt = ((i 0).val : ℤ) := by
  unfold ScatterDims.resultIdx?
  have hi0 : (i 0).val < V := (i 0).isLt
  have hin : (∀ a, 0 ≤ (scalarDims V E wf).start j idx a + (scalarDims V E wf).window j a ∧
        (scalarDims V E wf).start j idx a + (scalarDims V E wf).window j a < (⟨1, ![V]⟩ : Shape).size a)
      ↔ (0 ≤ (idx (segIdx (j 0))).toInt ∧ (idx (segIdx (j 0))).toInt < V) := by
    rw [Fin.forall_fin_one, start_scalar, window_scalar]
    show (0 ≤ _ + ((0 : ℕ) : ℤ) ∧ _ + ((0 : ℕ) : ℤ) < ((V : ℕ) : ℤ)) ↔ _
    omega
  by_cases hc : ∀ a, 0 ≤ (scalarDims V E wf).start j idx a + (scalarDims V E wf).window j a ∧
      (scalarDims V E wf).start j idx a + (scalarDims V E wf).window j a < (⟨1, ![V]⟩ : Shape).size a
  · rw [dif_pos hc]
    have hc' := hin.mp hc
    constructor
    · intro h
      have h0 : ((scalarDims V E wf).start j idx 0 + (scalarDims V E wf).window j 0).toNat = (i 0).val :=
        congrArg (fun f => (f 0).val) (Option.some.inj h)
      rw [start_scalar, window_scalar] at h0
      omega
    · intro h0
      congr 1
      funext a
      refine Fin.ext ?_
      revert a
      rw [Fin.forall_fin_one]
      show ((scalarDims V E wf).start j idx 0 + (scalarDims V E wf).window j 0).toNat = (i 0).val
      rw [start_scalar, window_scalar]; omega
  · rw [dif_neg hc]
    constructor
    · intro h; exact absurd h (by simp)
    · intro h0
      exact absurd (hin.mpr ⟨by omega, by omega⟩) hc

/-- THE SCALAR SCATTER-ADD READ AT AN ENTRY: the operand's entry plus the updates whose index names it. -/
theorem scatterAdd_scalars_apply (x : (⟨1, ![V]⟩ : Shape).Idx → EReal) (idx : IVec ⟨2, ![E, 1]⟩ w)
    (upd : (⟨1, ![E]⟩ : Shape).Idx → EReal) (i : (⟨1, ![V]⟩ : Shape).Idx) :
    Ideal.hostScatterAdd (scalarDims V E wf) x idx upd i
      = x i + ∑ e : Fin E, if (idx (segIdx e)).toInt = ((i 0).val : ℤ) then upd (ix1 e) else 0 := by
  unfold Ideal.hostScatterAdd
  congr 1
  rw [Finset.sum_filter, sum_idx1]
  refine Finset.sum_congr rfl fun e _ => ?_
  by_cases hA : (idx (segIdx e)).toInt = ((i 0).val : ℤ)
  · rw [if_pos hA]; exact if_pos ((resultIdx?_scalar_iff wf (ix1 e) idx i).mpr hA)
  · rw [if_neg hA]; exact if_neg fun h => hA ((resultIdx?_scalar_iff wf (ix1 e) idx i).mp h)

end Scalars

end Cert.Proof.LibSegmentSum
-- ==== Proof.LibPairScatter.lean ====
/-
  The host's accumulating scatter of scalars at TWO-COMPONENT indices — `zeros([V, W]).at[a, b].add(u)` — read at an
  entry.

  Update `e` of `upd : [E]` is added into the operand `x : [V, W]` at the entry named by the pair
  `(idx[e, 0], idx[e, 1])`, both words read signed and neither clamped; a pair outside the operand is dropped.  Over the
  extended reals the accumulation is the exact sum, so entry `(n, m)` of the result is `x (n, m)` plus the sum of
  `upd e` over the updates `e` whose pair is `(n, m)`.
-/
import Idealize.ShloMosaic.PureOps.Ideal
import Idealize.ShloMosaic.Lib.ValueIdx
import proofs.«129990_j53197464928873_2_alg».proof.Proof.LibScatterFlat
import proofs.«129990_j53197464928873_2_alg».proof.Proof.LibSegmentSum

open scoped BigOperators
open Idealize.ShloMosaic Idealize.ShloMosaic.ValueIdx

namespace Cert.Proof.AggPairScatter

/-- The dimension numbers of a scalar scatter at index pairs: no window axis; both operand axes are inserted and are
    the ones the two index components name, in order. -/
abbrev pairDims (V W E : Nat) (wf : ScatterDims.WF ⟨2, ![V, W]⟩ ⟨2, ![E, 2]⟩ ⟨1, ![E]⟩ [] [0, 1] [0, 1] 1) :
    ScatterDims ⟨2, ![V, W]⟩ ⟨2, ![E, 2]⟩ ⟨1, ![E]⟩ where
  updateWindowDims := []
  insertedWindowDims := [0, 1]
  scatterDimsToOperandDims := [0, 1]
  indexVectorDim := 1
  wf := wf

variable {V W E w : Nat} (wf : ScatterDims.WF ⟨2, ![V, W]⟩ ⟨2, ![E, 2]⟩ ⟨1, ![E]⟩ [] [0, 1] [0, 1] 1)

/-- On operand axis 0 the window of update `j` starts at the first component of its pair, read signed. -/
theorem start0 (j : (⟨1, ![E]⟩ : Shape).Idx) (idx : IVec ⟨2, ![E, 2]⟩ w) :
    (pairDims V W E wf).start j idx 0 = (idx (ix2 (j 0) 0)).toInt := by
  unfold ScatterDims.start
  rw [dif_pos (show (0 : Fin 2) ∈ ([0, 1] : List (Fin 2)) from by decide)]
  have hsi : (pairDims V W E wf).siIdx j ⟨List.idxOf (0 : Fin 2) (pairDims V W E wf).scatterDimsToOperandDims,
      List.idxOf_lt_length_iff.2 (show (0 : Fin 2) ∈ ([0, 1] : List (Fin 2)) from by decide)⟩ = ix2 (j 0) 0 := by
    funext b; refine Fin.ext ?_
    match b with
    | ⟨0, _⟩ => rfl
    | ⟨1, _⟩ => rfl
  rw [hsi]
  rfl

/-- On operand axis 1 it starts at the second component. -/
theorem start1 (j : (⟨1, ![E]⟩ : Shape).Idx) (idx : IVec ⟨2, ![E, 2]⟩ w) :
    (pairDims V W E wf).start j idx 1 = (idx (ix2 (j 0) 1)).toInt := by
  unfold ScatterDims.start
  rw [dif_pos (show (1 : Fin 2) ∈ ([0, 1] : List (Fin 2)) from by decide)]
  have hsi : (pairDims V W E wf).siIdx j ⟨List.idxOf (1 : Fin 2) (pairDims V W E wf).scatterDimsToOperandDims,
      List.idxOf_lt_length_iff.2 (show (1 : Fin 2) ∈ ([0, 1] : List (Fin 2)) from by decide)⟩ = ix2 (j 0) 1 := by
    funext b; refine Fin.ext ?_
    match b with
    | ⟨0, _⟩ => rfl
    | ⟨1, _⟩ => rfl
  rw [hsi]
  rfl

/-- No operand axis carries a window coordinate. -/
theorem sKept_eq : (pairDims V W E wf).sKept = [] := by
  show (List.finRange 2).filter (fun a : Fin 2 => a ∉ ([0, 1] : List (Fin 2))) = []
  decide

theorem window_zero (j : (⟨1, ![E]⟩ : Shape).Idx) (a : Fin 2) : (pairDims V W E wf).window j a = 0 := by
  unfold ScatterDims.window
  rw [dif_neg (show ¬ a ∈ (pairDims V W E wf).sKept by rw [sKept_eq]; exact List.not_mem_nil)]

/-- Update `e` lands on entry `(n, m)` exactly when its pair, read signed, is `(n, m)`. -/
theorem pair_hit (e : Fin E) (idx : IVec ⟨2, ![E, 2]⟩ w) (n : Fin V) (m : Fin W) :
    (pairDims V W E wf).resultIdx? (ix1 e) idx = some (ix2 n m)
      ↔ (idx (ix2 e 0)).toInt = (n.val : ℤ) ∧ (idx (ix2 e 1)).toInt = (m.val : ℤ) := by
  rw [Cert.LibScatterFlat.resultIdx?_eq_some_iff, Fin.forall_fin_two, start0, start1, window_zero, window_zero]
  show (idx (ix2 e 0)).toInt + ((0 : ℕ) : ℤ) = ((n.val : ℕ) : ℤ) ∧ (idx (ix2 e 1)).toInt + ((0 : ℕ) : ℤ) = ((m.val : ℕ) : ℤ) ↔ _
  omega

/-- THE PAIR SCATTER-ADD READ AT AN ENTRY: the operand's entry plus the updates whose pair names the entry. -/
theorem scatterAdd_pairs_apply (x : (⟨2, ![V, W]⟩ : Shape).Idx → EReal) (idx : IVec ⟨2, ![E, 2]⟩ w)
    (upd : (⟨1, ![E]⟩ : Shape).Idx → EReal) (n : Fin V) (m : Fin W) :
    Ideal.hostScatterAdd (pairDims V W E wf) x idx upd (ix2 n m)
      = x (ix2 n m) + ∑ e : Fin E,
          if (idx (ix2 e 0)).toInt = (n.val : ℤ) ∧ (idx (ix2 e 1)).toInt = (m.val : ℤ) then upd (ix1 e) else 0 := by
  unfold Ideal.hostScatterAdd
  congr 1
  rw [Finset.sum_filter, Cert.Proof.LibSegmentSum.sum_idx1]
  refine Finset.sum_congr rfl fun e _ => ?_
  by_cases hA : (idx (ix2 e 0)).toInt = (n.val : ℤ) ∧ (idx (ix2 e 1)).toInt = (m.val : ℤ)
  · rw [if_pos hA]; exact if_pos ((pair_hit wf e idx n m).mpr hA)
  · rw [if_neg hA]; exact if_neg fun h => hA ((pair_hit wf e idx n m).mp h)

end Cert.Proof.AggPairScatter
-- ==== Proof.LibIndexWrap.lean ====
/-
  An index already in range passes unchanged through jnp's negative-index wrap and a gather's clamp.

  `x[i]` in jnp first replaces a negative `i` by `i + N` (a signed compare with zero, an add, a select) and
  the gather then clamps its start index, read as a signed number, into `[0, N - 1]`.  For a word that
  already names a row — `0 ≤ i < N`, with `N` at most `2 ^ 31` — neither step changes it.
-/
import Idealize.ShloMosaic.Lib.ValueIdx

open Idealize.ShloMosaic Idealize.ShloMosaic.ValueIdx

namespace Cert.Proof.LibIndexWrap

/-- A word below `2 ^ 31` read as a signed number is the word read as a natural number. -/
theorem toInt_eq_toNat (w : BitVec 32) (h : w.toNat < 2 ^ 31) : w.toInt = (w.toNat : ℤ) := by
  rw [BitVec.toInt_eq_toNat_cond]
  split <;> omega

/-- Such a word is not negative: the signed compare with zero answers no. -/
theorem cmpi_slt_zero (w : BitVec 32) (h : w.toNat < 2 ^ 31) : IntOp.cmpi .slt w 0#32 = 0#1 := by
  have hs : w.slt 0#32 = false := by
    rw [BitVec.slt, toInt_eq_toNat w h]
    simp
  unfold IntOp.cmpi
  rw [hs]
  rfl

/-- The wrap leaves it alone. -/
theorem wrap_eq (w N : BitVec 32) (h : w.toNat < 2 ^ 31) :
    Scalar.select (IntOp.cmpi .slt w 0#32) (IntOp.addi w N) w = w := by
  rw [cmpi_slt_zero w h]
  exact select_zero _ _

/-- The clamp leaves it alone. -/
theorem clamp_eq (w : BitVec 32) (N : ℕ) (hN : N ≤ 2 ^ 31) (h : w.toNat < N) :
    min w.toInt.toNat (N - 1) = w.toNat := by
  rw [toInt_eq_toNat w (by omega)]
  simp only [Int.toNat_natCast]
  omega

end Cert.Proof.LibIndexWrap
-- ==== Proof.AggRead.lean ====
/-
  The width-independent reads of the two aggregations: an in-range index through the negative-index wrap, the
  two-column index of the dense scatter at a row, and the dense weight matrix at an entry.

  An index word `w` is IN RANGE when, read signed, `0 ≤ w < 646`.  Such a word is below `2 ^ 31`, so the wrap
  `select (w < 0) (w + 646) w` returns it, its signed reading is its natural-number reading, and the pair scatter
  lands update `e` on entry `(n, m)` exactly when `(col e, row e) = (n, m)`.
-/
import proofs.«129990_j53197464928873_2_alg».proof.Proof.AggTerms
import proofs.«129990_j53197464928873_2_alg».proof.Proof.LibPairScatter
import proofs.«129990_j53197464928873_2_alg».proof.Proof.LibIndexWrap
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.Proof.Agg

/-- An index word is in range when, read signed, it names one of the 646 nodes. -/
abbrev InRange (w : BitVec 32) : Prop := 0 ≤ w.toInt ∧ w.toInt < 646

/-- An in-range word is small as a natural number, and its two readings agree. -/
theorem InRange.toNat_lt {w : BitVec 32} (h : InRange w) : w.toNat < 646 := by
  obtain ⟨h0, h1⟩ := h
  have hw := w.isLt
  rw [BitVec.toInt_eq_toNat_cond] at h0 h1
  by_cases hc : 2 * w.toNat < 2 ^ 32
  · rw [if_pos hc] at h1; omega
  · rw [if_neg hc] at h0; omega

theorem InRange.toInt_eq {w : BitVec 32} (h : InRange w) : w.toInt = (w.toNat : ℤ) :=
  Cert.Proof.LibIndexWrap.toInt_eq_toNat w (by have := h.toNat_lt; omega)

/-- The node an in-range word names. -/
def node (w : BitVec 32) (h : InRange w) : Fin 646 := ⟨w.toNat, h.toNat_lt⟩

/-- Its signed reading is node `n`'s number exactly when it names `n`. -/
theorem toInt_eq_iff_node {w : BitVec 32} (h : InRange w) (n : Fin 646) : w.toInt = (n.val : ℤ) ↔ node w h = n := by
  rw [h.toInt_eq]
  constructor
  · intro e; exact Fin.ext (by show w.toNat = n.val; omega)
  · intro e; rw [← e]; rfl

section Dense
open Cert.KernelIdeal Cert.KernelIdeal.Facts₀

/-- The wrap at an entry, in scalars. -/
theorem wrapD_apply (v : IVec S41990 32) (i : S41990.Idx) :
    wrapD v i = Scalar.select (IntOp.cmpi .slt (v i) 0#32) (IntOp.addi (v i) 646#32) (v i) := rfl

/-- An in-range entry passes through the wrap. -/
theorem wrapD_of_inRange (v : IVec S41990 32) (i : S41990.Idx) (h : InRange (v i)) : wrapD v i = v i := by
  rw [wrapD_apply]
  exact Cert.Proof.LibIndexWrap.wrap_eq (v i) 646#32 (by have := h.toNat_lt; omega)

/-- Column 0 of the two-column index is the wrapped `col`. -/
theorem pairIdx_col (col row : IVec S41990 32) (e : Fin 41990) :
    pairIdx col row (ix2 e (0 : Fin 2)) = wrapD col (ix1 e) := by
  unfold pairIdx
  refine (concatenate_pair_apply_left (t := S41990x2) (s₁ := S41990x1) (s₂ := S41990x1) (1 : Fin 2) _ _
    concatenates_S41990x1_S41990x1_S41990x2_d1 (ix2 e (0 : Fin 2)) rfl (ix2 e (0 : Fin 1))
    (fun b => by match b with | ⟨0, _⟩ => rfl | ⟨1, _⟩ => rfl)).trans ?_
  exact broadcastInDim_apply _ bcast_S41990_S41990x1_0 (wrapD col) (ix2 e (0 : Fin 1)) (ix1 e) (fun a => match a with
    | ⟨0, _⟩ => by show e.val = if (41990 : Nat) = 1 then 0 else e.val; rw [if_neg (by decide)])

/-- Column 1 is the wrapped `row`. -/
theorem pairIdx_row (col row : IVec S41990 32) (e : Fin 41990) :
    pairIdx col row (ix2 e (1 : Fin 2)) = wrapD row (ix1 e) := by
  unfold pairIdx
  refine (concatenate_pair_apply_right (t := S41990x2) (s₁ := S41990x1) (s₂ := S41990x1) (1 : Fin 2) _ _
    concatenates_S41990x1_S41990x1_S41990x2_d1 (ix2 e (1 : Fin 2)) rfl rfl (ix2 e (0 : Fin 1))
    (fun b hb => by
      match b with
      | ⟨0, _⟩ => rfl
      | ⟨1, _⟩ => exact absurd rfl hb) rfl).trans ?_
  exact broadcastInDim_apply _ bcast_S41990_S41990x1_0 (wrapD row) (ix2 e (0 : Fin 1)) (ix1 e) (fun a => match a with
    | ⟨0, _⟩ => by show e.val = if (41990 : Nat) = 1 then 0 else e.val; rw [if_neg (by decide)])

/-- The zero matrix at an entry. -/
theorem zeros646x646_apply (i : S646x646.Idx) :
    broadcastInDim S646x646 ![] bcast_S_S646x646 (constant (F := Ideal) S_ .f32 0x00000000#32) i = (0 : EReal) := by
  show Ideal.ofBits .f32 0x00000000#32 = 0
  exact Ideal.ofBits_zero_f32

/-- THE DENSE WEIGHT MATRIX AT AN ENTRY, for in-range indices: the sum of the weights of the edges from `m` to `n`. -/
theorem denseAdj_apply (col row : IVec S41990 32) (nrm : FVec Ideal S41990 .f32)
    (hcol : ∀ e, InRange (col e)) (hrow : ∀ e, InRange (row e)) (n m : Fin 646) :
    denseAdj col row nrm (ix2 n m)
      = 0 + ∑ e : Fin 41990,
          if node (col (ix1 e)) (hcol _) = n ∧ node (row (ix1 e)) (hrow _) = m then nrm (ix1 e) else 0 := by
  unfold denseAdj Host.scatterAdd
  rw [Ideal.hostScatterAdd_def]
  have hD : scatter_S646x646_S41990x2_S41990_n_01_01_1
      = Cert.Proof.AggPairScatter.pairDims 646 646 41990 scatter_S646x646_S41990x2_S41990_n_01_01_1_wf := rfl
  rw [hD, Cert.Proof.AggPairScatter.scatterAdd_pairs_apply, zeros646x646_apply]
  refine congrArg ((0 : EReal) + ·) (Finset.sum_congr rfl fun e _ => ?_)
  rw [pairIdx_col, pairIdx_row, wrapD_of_inRange col _ (hcol _), wrapD_of_inRange row _ (hrow _)]
  exact if_congr (and_congr (toInt_eq_iff_node (hcol _) n) (toInt_eq_iff_node (hrow _) m)) rfl rfl

end Dense

section Segment
open Cert.ReferenceIdeal Cert.ReferenceIdeal.Facts₀

/-- The segment spelling's wrap is the dense spelling's. -/
theorem wrapS_eq (v : IVec S41990 32) : wrapS v = wrapD v := rfl

/-- A rank-1 vector broadcast to a column, at a row. -/
theorem column_apply {α : Type} (v : S41990.Idx → α) (e : Fin 41990) :
    broadcastInDim S41990x1 ![0] bcast_S41990_S41990x1_0 v (ix2 e (0 : Fin 1)) = v (ix1 e) :=
  broadcastInDim_apply _ bcast_S41990_S41990x1_0 v (ix2 e (0 : Fin 1)) (ix1 e) (fun a => match a with
    | ⟨0, _⟩ => by show e.val = if (41990 : Nat) = 1 then 0 else e.val; rw [if_neg (by decide)])

end Segment

end Cert.Proof.Agg

end
-- ==== Proof.LibDenseSegment.lean ====
/-
  A dense adjacency product equals a segment sum, over the extended reals.

  Edges `e` carry a target `col e`, a source `row e` and a weight `nrm e ≥ 0`.  The dense spelling first collects
  the weights into a matrix, `A n m = ∑ of nrm e over the edges with (col e, row e) = (n, m)`, and then forms
  `∑ m, A n m * h m`; the sparse spelling forms `∑ of h (row e) * nrm e over the edges with col e = n`.

  Multiplication does not distribute over addition on all of the extended reals, but it does over a sum of
  nonnegative terms (`EReal.right_distrib_of_nonneg`), so nothing is asked of `h`; the rest is an exchange of the
  two finite sums and the collapse of the inner sum to the single `m = row e`.
-/
import Mathlib.Data.EReal.Operations
import Mathlib.Algebra.BigOperators.Group.Finset.Sigma
import Mathlib.Algebra.Order.BigOperators.Group.Finset

open scoped BigOperators

namespace Cert.Proof.AggCore

/-- A finite sum of nonnegative extended reals times `c` is the sum of the products. -/
theorem sum_mul_of_nonneg {ι : Type*} [DecidableEq ι] (s : Finset ι) (f : ι → EReal) (hf : ∀ i ∈ s, 0 ≤ f i) (c : EReal) :
    (∑ i ∈ s, f i) * c = ∑ i ∈ s, f i * c := by
  induction s using Finset.induction_on with
  | empty => simp
  | insert a s ha ih =>
    rw [Finset.sum_insert ha, Finset.sum_insert ha,
      EReal.right_distrib_of_nonneg (hf a (Finset.mem_insert_self a s))
        (Finset.sum_nonneg fun i hi => hf i (Finset.mem_insert_of_mem hi)),
      ih fun i hi => hf i (Finset.mem_insert_of_mem hi)]

variable {E N : Type*} [Fintype E] [Fintype N] [DecidableEq N]

/-- THE AGGREGATION IDENTITY at one target `n` and one feature: the dense product against the collected weights is
    the sum over the edges into `n`. -/
theorem dense_eq_segment (col row : E → N) (nrm : E → EReal) (hn : ∀ e, 0 ≤ nrm e) (h : N → EReal) (n : N) :
    ∑ m : N, (∑ e : E, if col e = n ∧ row e = m then nrm e else 0) * h m
      = ∑ e : E, if col e = n then h (row e) * nrm e else 0 := by
  classical
  have h1 : ∀ m : N, (∑ e : E, if col e = n ∧ row e = m then nrm e else 0) * h m
      = ∑ e : E, (if col e = n ∧ row e = m then nrm e else 0) * h m := fun m =>
    sum_mul_of_nonneg Finset.univ _ (fun e _ => by split <;> [exact hn e; exact le_rfl]) (h m)
  rw [Finset.sum_congr rfl fun m _ => h1 m, Finset.sum_comm]
  refine Finset.sum_congr rfl fun e _ => ?_
  rw [Finset.sum_eq_single (row e)]
  · by_cases hc : col e = n
    · rw [if_pos ⟨hc, rfl⟩, if_pos hc]; exact EReal.mul_comm _ _
    · rw [if_neg (fun hh => hc hh.1), if_neg hc, zero_mul]
  · intro m _ hm
    rw [if_neg (fun hh => hm hh.2.symm), zero_mul]
  · intro hh; exact absurd (Finset.mem_univ _) hh

/-- The same with the two accumulations started from zero, as a scatter-add into a zero operand computes them. -/
theorem dense_eq_segment_zero (col row : E → N) (nrm : E → EReal) (hn : ∀ e, 0 ≤ nrm e) (h : N → EReal) (n : N) :
    ∑ m : N, (0 + ∑ e : E, if col e = n ∧ row e = m then nrm e else 0) * h m
      = 0 + ∑ e : E, if col e = n then h (row e) * nrm e else 0 := by
  simp only [zero_add]
  exact dense_eq_segment col row nrm hn h n

end Cert.Proof.AggCore
-- ==== Proof.AggLaw64.lean ====
/-
  THE AGGREGATION LAW at width 64: the dense product against the collected weight matrix equals the gather /
  multiply / segment-sum, for in-range indices and nonnegative weights.

  At entry `(n, j)` the dense side is `∑ m, A (n, m) * h (m, j)` with `A (n, m)` the sum of the weights of the edges
  `e` with `(col e, row e) = (n, m)`; the segment side is the sum of `h (row e, j) * nrm e` over the edges with
  `col e = n` (the gather's clamp and the wrap leave an in-range `row e` alone; the scatter reads `col e` signed).
  The two agree by the identity over the extended reals proved for abstract finite types.
-/
import proofs.«129990_j53197464928873_2_alg».proof.Proof.AggRead
import proofs.«129990_j53197464928873_2_alg».proof.Proof.LibDenseSegment
import proofs.«129990_j53197464928873_2_alg».proof.Proof.LibDotGeneralEntry
import proofs.«129990_j53197464928873_2_alg».proof.Proof.LibSegmentSum
import proofs.«129990_j53197464928873_2_alg».proof.Proof.LibScatterFlat

noncomputable section

open scoped BigOperators
open Idealize.ShloMosaic Idealize.ShloMosaic.ValueIdx

namespace Cert.Proof.Agg

section Dense
open Cert.KernelIdeal Cert.KernelIdeal.Facts₀

/-- The dense aggregation at an entry: row `n` of the weight matrix against column `j` of the table. -/
theorem denseAgg64_apply (col row : IVec S41990 32) (nrm : FVec Ideal S41990 .f32) (h : FVec Ideal S646x64 .f32)
    (n : Fin 646) (j : Fin 64) :
    denseAgg64 col row nrm h (ix2 n j) = ∑ m : Fin 646, denseAdj col row nrm (ix2 n m) * h (ix2 m j) := by
  unfold denseAgg64
  exact Ideal.dotGeneral_rows_cols dot_S646x646_S646x64_S646x64_1_0_0_1_n_n rfl rfl rfl rfl rfl rfl none .single
    (denseAdj col row nrm) h n j

end Dense

section Segment
open Cert.ReferenceIdeal Cert.ReferenceIdeal.Facts₀

/-- The zero table at an entry. -/
theorem zeros646x64_apply (i : S646x64.Idx) :
    broadcastInDim S646x64 ![] bcast_S_S646x64 (constant (F := Ideal) S_ .f32 0x00000000#32) i = (0 : EReal) := by
  show Ideal.ofBits .f32 0x00000000#32 = 0
  exact Ideal.ofBits_zero_f32

/-- The weights broadcast along the feature axis, at an entry. -/
theorem weights64_apply (nrm : FVec Ideal S41990 .f32) (e : Fin 41990) (j : Fin 64) :
    broadcastInDim S41990x64 ![0, 1] bcast_S41990x1_S41990x64_0_1
        (broadcastInDim S41990x1 ![0] bcast_S41990_S41990x1_0 nrm) (ix2 e j) = nrm (ix1 e) := by
  rw [broadcastInDim_apply _ bcast_S41990x1_S41990x64_0_1 _ (ix2 e j) (ix2 e 0) (fun a => match a with
    | ⟨0, _⟩ => by show e.val = if (41990 : Nat) = 1 then 0 else e.val; rw [if_neg (by decide)]
    | ⟨1, _⟩ => by show 0 = if (1 : Nat) = 1 then 0 else j.val; rw [if_pos rfl])]
  exact column_apply nrm e

/-- The gathered row of an in-range source, at an entry: the table's row `row e`. -/
theorem gathered64_apply (row : IVec S41990 32) (h : FVec Ideal S646x64 .f32) (hrow : ∀ e, InRange (row e))
    (e : Fin 41990) (j : Fin 64) :
    Host.gather gather_S646x64_S41990x1_S41990x64_1_0_n_n_0_1_164 h
        (broadcastInDim S41990x1 ![0] bcast_S41990_S41990x1_0 (wrapS row)) (ix2 e j)
      = h (ix2 (node (row (ix1 e)) (hrow _)) j) := by
  have hD : gather_S646x64_S41990x1_S41990x64_1_0_n_n_0_1_164
      = Cert.LibScatterFlat.gd2 646 41990 64 gather_S646x64_S41990x1_S41990x64_1_0_n_n_0_1_164_wf := rfl
  rw [hD, Cert.LibScatterFlat.gather2_apply (by decide : 0 < 646)]
  refine congrArg (fun r : Fin 646 => h (ix2 r j)) (Fin.ext ?_)
  show min ((broadcastInDim S41990x1 ![0] bcast_S41990_S41990x1_0 (wrapS row)) (ix2 e 0)).toInt.toNat (646 - 1)
    = (row (ix1 e)).toNat
  rw [column_apply (wrapS row) e, wrapS_eq, wrapD_of_inRange row _ (hrow _)]
  exact Cert.Proof.LibIndexWrap.clamp_eq (row (ix1 e)) 646 (by decide) (hrow _).toNat_lt

/-- THE SEGMENT AGGREGATION AT AN ENTRY, for in-range indices: the sum over the edges into `n`. -/
theorem segAgg64_apply (col row : IVec S41990 32) (nrm : FVec Ideal S41990 .f32) (h : FVec Ideal S646x64 .f32)
    (hcol : ∀ e, InRange (col e)) (hrow : ∀ e, InRange (row e)) (n : Fin 646) (j : Fin 64) :
    segAgg64 col row nrm h (ix2 n j)
      = 0 + ∑ e : Fin 41990,
          if node (col (ix1 e)) (hcol _) = n then h (ix2 (node (row (ix1 e)) (hrow _)) j) * nrm (ix1 e) else 0 := by
  unfold segAgg64 Host.scatterAdd
  rw [Ideal.hostScatterAdd_def]
  have hD : scatter_S646x64_S41990x1_S41990x64_1_0_0_1
      = Cert.Proof.LibSegmentSum.rowDims 646 41990 64 scatter_S646x64_S41990x1_S41990x64_1_0_0_1_wf := rfl
  rw [hD, Cert.Proof.LibSegmentSum.scatterAdd_rows_apply, zeros646x64_apply]
  refine congrArg ((0 : EReal) + ·) (Finset.sum_congr rfl fun e _ => ?_)
  have hc : (broadcastInDim S41990x1 ![0] bcast_S41990_S41990x1_0 col) (Cert.Proof.LibSegmentSum.segIdx e)
      = col (ix1 e) := column_apply col e
  rw [hc]
  refine if_congr (toInt_eq_iff_node (hcol _) n) ?_ rfl
  show mulf (F := Ideal) _ _ (ix2 e j) = _
  rw [mulf_apply, gathered64_apply row h hrow e j, weights64_apply nrm e j]

end Segment

/-- THE LAW: for in-range edge ends and nonnegative weights the dense aggregation is the segment aggregation. -/
theorem denseAgg64_eq (col row : IVec Cert.KernelIdeal.S41990 32) (nrm : FVec Ideal Cert.KernelIdeal.S41990 .f32)
    (h : FVec Ideal Cert.KernelIdeal.S646x64 .f32)
    (hcol : ∀ e, InRange (col e)) (hrow : ∀ e, InRange (row e)) (hn : ∀ e, 0 ≤ nrm e) :
    denseAgg64 col row nrm h = segAgg64 col row nrm h := by
  funext i
  obtain ⟨n, j, rfl⟩ : ∃ (n : Fin 646) (j : Fin 64), i = ix2 n j := ⟨i 0, i 1, eq_ix2 i⟩
  rw [denseAgg64_apply, segAgg64_apply col row nrm h hcol hrow,
    Finset.sum_congr rfl fun m _ => congrArg (· * h (ix2 m j)) (denseAdj_apply col row nrm hcol hrow n m)]
  exact Cert.Proof.AggCore.dense_eq_segment_zero (fun e : Fin 41990 => node (col (ix1 e)) (hcol _))
    (fun e => node (row (ix1 e)) (hrow _)) (fun e => nrm (ix1 e)) (fun e => hn _) (fun m => h (ix2 m j)) n

end Cert.Proof.Agg

end
-- ==== Proof.AggLaw128.lean ====
/-
  THE AGGREGATION LAW at width 128: the dense product against the collected weight matrix equals the gather /
  multiply / segment-sum, for in-range indices and nonnegative weights.

  At entry `(n, j)` the dense side is `∑ m, A (n, m) * h (m, j)` with `A (n, m)` the sum of the weights of the edges
  `e` with `(col e, row e) = (n, m)`; the segment side is the sum of `h (row e, j) * nrm e` over the edges with
  `col e = n` (the gather's clamp and the wrap leave an in-range `row e` alone; the scatter reads `col e` signed).
  The two agree by the identity over the extended reals proved for abstract finite types.
-/
import proofs.«129990_j53197464928873_2_alg».proof.Proof.AggRead
import proofs.«129990_j53197464928873_2_alg».proof.Proof.LibDenseSegment
import proofs.«129990_j53197464928873_2_alg».proof.Proof.LibDotGeneralEntry
import proofs.«129990_j53197464928873_2_alg».proof.Proof.LibSegmentSum
import proofs.«129990_j53197464928873_2_alg».proof.Proof.LibScatterFlat

noncomputable section

open scoped BigOperators
open Idealize.ShloMosaic Idealize.ShloMosaic.ValueIdx

namespace Cert.Proof.Agg

section Dense
open Cert.KernelIdeal Cert.KernelIdeal.Facts₀

/-- The dense aggregation at an entry: row `n` of the weight matrix against column `j` of the table. -/
theorem denseAgg128_apply (col row : IVec S41990 32) (nrm : FVec Ideal S41990 .f32) (h : FVec Ideal S646x128 .f32)
    (n : Fin 646) (j : Fin 128) :
    denseAgg128 col row nrm h (ix2 n j) = ∑ m : Fin 646, denseAdj col row nrm (ix2 n m) * h (ix2 m j) := by
  unfold denseAgg128
  exact Ideal.dotGeneral_rows_cols dot_S646x646_S646x128_S646x128_1_0_0_1_n_n rfl rfl rfl rfl rfl rfl none .single
    (denseAdj col row nrm) h n j

end Dense

section Segment
open Cert.ReferenceIdeal Cert.ReferenceIdeal.Facts₀

/-- The zero table at an entry. -/
theorem zeros646x128_apply (i : S646x128.Idx) :
    broadcastInDim S646x128 ![] bcast_S_S646x128 (constant (F := Ideal) S_ .f32 0x00000000#32) i = (0 : EReal) := by
  show Ideal.ofBits .f32 0x00000000#32 = 0
  exact Ideal.ofBits_zero_f32

/-- The weights broadcast along the feature axis, at an entry. -/
theorem weights128_apply (nrm : FVec Ideal S41990 .f32) (e : Fin 41990) (j : Fin 128) :
    broadcastInDim S41990x128 ![0, 1] bcast_S41990x1_S41990x128_0_1
        (broadcastInDim S41990x1 ![0] bcast_S41990_S41990x1_0 nrm) (ix2 e j) = nrm (ix1 e) := by
  rw [broadcastInDim_apply _ bcast_S41990x1_S41990x128_0_1 _ (ix2 e j) (ix2 e 0) (fun a => match a with
    | ⟨0, _⟩ => by show e.val = if (41990 : Nat) = 1 then 0 else e.val; rw [if_neg (by decide)]
    | ⟨1, _⟩ => by show 0 = if (1 : Nat) = 1 then 0 else j.val; rw [if_pos rfl])]
  exact column_apply nrm e

/-- The gathered row of an in-range source, at an entry: the table's row `row e`. -/
theorem gathered128_apply (row : IVec S41990 32) (h : FVec Ideal S646x128 .f32) (hrow : ∀ e, InRange (row e))
    (e : Fin 41990) (j : Fin 128) :
    Host.gather gather_S646x128_S41990x1_S41990x128_1_0_n_n_0_1_1128 h
        (broadcastInDim S41990x1 ![0] bcast_S41990_S41990x1_0 (wrapS row)) (ix2 e j)
      = h (ix2 (node (row (ix1 e)) (hrow _)) j) := by
  have hD : gather_S646x128_S41990x1_S41990x128_1_0_n_n_0_1_1128
      = Cert.LibScatterFlat.gd2 646 41990 128 gather_S646x128_S41990x1_S41990x128_1_0_n_n_0_1_1128_wf := rfl
  rw [hD, Cert.LibScatterFlat.gather2_apply (by decide : 0 < 646)]
  refine congrArg (fun r : Fin 646 => h (ix2 r j)) (Fin.ext ?_)
  show min ((broadcastInDim S41990x1 ![0] bcast_S41990_S41990x1_0 (wrapS row)) (ix2 e 0)).toInt.toNat (646 - 1)
    = (row (ix1 e)).toNat
  rw [column_apply (wrapS row) e, wrapS_eq, wrapD_of_inRange row _ (hrow _)]
  exact Cert.Proof.LibIndexWrap.clamp_eq (row (ix1 e)) 646 (by decide) (hrow _).toNat_lt

/-- THE SEGMENT AGGREGATION AT AN ENTRY, for in-range indices: the sum over the edges into `n`. -/
theorem segAgg128_apply (col row : IVec S41990 32) (nrm : FVec Ideal S41990 .f32) (h : FVec Ideal S646x128 .f32)
    (hcol : ∀ e, InRange (col e)) (hrow : ∀ e, InRange (row e)) (n : Fin 646) (j : Fin 128) :
    segAgg128 col row nrm h (ix2 n j)
      = 0 + ∑ e : Fin 41990,
          if node (col (ix1 e)) (hcol _) = n then h (ix2 (node (row (ix1 e)) (hrow _)) j) * nrm (ix1 e) else 0 := by
  unfold segAgg128 Host.scatterAdd
  rw [Ideal.hostScatterAdd_def]
  have hD : scatter_S646x128_S41990x1_S41990x128_1_0_0_1
      = Cert.Proof.LibSegmentSum.rowDims 646 41990 128 scatter_S646x128_S41990x1_S41990x128_1_0_0_1_wf := rfl
  rw [hD, Cert.Proof.LibSegmentSum.scatterAdd_rows_apply, zeros646x128_apply]
  refine congrArg ((0 : EReal) + ·) (Finset.sum_congr rfl fun e _ => ?_)
  have hc : (broadcastInDim S41990x1 ![0] bcast_S41990_S41990x1_0 col) (Cert.Proof.LibSegmentSum.segIdx e)
      = col (ix1 e) := column_apply col e
  rw [hc]
  refine if_congr (toInt_eq_iff_node (hcol _) n) ?_ rfl
  show mulf (F := Ideal) _ _ (ix2 e j) = _
  rw [mulf_apply, gathered128_apply row h hrow e j, weights128_apply nrm e j]

end Segment

/-- THE LAW: for in-range edge ends and nonnegative weights the dense aggregation is the segment aggregation. -/
theorem denseAgg128_eq (col row : IVec Cert.KernelIdeal.S41990 32) (nrm : FVec Ideal Cert.KernelIdeal.S41990 .f32)
    (h : FVec Ideal Cert.KernelIdeal.S646x128 .f32)
    (hcol : ∀ e, InRange (col e)) (hrow : ∀ e, InRange (row e)) (hn : ∀ e, 0 ≤ nrm e) :
    denseAgg128 col row nrm h = segAgg128 col row nrm h := by
  funext i
  obtain ⟨n, j, rfl⟩ : ∃ (n : Fin 646) (j : Fin 128), i = ix2 n j := ⟨i 0, i 1, eq_ix2 i⟩
  rw [denseAgg128_apply, segAgg128_apply col row nrm h hcol hrow,
    Finset.sum_congr rfl fun m _ => congrArg (· * h (ix2 m j)) (denseAdj_apply col row nrm hcol hrow n m)]
  exact Cert.Proof.AggCore.dense_eq_segment_zero (fun e : Fin 41990 => node (col (ix1 e)) (hcol _))
    (fun e => node (row (ix1 e)) (hrow _)) (fun e => nrm (ix1 e)) (fun e => hn _) (fun m => h (ix2 m j)) n

end Cert.Proof.Agg

end
-- ==== Proof.AggLaw.lean ====
/-
  The aggregation law at both widths, with each side's definition unfolded to the operations it composes.

  `denseAgg64_eq` / `denseAgg128_eq` (imported) state: for edge ends that, read signed, lie in `[0, 646)` and
  nonnegative weights, the dense product `A · h` with `A = zeros.at[col, row].add(nrm)` is the segment sum of
  `h[row] * nrm` by `col`.  The lemmas below spell the two sides out, operation by operation.
-/
import proofs.«129990_j53197464928873_2_alg».proof.Proof.AggLaw64
import proofs.«129990_j53197464928873_2_alg».proof.Proof.AggLaw128

noncomputable section

open Idealize.ShloMosaic

namespace Cert.Proof.Agg

section Dense
open Cert.KernelIdeal Cert.KernelIdeal.Facts₀

/-- The dense weight matrix, operation by operation. -/
theorem denseAdj_def (col row : IVec S41990 32) (nrm : FVec Ideal S41990 .f32) :
    denseAdj col row nrm
      = Host.scatterAdd (F := Ideal) scatter_S646x646_S41990x2_S41990_n_01_01_1
          (broadcastInDim S646x646 ![] bcast_S_S646x646 (constant (F := Ideal) S_ .f32 0x00000000#32))
          (concatenate S41990x2 1
            [⟨S41990x1, broadcastInDim S41990x1 ![0] bcast_S41990_S41990x1_0
              (select (cmpi .slt col (broadcastInDim S41990 ![] bcast_S_S41990 (constantI S_ 32 0#32)))
                (addi col (broadcastInDim S41990 ![] bcast_S_S41990 (constantI S_ 32 646#32))) col)⟩,
             ⟨S41990x1, broadcastInDim S41990x1 ![0] bcast_S41990_S41990x1_0
              (select (cmpi .slt row (broadcastInDim S41990 ![] bcast_S_S41990 (constantI S_ 32 0#32)))
                (addi row (broadcastInDim S41990 ![] bcast_S_S41990 (constantI S_ 32 646#32))) row)⟩]
            concatenates_S41990x1_S41990x1_S41990x2_d1)
          nrm := rfl

/-- The dense aggregations, as one `dot_general` each. -/
theorem denseAgg64_def (col row : IVec S41990 32) (nrm : FVec Ideal S41990 .f32) (h : FVec Ideal S646x64 .f32) :
    denseAgg64 col row nrm h
      = Host.dotGeneral (F := Ideal) dot_S646x646_S646x64_S646x64_1_0_0_1_n_n none (denseAdj col row nrm) h := rfl

theorem denseAgg128_def (col row : IVec S41990 32) (nrm : FVec Ideal S41990 .f32) (h : FVec Ideal S646x128 .f32) :
    denseAgg128 col row nrm h
      = Host.dotGeneral (F := Ideal) dot_S646x646_S646x128_S646x128_1_0_0_1_n_n none (denseAdj col row nrm) h := rfl

end Dense

section Segment
open Cert.ReferenceIdeal Cert.ReferenceIdeal.Facts₀

/-- The segment aggregations, operation by operation. -/
theorem segAgg64_def (col row : IVec S41990 32) (nrm : FVec Ideal S41990 .f32) (h : FVec Ideal S646x64 .f32) :
    segAgg64 col row nrm h
      = Host.scatterAdd (F := Ideal) scatter_S646x64_S41990x1_S41990x64_1_0_0_1
          (broadcastInDim S646x64 ![] bcast_S_S646x64 (constant (F := Ideal) S_ .f32 0x00000000#32))
          (broadcastInDim S41990x1 ![0] bcast_S41990_S41990x1_0 col)
          (mulf (F := Ideal)
            (Host.gather gather_S646x64_S41990x1_S41990x64_1_0_n_n_0_1_164 h
              (broadcastInDim S41990x1 ![0] bcast_S41990_S41990x1_0
                (select (cmpi .slt row (broadcastInDim S41990 ![] bcast_S_S41990 (constantI S_ 32 0#32)))
                  (addi row (broadcastInDim S41990 ![] bcast_S_S41990 (constantI S_ 32 646#32))) row)))
            (broadcastInDim S41990x64 ![0, 1] bcast_S41990x1_S41990x64_0_1
              (broadcastInDim S41990x1 ![0] bcast_S41990_S41990x1_0 nrm))) := rfl

theorem segAgg128_def (col row : IVec S41990 32) (nrm : FVec Ideal S41990 .f32) (h : FVec Ideal S646x128 .f32) :
    segAgg128 col row nrm h
      = Host.scatterAdd (F := Ideal) scatter_S646x128_S41990x1_S41990x128_1_0_0_1
          (broadcastInDim S646x128 ![] bcast_S_S646x128 (constant (F := Ideal) S_ .f32 0x00000000#32))
          (broadcastInDim S41990x1 ![0] bcast_S41990_S41990x1_0 col)
          (mulf (F := Ideal)
            (Host.gather gather_S646x128_S41990x1_S41990x128_1_0_n_n_0_1_1128 h
              (broadcastInDim S41990x1 ![0] bcast_S41990_S41990x1_0
                (select (cmpi .slt row (broadcastInDim S41990 ![] bcast_S_S41990 (constantI S_ 32 0#32)))
                  (addi row (broadcastInDim S41990 ![] bcast_S_S41990 (constantI S_ 32 646#32))) row)))
            (broadcastInDim S41990x128 ![0, 1] bcast_S41990x1_S41990x128_0_1
              (broadcastInDim S41990x1 ![0] bcast_S41990_S41990x1_0 nrm))) := rfl

end Segment

end Cert.Proof.Agg

end
-- ==== Proof.PreFacts.lean ====
/-
  What the precondition gives about the edge list.

  The precondition is printed as a conjunction of eight all-reductions; the last one says that every entry
  of the edge list, read as a signed number, lies in [0, 646).  Opening the conjunction and the reduction
  (the law for an all-reduce) leaves that bound at each entry.  The two index arrays the programs
  build from the edge list — a row of it, flattened, followed by the numbers 0 … 645 — then have every entry
  in [0, 646) as well: an entry is either an entry of the edge list or one of the appended numbers.
-/
import proofs.«129990_j53197464928873_2_alg».proof.Pre_finite_inputs
import Idealize.ShloMosaic.Lib.Affine
import Idealize.ShloMosaic.Lib.ReduceAll
import Idealize.ShloMosaic.Lib.ValueLayout
import Idealize.ShloMosaic.Lib.IdealHost
import Idealize.ShloMosaic.PureOps.Ideal

open Idealize.ShloMosaic Idealize.ShloMosaic.ValueIdx

namespace Cert.Proof.PreFacts

abbrev S646x32768 : Shape := ⟨2, ![646, 32768]⟩
abbrev S2x41344 : Shape := ⟨2, ![2, 41344]⟩
abbrev S32768x64 : Shape := ⟨2, ![32768, 64]⟩
abbrev S64 : Shape := ⟨1, ![64]⟩
abbrev S64x128 : Shape := ⟨2, ![64, 128]⟩
abbrev S128 : Shape := ⟨1, ![128]⟩
abbrev S1x41344 : Shape := ⟨2, ![1, 41344]⟩
abbrev S41344 : Shape := ⟨1, ![41344]⟩
abbrev S646 : Shape := ⟨1, ![646]⟩
abbrev S41990 : Shape := ⟨1, ![41990]⟩
abbrev S41990x1 : Shape := ⟨2, ![41990, 1]⟩
abbrev S_ : Shape := ⟨0, ![]⟩

/-- The result shape of an all-reduce to a scalar has one index. -/
instance subsingleton_scalar_idx : Subsingleton (⟨0, ![]⟩ : Shape).Idx := ⟨fun _ _ => funext fun d => d.elim0⟩

/-! ## The range conjunct -/

/-- Every entry of the edge list is in [0, 646) as a signed number. -/
theorem edge_in_range [Cert.Pre_finite_inputs.Facts]
    (x : FVec Ideal S646x32768 .f32) (ei : IVec S2x41344 32) (W1 : FVec Ideal S32768x64 .f32)
    (b1 : FVec Ideal S64 .f32) (W2 : FVec Ideal S64x128 .f32) (b2 : FVec Ideal S128 .f32)
    (LPw : FVec Ideal S32768x64 .f32) (LPb : FVec Ideal S64 .f32)
    (h : Cert.Pre_finite_inputs.fn (F := Ideal) x ei W1 b1 W2 b2 LPw LPb = fun _ => 1#1)
    (i : S2x41344.Idx) : 0 ≤ (ei i).toInt ∧ (ei i).toInt < 646 := by
  have h0 := congrFun h ix0
  dsimp only [Cert.Pre_finite_inputs.fn, Cert.Pre_finite_inputs.fn_part1, Cert.Pre_finite_inputs.fn_part2] at h0
  have h1 := (IntOp.andi_eq_one.mp h0).2
  have h2 := Host.reduce_andi_all _ _ _ _ _ h1 i
  obtain ⟨hge, hlt⟩ := IntOp.andi_eq_one.mp h2
  have hge' := IntOp.cmpi_sge.mp hge
  have hlt' := IntOp.cmpi_slt.mp hlt
  rw [broadcastInDim_scalar_apply, constantI_apply] at hge' hlt'
  exact ⟨hge', hlt'⟩

/-! ## The two index arrays -/

/-- A word made from a number below 2 ^ 31, read as a signed number, is that number. -/
theorem toInt_ofNat_small (n : ℕ) (hn : n < 2 ^ 31) : (BitVec.ofNat 32 n).toInt = (n : ℤ) := by
  rw [BitVec.toInt_eq_toNat_cond, BitVec.toNat_ofNat, Nat.mod_eq_of_lt (by omega)]
  split <;> omega

/-- Row `r` of the edge list, flattened, followed by the numbers 0 … 645: every entry is in [0, 646). -/
theorem idxArr_in_range (r : ℕ) (ei : IVec S2x41344 32)
    (hs : S2x41344.Slices ![r, 0] S1x41344) (hc : S1x41344.ShapeCasts S41344)
    (hcat : Shape.Concatenates [S41344, S646] S41990 0)
    (hei : ∀ i : S2x41344.Idx, 0 ≤ (ei i).toInt ∧ (ei i).toInt < 646) (e : S41990.Idx) :
    0 ≤ (concatenate S41990 0 [⟨S41344, shapeCast S41344 (extractStridedSlice S1x41344 ![r, 0] ei hs) hc⟩,
          ⟨S646, iotaInDim S646 32 0⟩] hcat e).toInt
      ∧ (concatenate S41990 0 [⟨S41344, shapeCast S41344 (extractStridedSlice S1x41344 ![r, 0] ei hs) hc⟩,
          ⟨S646, iotaInDim S646 32 0⟩] hcat e).toInt < 646 := by
  have hr2 : r + 1 ≤ 2 := hs.2 0
  by_cases hlt : (e 0).val < 41344
  · -- an entry of the edge list
    rw [concatenate_pair_apply_left (s₁ := S41344) (s₂ := S646) (0 : Fin 1) _ _ hcat e rfl (ix1 ⟨(e 0).val, hlt⟩)
      (fun b => by match b with | ⟨0, _⟩ => rfl)]
    rw [shapeCast_1a_a_apply, slice2_axis0_apply r ei hs (0 : Fin 1) ⟨(e 0).val, hlt⟩ ⟨r, by omega⟩ rfl]
    exact hei _
  · -- one of the appended numbers
    have hge : 41344 ≤ (e 0).val := Nat.le_of_not_lt hlt
    have hb : (e 0).val < 41990 := (e 0).isLt
    rw [concatenate_pair_apply_right (s₁ := S41344) (s₂ := S646) (0 : Fin 1) _ _ hcat e rfl rfl (ix1 ⟨(e 0).val - 41344, by omega⟩)
      (fun b hne => by match b with | ⟨0, _⟩ => exact absurd rfl hne)
      (by show (e 0).val - 41344 + 41344 = (e 0).val; omega)]
    rw [iotaInDim_apply]
    show 0 ≤ (BitVec.ofNat 32 ((e 0).val - 41344)).toInt ∧ (BitVec.ofNat 32 ((e 0).val - 41344)).toInt < 646
    rw [toInt_ofNat_small _ (by omega)]
    omega

/-- The sources' array: row 0 of the edge list followed by 0 … 645. -/
theorem rowArr_in_range (ei : IVec S2x41344 32)
    (hs : S2x41344.Slices ![0, 0] S1x41344) (hc : S1x41344.ShapeCasts S41344)
    (hcat : Shape.Concatenates [S41344, S646] S41990 0)
    (hei : ∀ i : S2x41344.Idx, 0 ≤ (ei i).toInt ∧ (ei i).toInt < 646) (e : S41990.Idx) :
    0 ≤ (concatenate S41990 0 [⟨S41344, shapeCast S41344 (extractStridedSlice S1x41344 ![0, 0] ei hs) hc⟩,
          ⟨S646, iotaInDim S646 32 0⟩] hcat e).toInt
      ∧ (concatenate S41990 0 [⟨S41344, shapeCast S41344 (extractStridedSlice S1x41344 ![0, 0] ei hs) hc⟩,
          ⟨S646, iotaInDim S646 32 0⟩] hcat e).toInt < 646 :=
  idxArr_in_range 0 ei hs hc hcat hei e

/-- The targets' array: row 1 of the edge list followed by 0 … 645. -/
theorem colArr_in_range (ei : IVec S2x41344 32)
    (hs : S2x41344.Slices ![1, 0] S1x41344) (hc : S1x41344.ShapeCasts S41344)
    (hcat : Shape.Concatenates [S41344, S646] S41990 0)
    (hei : ∀ i : S2x41344.Idx, 0 ≤ (ei i).toInt ∧ (ei i).toInt < 646) (e : S41990.Idx) :
    0 ≤ (concatenate S41990 0 [⟨S41344, shapeCast S41344 (extractStridedSlice S1x41344 ![1, 0] ei hs) hc⟩,
          ⟨S646, iotaInDim S646 32 0⟩] hcat e).toInt
      ∧ (concatenate S41990 0 [⟨S41344, shapeCast S41344 (extractStridedSlice S1x41344 ![1, 0] ei hs) hc⟩,
          ⟨S646, iotaInDim S646 32 0⟩] hcat e).toInt < 646 :=
  idxArr_in_range 1 ei hs hc hcat hei e

end Cert.Proof.PreFacts
-- ==== Proof.TailBridge.lean ====
/-
  The two programs after the projection compute the same value.

  Stage by stage.  The two index arrays, the degrees, the array `dinv` and the edge weights are the same operations in
  both programs.  The two column halves of the projection are the reference's two products with the big input (the
  projection law).  The reference aggregates by gathering rows, scaling them by the weights and adding them up by
  target; the other program multiplies by the dense weight matrix: for edge ends in range and nonnegative weights the
  two agree (the aggregation law), at both widths.  Every other stage — the bias additions, the SiLU, the
  normalisation, the product with `W2` — is the same operation applied to equal operands.
-/
import proofs.«129990_j53197464928873_2_alg».proof.Proof.TailDefs
import proofs.«129990_j53197464928873_2_alg».proof.Proof.RefRead
import proofs.«129990_j53197464928873_2_alg».proof.Proof.AggLaw
import proofs.«129990_j53197464928873_2_alg».proof.Proof.PreFacts

noncomputable section

namespace Cert.Proof.Tail

open Idealize.ShloMosaic Cert.ReferenceIdeal.ReadP

section Stages

variable (x : FVec Ideal Cert.KernelIdeal.S646x32768 .f32) (ei : IVec Cert.KernelIdeal.S2x41344 32)
  (W1 : FVec Ideal Cert.KernelIdeal.S32768x64 .f32) (b1 : FVec Ideal Cert.KernelIdeal.S64 .f32)
  (W2 : FVec Ideal Cert.KernelIdeal.S64x128 .f32) (b2 : FVec Ideal Cert.KernelIdeal.S128 .f32)
  (LPw : FVec Ideal Cert.KernelIdeal.S32768x64 .f32) (LPb : FVec Ideal Cert.KernelIdeal.S64 .f32)

/-! ### The index arrays and the weights: the same operations -/

theorem ref_row : val_main_v8 (F := Ideal) ei = rowOf ei := rfl
theorem ref_col : val_main_v11 (F := Ideal) ei = colOf ei := rfl
theorem ref_row' : val_main_v76 (F := Ideal) ei = rowOf ei := rfl
theorem ref_col' : val_main_v79 (F := Ideal) ei = colOf ei := rfl

theorem ref_dinv : val_main_v19 (F := Ideal) ei = dinvOf (val_main_v11 (F := Ideal) ei) := rfl
theorem ref_dinv' : val_main_v87 (F := Ideal) ei = dinvOf (val_main_v79 (F := Ideal) ei) := rfl

theorem ref_nrm : val_main_v34 (F := Ideal) ei
    = nrmFrom (val_main_v19 (F := Ideal) ei) (val_main_v11 (F := Ideal) ei) (val_main_v8 (F := Ideal) ei) := rfl
theorem ref_nrm' : val_main_v102 (F := Ideal) ei
    = nrmFrom (val_main_v87 (F := Ideal) ei) (val_main_v79 (F := Ideal) ei) (val_main_v76 (F := Ideal) ei) := rfl

/-! ### The aggregations, as the segment spelling -/

theorem ref_seg64 : val_main_v47 (F := Ideal) x ei W1
    = Cert.Proof.Agg.segAgg64 (val_main_v11 (F := Ideal) ei) (val_main_v8 (F := Ideal) ei) (val_main_v34 (F := Ideal) ei)
        (val_main_v4 (F := Ideal) x W1) := rfl

theorem ref_seg128 : val_main_v115 (F := Ideal) x ei W1 b1 W2 LPw LPb
    = Cert.Proof.Agg.segAgg128 (val_main_v79 (F := Ideal) ei) (val_main_v76 (F := Ideal) ei) (val_main_v102 (F := Ideal) ei)
        (val_main_v72 (F := Ideal) x ei W1 b1 W2 LPw LPb) := rfl

/-! ### The pointwise stages: the same operations -/

theorem ref_v3 : val_main_v3 (F := Ideal) x LPw LPb = addf (val_main_v0 (F := Ideal) x LPw) (biasRows64 LPb) := rfl

theorem ref_v51 : val_main_v51 (F := Ideal) x ei W1 b1 LPw LPb
    = hiddenOf (val_main_v3 (F := Ideal) x LPw LPb) (val_main_v47 (F := Ideal) x ei W1) b1 := rfl

theorem ref_v58 : val_main_v58 (F := Ideal) x ei W1 b1 LPw LPb = siluOf (val_main_v51 (F := Ideal) x ei W1 b1 LPw LPb) := rfl

theorem ref_v71 : val_main_v71 (F := Ideal) x ei W1 b1 LPw LPb = lnOf (val_main_v58 (F := Ideal) x ei W1 b1 LPw LPb) := rfl

theorem ref_v72 : val_main_v72 (F := Ideal) x ei W1 b1 W2 LPw LPb
    = Host.dotGeneral (F := Ideal) (φ₁ := .f32) (φ₂ := .f32) Cert.KernelIdeal.dot_S646x64_S64x128_S646x128_1_0_0_1_n_n none
        (val_main_v71 (F := Ideal) x ei W1 b1 LPw LPb) W2 := rfl

theorem ref_v118 : val_main_v118 (F := Ideal) x ei W1 b1 W2 b2 LPw LPb
    = addf (val_main_v115 (F := Ideal) x ei W1 b1 W2 LPw LPb) (biasRows128 b2) := rfl

end Stages

/-! ## The bridge -/

open Cert.Proof.ProjLaw in
/-- For an edge list in range, and `P` the two halves of the projection (each half its four tiles added onto zero),
    the composed tail is the reference's result. -/
theorem tail_bridge (x : FVec Ideal Cert.KernelIdeal.S646x32768 .f32) (ei : IVec Cert.KernelIdeal.S2x41344 32)
    (W1 : FVec Ideal Cert.KernelIdeal.S32768x64 .f32) (b1 : FVec Ideal Cert.KernelIdeal.S64 .f32)
    (W2 : FVec Ideal Cert.KernelIdeal.S64x128 .f32) (b2 : FVec Ideal Cert.KernelIdeal.S128 .f32)
    (LPw : FVec Ideal Cert.KernelIdeal.S32768x64 .f32) (LPb : FVec Ideal Cert.KernelIdeal.S64 .f32)
    (P : FVec Ideal Cert.KernelIdeal.S2x646x128 .f32)
    (hP : ∀ (c : Fin 2) (n : Fin 646) (j : Fin 128), P (ValueIdx.ix3 c n j)
      = (((0 + ∑ k : Fin 4096, x (ValueIdx.ix2 n (tIdx c 0 k)) * wcat W1 LPw (ValueIdx.ix2 (tIdx c 0 k) j))
            + ∑ k : Fin 4096, x (ValueIdx.ix2 n (tIdx c 1 k)) * wcat W1 LPw (ValueIdx.ix2 (tIdx c 1 k) j))
          + ∑ k : Fin 4096, x (ValueIdx.ix2 n (tIdx c 2 k)) * wcat W1 LPw (ValueIdx.ix2 (tIdx c 2 k) j))
        + ∑ k : Fin 4096, x (ValueIdx.ix2 n (tIdx c 3 k)) * wcat W1 LPw (ValueIdx.ix2 (tIdx c 3 k) j))
    (hei : ∀ i, 0 ≤ (ei i).toInt ∧ (ei i).toInt < 646) :
    kerTail P ei b1 W2 b2 LPb = val_main_v118 (F := Ideal) x ei W1 b1 W2 b2 LPw LPb := by
  -- the two column halves are the reference's two products
  have hL : projL P = val_main_v4 (F := Ideal) x W1 := proj_left x W1 LPw P hP
  have hR : projR P = val_main_v0 (F := Ideal) x LPw := proj_right x W1 LPw P hP
  -- the edge ends are in range, the weights nonnegative
  have hrow : ∀ e, Cert.Proof.Agg.InRange (rowOf ei e) := fun e =>
    Cert.Proof.PreFacts.rowArr_in_range ei _ _ _ hei e
  have hcol : ∀ e, Cert.Proof.Agg.InRange (colOf ei e) := fun e =>
    Cert.Proof.PreFacts.colArr_in_range ei _ _ _ hei e
  have hn : ∀ e, 0 ≤ nrmOf ei e := fun e => by
    rw [nrmOf_eq]; exact Cert.Proof.PreFactsNorm.norm_nonneg _ _ e
  -- the dense aggregations are the segment ones
  rw [kerTail_eq, Cert.Proof.Agg.denseAgg128_eq _ _ _ _ hcol hrow hn, Cert.Proof.Agg.denseAgg64_eq _ _ _ _ hcol hrow hn]
  -- the reference, stage by stage
  rw [ref_v118, ref_seg128, ref_v72, ref_v71, ref_v58, ref_v51, ref_seg64, ref_v3, ref_nrm, ref_nrm', ref_dinv, ref_dinv',
    ref_col, ref_row, ref_col', ref_row', ← hL, ← hR]
  rfl

end Cert.Proof.Tail

end
-- ==== Proof.lean ====
/-
  The proof of this certificate's claim: a fused two-projection Pallas kernel feeding a two-layer graph convolution, against its
  plain jnp reference.

  The kernel computes x @ [W1 | LPw] in one pass over x, the reduction axis cut in eight tiles of 4096 dealt four to each of two
  cores, each core accumulating its four tiles in a scratch buffer and writing the partial product out at its last tile; the host
  adds the two partial products, takes the two column halves, and then builds ONE dense normalised adjacency matrix by a scatter-add
  of the edge weights at (target, source) and aggregates by two dense matrix products. The reference computes x @ W1 and x @ LPw
  whole, and aggregates by gathering the source rows, scaling them by the edge weights and scatter-adding them at the targets.
  Over the extended reals the two agree when every edge endpoint is a node index in [0, 646): the eight tiles add up to the whole
  contraction (addition is commutative and associative), an in-range index passes unchanged through both programs' index handling,
  and a sum of nonnegative edge weights times a row entry distributes over the sum — the weights are products of reciprocal square
  roots of positive degrees, or zero — so each row of (adjacency × h) is the sum over the edges into that node of weight × source row.
  The frames of the kernel's program, at the word level and idealized, are proved by hand over the library's frame run for a scratch
  carried between grid points and host lines after the region (KFrame*, KIFrame*); the reference's frame is its run.
-/
import proofs.«129990_j53197464928873_2_alg».proof.Defs
import proofs.«129990_j53197464928873_2_alg».proof.Proof.Gen.Kernel
import proofs.«129990_j53197464928873_2_alg».proof.Proof.Gen.KernelIdeal
import proofs.«129990_j53197464928873_2_alg».proof.Proof.Gen.ReferenceIdeal
import proofs.«129990_j53197464928873_2_alg».proof.Proof.Gen.Pre_finite_inputs
import proofs.«129990_j53197464928873_2_alg».proof.Proof.KFrame
import proofs.«129990_j53197464928873_2_alg».proof.Proof.KIFrame
import proofs.«129990_j53197464928873_2_alg».proof.Proof.RefRun
import proofs.«129990_j53197464928873_2_alg».proof.Proof.RefRead
import proofs.«129990_j53197464928873_2_alg».proof.Proof.KIRunValue
import proofs.«129990_j53197464928873_2_alg».proof.Proof.TailBridge
import proofs.«129990_j53197464928873_2_alg».proof.Proof.PreFacts
import Idealize.ShloMosaic.Adequacy
import Idealize.ShloMosaic.Init

noncomputable section

namespace Cert.Proof

open Idealize.ShloMosaic Idealize.ShloMosaic.TcCoe Idealize.SL.Sem

/-- The kernel's program at the word level runs to the end, nothing faulting, its arguments unchanged. -/
theorem frame_p : Cert.frame_Kernel := fun m ρ _ => Cert.Kernel.Fr.frame m ρ
/-- The same for its idealization. -/
theorem frame_pi : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealization is the program's own text read at the ideal instance. -/
theorem preserves : Cert.preserves_Kernel_KernelIdeal := trivial

/-- From memories agreeing on the arguments both idealized programs run to the end with one result: the kernel's is the later
    host lines' function of the two cores' partial products, the reference's its own staged value of the arguments, and the two
    are equal entry by entry once every edge endpoint is a node index (the precondition's last conjunct): the partial products
    add up to the whole contractions, and the dense adjacency products are the segment sums of the scaled source rows. -/
theorem algebraic : Cert.algebraic_KernelIdeal_ReferenceIdeal := by
  intro m ρ m' ρ' hpre hagree
  refine ⟨_, Cert.KernelIdeal.Fr.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v118_eq, a0, a1, a2, a3, a4, a5, a6, a7]
  unfold Cert.KernelIdeal.Fr.kres
  exact (Cert.Proof.Tail.tail_bridge _ _ _ _ _ _ _ _ _ (Cert.KernelIdeal.Fr.Pres_tiles m c)
    (Cert.Proof.PreFacts.edge_in_range _ _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
